-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S8x32 : Shape := ⟨2, ![8, 32]⟩
abbrev S8 : Shape := ⟨1, ![8]⟩
abbrev S32x8 : Shape := ⟨2, ![32, 8]⟩
abbrev S32 : Shape := ⟨1, ![32]⟩
abbrev S8x16 : Shape := ⟨2, ![8, 16]⟩
abbrev S16x8 : Shape := ⟨2, ![16, 8]⟩
abbrev S16 : Shape := ⟨1, ![16]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S8x16 : S_.BroadcastsInDim S8x16 (![] : Fin 0 → Fin S8x16.rank)
  reducesTo_S8x16_S_d0_1 : S8x16.ReducesTo [0, 1] S_
  bcast_S_S16x8 : S_.BroadcastsInDim S16x8 (![] : Fin 0 → Fin S16x8.rank)
  reducesTo_S16x8_S_d0_1 : S16x8.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16x8 .f32) (main_arg8 : FVec F S16 .f32) (main_v33 : IVec S_ 1) : IVec S_ 1 :=
  let main_v34 : FVec F S16x8 .f32 := Host.absf main_arg7
  let main_cst_12 : FVec F S_ .f32 := constant S_ .f32 0x7F800000#32
  let main_v35 : FVec F S16x8 .f32 := broadcastInDim S16x8 ![] bcast_S_S16x8 main_cst_12
  let main_v36 : IVec S16x8 1 := cmpf .olt main_v34 main_v35
  let main_c_13 : IVec S_ 1 := constantI S_ 1 1#1
  let main_v37 : IVec S_ 1 := (fun x v => Host.reduce IntOp.andi x v reducesTo_S16x8_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S32 .f32) (main_arg5 : FVec F S8x16 .f32) (main_arg6 : FVec F S8 .f32) (main_arg7 : FVec F S16x8 .f32) (main_arg8 : FVec F S16 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S8x16 .f32 := Host.absf main_arg5
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_v33

def fn {F : FTy → Type} [FloatOps F] (main_arg0 : FVec F S16x512x64x64 .f32) (main_arg1 : FVec F S8x32 .f32) (main_arg2 : FVec F S8 .f32) (main_arg3 : FVec F S32x8 .f32) (main_arg4 : FVec F S32 .f32) (main_arg5 : FVec F S8x16 .f32) (main_arg6 : FVec F S8 .f32) (main_arg7 : FVec F S16x8 .f32) (main_arg8 : FVec F S16 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S8x32 .f32 := Host.absf main_arg1
  let main_cst_0 : FVec F S_ .f32 := constant S_ .f32 0x7F800000#32
  let main_v5 : FVec F S8x32 .f32 := broadcastInDim S8x32 ![] bcast_S_S8x32 main_cst_0
  let main_v6 : IVec S8x32 1 := cmpf .olt main_v4 main_v5
  let main_c_1 : IVec S_ 1 := constantI S_ 1 1#1
  let main_v7 : IVec S_ 1 := (fun x v => Host.reduce IntOp.andi x v reducesTo_S8x32_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S32x8 .f32 := Host.absf main_arg3
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg4 main_arg5 main_arg6 main_arg7 main_arg8 main_v13 main_v16
-- ==== Kernel.lean ====
abbrev S16x512x64x64 : Shape := ⟨4, ![16, 512, 64, 64]⟩
abbrev S8x32 : Shape := ⟨2, ![8, 32]⟩
abbrev S8 : Shape := ⟨1, ![8]⟩
abbrev S32x8 : Shape := ⟨2, ![32, 8]⟩
abbrev S32 : Shape := ⟨1, ![32]⟩
abbrev S8x16 : Shape := ⟨2, ![8, 16]⟩
abbrev S16x8 : Shape := ⟨2, ![16, 8]⟩
abbrev S16 : Shape := ⟨1, ![16]⟩
abbrev S16x16x32x4096 : Shape := ⟨4, ![16, 16, 32, 4096]⟩
abbrev S16x16x1 : Shape := ⟨3, ![16, 16, 1]⟩
abbrev S1x16x32x4096 : Shape := ⟨4, ![1, 16, 32, 4096]⟩
abbrev S1x16x1 : Shape := ⟨3, ![1, 16, 1]⟩
abbrev S1x8 : Shape := ⟨2, ![1, 8]⟩
abbrev S32x1 : Shape := ⟨2, ![32, 1]⟩
abbrev S1x1x32x4096 : Shape := ⟨4, ![1, 1, 32, 4096]⟩
abbrev S32x4096 : Shape := ⟨2, ![32, 4096]⟩
abbrev S1 : Shape := ⟨1, ![1]⟩
abbrev S1x1 : Shape := ⟨2, ![1, 1]⟩
abbrev S1x1x1 : Shape := ⟨3, ![1, 1, 1]⟩
abbrev S16x16x32x64x64 : Shape := ⟨5, ![16, 16, 32, 64, 64]⟩
abbrev S16x32x16x64x64 : Shape := ⟨5, ![16, 32, 16, 64, 64]⟩
abbrev S16x16 : Shape := ⟨2, ![16, 16]⟩
abbrev S_ : Shape := ⟨0, ![]⟩
abbrev S1x16 : Shape := ⟨2, ![1, 16]⟩

abbrev nBuf : Space → Nat
  | .hbm => 46
  | .vmem => 26
  | .smem => 0
  | _ => 0

abbrev bufTy : (tb : Table) → Fin (tcTables nBuf tb) → BufTy
  | .hbm, ⟨0, _⟩ => ⟨S16x512x64x64, .f32⟩
  | .hbm, ⟨1, _⟩ => ⟨S8x32, .f32⟩
  | .hbm, ⟨2, _⟩ => ⟨S8, .f32⟩
  | .hbm, ⟨3, _⟩ => ⟨S32x8, .f32⟩
  | .hbm, ⟨4, _⟩ => ⟨S32, .f32⟩
  | .hbm, ⟨5, _⟩ => ⟨S8x16, .f32⟩
  | .hbm, ⟨6, _⟩ => ⟨S8, .f32⟩
  | .hbm, ⟨7, _⟩ => ⟨S16x8, .f32⟩
  | .hbm, ⟨8, _⟩ => ⟨S16, .f32⟩
  | .hbm, ⟨9, _⟩ => ⟨S32x8, .f32⟩
  | .hbm, ⟨10, _⟩ => ⟨S16x16x32x4096, .f32⟩
  | .hbm, ⟨11, _⟩ => ⟨S16x16x32x4096, .f32⟩
  | .hbm, ⟨12, _⟩ => ⟨S16x16x1, .f32⟩
  | .hbm, ⟨13, _⟩ => ⟨S16x16x32x64x64, .f32⟩
  | .hbm, ⟨14, _⟩ => ⟨S16x32x16x64x64, .f32⟩
  | .hbm, ⟨15, _⟩ => ⟨S16x16x32x64x64, .f32⟩
  | .hbm, ⟨16, _⟩ => ⟨S16x16x32x4096, .f32⟩
  | .hbm, ⟨17, _⟩ => ⟨S16x16x32x4096, .f32⟩
  | .hbm, ⟨18, _⟩ => ⟨S16x16x1, .f32⟩
  | .hbm, ⟨19, _⟩ => ⟨S16x16, .f32⟩
  | .hbm, ⟨20, _⟩ => ⟨S16x8, .f32⟩
  | .hbm, ⟨21, _⟩ => ⟨S16x8, .f32⟩
  | .hbm, ⟨22, _⟩ => ⟨S1x8, .f32⟩
  | .hbm, ⟨23, _⟩ => ⟨S16x8, .f32⟩
  | .hbm, ⟨24, _⟩ => ⟨S16x8, .f32⟩
  | .hbm, ⟨25, _⟩ => ⟨S_, .f32⟩
  | .hbm, ⟨26, _⟩ => ⟨S16x8, .f32⟩
  | .hbm, ⟨27, _⟩ => ⟨S16x8, .f32⟩
  | .hbm, ⟨28, _⟩ => ⟨S8x16, .f32⟩
  | .hbm, ⟨29, _⟩ => ⟨S16x16, .f32⟩
  | .hbm, ⟨30, _⟩ => ⟨S1x16, .f32⟩
  | .hbm, ⟨31, _⟩ => ⟨S16x16, .f32⟩
  | .hbm, ⟨32, _⟩ => ⟨S16x16, .f32⟩
  | .hbm, ⟨33, _⟩ => ⟨S16x16, .f32⟩
  | .hbm, ⟨34, _⟩ => ⟨S16x16, .f32⟩
  | .hbm, ⟨35, _⟩ => ⟨S_, .f32⟩
  | .hbm, ⟨36, _⟩ => ⟨S16x16, .f32⟩
  | .hbm, ⟨37, _⟩ => ⟨S16x16, .f32⟩
  | .hbm, ⟨38, _⟩ => ⟨S_, .f32⟩
  | .hbm, ⟨39, _⟩ => ⟨S16x16, .f32⟩
  | .hbm, ⟨40, _⟩ => ⟨S16x16, .f32⟩
  | .hbm, ⟨41, _⟩ => ⟨S16x16x1, .f32⟩
  | .hbm, ⟨42, _⟩ => ⟨S16x16x32x4096, .f32⟩
  | .hbm, ⟨43, _⟩ => ⟨S16x16x32x64x64, .f32⟩
  | .hbm, ⟨44, _⟩ => ⟨S16x32x16x64x64, .f32⟩
  | .hbm, ⟨45, _⟩ => ⟨S16x512x64x64, .f32⟩
  | .local _ .vmem, ⟨0, _⟩ => ⟨S1x16x32x4096, .f32⟩
  | .local _ .vmem, ⟨1, _⟩ => ⟨S1x16x32x4096, .f32⟩
  | .local _ .vmem, ⟨2, _⟩ => ⟨S32x8, .f32⟩
  | .local _ .vmem, ⟨3, _⟩ => ⟨S8, .f32⟩
  | .local _ .vmem, ⟨4, _⟩ => ⟨S32x8, .f32⟩
  | .local _ .vmem, ⟨5, _⟩ => ⟨S32, .f32⟩
  | .local _ .vmem, ⟨6, _⟩ => ⟨S1x16x32x4096, .f32⟩
  | .local _ .vmem, ⟨7, _⟩ => ⟨S1x16x32x4096, .f32⟩
  | .local _ .vmem, ⟨8, _⟩ => ⟨S1x16x1, .f32⟩
  | .local _ .vmem, ⟨9, _⟩ => ⟨S1x16x1, .f32⟩
  | .local _ .vmem, ⟨10, _⟩ => ⟨S1x16x32x4096, .f32⟩
  | .local _ .vmem, ⟨11, _⟩ => ⟨S1x16x32x4096, .f32⟩
  | .local _ .vmem, ⟨12, _⟩ => ⟨S32x8, .f32⟩
  | .local _ .vmem, ⟨13, _⟩ => ⟨S8, .f32⟩
  | .local _ .vmem, ⟨14, _⟩ => ⟨S32x8, .f32⟩
  | .local _ .vmem, ⟨15, _⟩ => ⟨S32, .f32⟩
  | .local _ .vmem, ⟨16, _⟩ => ⟨S1x16x32x4096, .f32⟩
  | .local _ .vmem, ⟨17, _⟩ => ⟨S1x16x32x4096, .f32⟩
  | .local _ .vmem, ⟨18, _⟩ => ⟨S1x16x1, .f32⟩
  | .local _ .vmem, ⟨19, _⟩ => ⟨S1x16x1, .f32⟩
  | .local _ .vmem, ⟨20, _⟩ => ⟨S1x16x32x4096, .f32⟩
  | .local _ .vmem, ⟨21, _⟩ => ⟨S1x16x32x4096, .f32⟩
  | .local _ .vmem, ⟨22, _⟩ => ⟨S1x16x1, .f32⟩
  | .local _ .vmem, ⟨23, _⟩ => ⟨S1x16x1, .f32⟩
  | .local _ .vmem, ⟨24, _⟩ => ⟨S1x16x32x4096, .f32⟩
  | .local _ .vmem, ⟨25, _⟩ => ⟨S1x16x32x4096, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_off1 (k0_t1 : Fin k0_t1_loop.trips) : Fin 4 → Nat :=
  let c0_6 : Index := 0#32
  let c0_i32 : BitVec 32 := 0#32
  let c1_i32 : BitVec 32 := 1#32
  let arg8 : BitVec 32 := Scf.iv c0_i32 c1_i32 k0_t1
  let v8 : Index := Scalar.indexCast arg8
  let c0_7 : Index := 0#32
  let c0_8 : Index := 0#32
  ![0, v8.toNat, 0, 0]
def k0_off2 (k0_t1 : Fin k0_t1_loop.trips) : Fin 3 → Nat :=
  let c0_19 : Index := 0#32
  let c0_i32 : BitVec 32 := 0#32
  let c1_i32 : BitVec 32 := 1#32
  let arg8 : BitVec 32 := Scf.iv c0_i32 c1_i32 k0_t1
  let v41 : Index := Scalar.indexCast arg8
  let c0_20 : Index := 0#32
  ![0, v41.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

@[reducible] def k1_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k1_off1 (k1_t1 : Fin k1_t1_loop.trips) : Fin 4 → Nat :=
  let c0_6 : Index := 0#32
  let c0_i32 : BitVec 32 := 0#32
  let c1_i32 : BitVec 32 := 1#32
  let arg8 : BitVec 32 := Scf.iv c0_i32 c1_i32 k1_t1
  let v8 : Index := Scalar.indexCast arg8
  let c0_7 : Index := 0#32
  let c0_8 : Index := 0#32
  ![0, v8.toNat, 0, 0]
def k1_off2 (k1_t1 : Fin k1_t1_loop.trips) : Fin 3 → Nat :=
  let c0_19 : Index := 0#32
  let c0_i32 : BitVec 32 := 0#32
  let c1_i32 : BitVec 32 := 1#32
  let arg8 : BitVec 32 := Scf.iv c0_i32 c1_i32 k1_t1
  let v41 : Index := Scalar.indexCast arg8
  let c0_20 : Index := 0#32
  ![0, v41.toNat, 0]
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x32x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x16x32x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x16x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

@[reducible] def k2_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k2_off1 (k2_t1 : Fin k2_t1_loop.trips) : Fin 4 → Nat :=
  let c0 : Index := 0#32
  let c0_i32 : BitVec 32 := 0#32
  let c1_i32 : BitVec 32 := 1#32
  let arg4 : BitVec 32 := Scf.iv c0_i32 c1_i32 k2_t1
  let v1 : Index := Scalar.indexCast arg4
  let c0_1 : Index := 0#32
  let c0_2 : Index := 0#32
  ![0, v1.toNat, 0, 0]
def k2_off2 (k2_t1 : Fin k2_t1_loop.trips) : Fin 3 → Nat :=
  let c0_3 : Index := 0#32
  let c0_i32 : BitVec 32 := 0#32
  let c1_i32 : BitVec 32 := 1#32
  let arg4 : BitVec 32 := Scf.iv c0_i32 c1_i32 k2_t1
  let v4 : Index := Scalar.indexCast arg4
  let c0_4 : Index := 0#32
  ![0, v4.toNat, 0]
def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x16x32x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x16x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x16x32x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S8x32_S32x8_1_0 : S8x32.Transposes [1, 0] S32x8
  shapeCasts_S16x512x64x64_S16x16x32x4096 : S16x512x64x64.ShapeCasts S16x16x32x4096
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S8_S8_0 : ∀ a, (![0] : Fin 1 → Nat) a + S8.size a ≤ S8.size a
  h_S8 : 0 < S8.numel
  shapeCasts_S8_S1x8 : S8.ShapeCasts S1x8
  inb_S32_S32_0 : ∀ a, (![0] : Fin 1 → Nat) a + S32.size a ≤ S32.size a
  h_S32 : 0 < S32.numel
  shapeCasts_S32_S32x1 : S32.ShapeCasts S32x1
  h_S1x1x32x4096 : 0 < S1x1x32x4096.numel
  shapeCasts_S1x1x32x4096_S32x4096 : S1x1x32x4096.ShapeCasts S32x4096
  reduces_S32x4096_S32 : S32x4096.Reduces [1] S32
  broadcasts_S32x1_S32x8 : S32x1.Broadcasts S32x8
  reduces_S32x8_S8 : S32x8.Reduces [0] S8
  broadcasts_S1x8_S32x8 : S1x8.Broadcasts S32x8
  reduces_S32x8_S32 : S32x8.Reduces [1] S32
  broadcasts_S32x1_S32x4096 : S32x1.Broadcasts S32x4096
  shapeCasts_S32x4096_S1x1x32x4096 : S32x4096.ShapeCasts S1x1x32x4096
  reduces_S32x1_S1 : S32x1.Reduces [0] S1
  shapeCasts_S1_S1x1 : S1.ShapeCasts S1x1
  shapeCasts_S1x1_S1 : S1x1.ShapeCasts S1
  h_S1x1x1 : 0 < S1x1x1.numel
  shapeCasts_S1x1x1_S1 : S1x1x1.ShapeCasts S1
  shapeCasts_S1_S1x1x1 : S1.ShapeCasts S1x1x1
  shapeCasts_S16x16x32x4096_S16x16x32x64x64 : S16x16x32x4096.ShapeCasts S16x16x32x64x64
  transposes_S16x16x32x64x64_S16x32x16x64x64_0_2_1_3_4 : S16x16x32x64x64.Transposes [0, 2, 1, 3, 4] S16x32x16x64x64
  shapeCasts_S16x32x16x64x64_S16x16x32x64x64 : S16x32x16x64x64.ShapeCasts S16x16x32x64x64
  shapeCasts_S16x16x32x64x64_S16x16x32x4096 : S16x16x32x64x64.ShapeCasts S16x16x32x4096
  shapeCasts_S16x16x1_S16x16 : S16x16x1.ShapeCasts S16x16
  transposes_S8x16_S16x8_1_0 : S8x16.Transposes [1, 0] S16x8
  bcast_S8_S1x8_1 : S8.BroadcastsInDim S1x8 (![1] : Fin 1 → Fin S1x8.rank)
  bcast_S1x8_S16x8_0_1 : S1x8.BroadcastsInDim S16x8 (![0, 1] : Fin 2 → Fin S16x8.rank)
  bcast_S_S16x8 : S_.BroadcastsInDim S16x8 (![] : Fin 0 → Fin S16x8.rank)
  transposes_S16x8_S8x16_1_0 : S16x8.Transposes [1, 0] S8x16
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  shapeCasts_S16x16_S16x16x1 : S16x16.ShapeCasts S16x16x1
  broadcasts_S1x1_S32x4096 : S1x1.Broadcasts S32x4096
  shapeCasts_S16x32x16x64x64_S16x512x64x64 : S16x32x16x64x64.ShapeCasts S16x512x64x64
  dot_S16x16_S16x8_S16x8_1_0_0_1_n_n_wf : DotDims.WF S16x16 S16x8 S16x8 [1] [0] [0] [1] [] []
  dot_S16x8_S8x16_S16x16_1_0_0_1_n_n_wf : DotDims.WF S16x8 S8x16 S16x16 [1] [0] [0] [1] [] []
  hrank0 : 0 < grid0.rank
  k0_t1_ok : k0_t1_loop.OK
  k0_off1_inb : ∀ k0_t1 : Fin k0_t1_loop.trips, ∀ a, (k0_off1 k0_t1) a + S1x1x32x4096.size a ≤ S1x16x32x4096.size a
  k0_off2_inb : ∀ k0_t1 : Fin k0_t1_loop.trips, ∀ a, (k0_off2 k0_t1) a + S1x1x1.size a ≤ S1x16x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32x4096.size a ≤ S16x16x32x4096.size a
  hwx0_0 : ∀ i : grid0.Coords, EltTy.bits .f32 = 32 ∨ (Rect.block (s := S16x16x32x4096) S1x16x32x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x8.size a ≤ S32x8.size a
  hwx0_1 : ∀ i : grid0.Coords, EltTy.bits .f32 = 32 ∨ (Rect.block (s := S32x8) S32x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x8.size a ≤ S32x8.size a
  hwx0_3 : ∀ i : grid0.Coords, EltTy.bits .f32 = 32 ∨ (Rect.block (s := S32x8) S32x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x32x4096.size a ≤ S16x16x32x4096.size a
  hwx0_5 : ∀ i : grid0.Coords, EltTy.bits .f32 = 32 ∨ (Rect.block (s := S16x16x32x4096) S1x16x32x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x1.size a ≤ S16x16x1.size a
  hwx0_6 : ∀ i : grid0.Coords, EltTy.bits .f32 = 32 ∨ (Rect.block (s := S16x16x1) S1x16x1.size (cc0_transform_6 i) (hinb0_6 i)).WholeWords (EltTy.packing .f32)
  hrank1 : 0 < grid1.rank
  k1_t1_ok : k1_t1_loop.OK
  k1_off1_inb : ∀ k1_t1 : Fin k1_t1_loop.trips, ∀ a, (k1_off1 k1_t1) a + S1x1x32x4096.size a ≤ S1x16x32x4096.size a
  k1_off2_inb : ∀ k1_t1 : Fin k1_t1_loop.trips, ∀ a, (k1_off2 k1_t1) a + S1x1x1.size a ≤ S1x16x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x32x4096.size a ≤ S16x16x32x4096.size a
  hwx1_0 : ∀ i : grid1.Coords, EltTy.bits .f32 = 32 ∨ (Rect.block (s := S16x16x32x4096) S1x16x32x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x8.size a ≤ S32x8.size a
  hwx1_1 : ∀ i : grid1.Coords, EltTy.bits .f32 = 32 ∨ (Rect.block (s := S32x8) S32x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8.size a ≤ S8.size a
  hwx1_2 : ∀ i : grid1.Coords, EltTy.bits .f32 = 32 ∨ (Rect.block (s := S8) S8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x8.size a ≤ S32x8.size a
  hwx1_3 : ∀ i : grid1.Coords, EltTy.bits .f32 = 32 ∨ (Rect.block (s := S32x8) S32x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x16x32x4096.size a ≤ S16x16x32x4096.size a
  hwx1_5 : ∀ i : grid1.Coords, EltTy.bits .f32 = 32 ∨ (Rect.block (s := S16x16x32x4096) S1x16x32x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x16x1.size a ≤ S16x16x1.size a
  hwx1_6 : ∀ i : grid1.Coords, EltTy.bits .f32 = 32 ∨ (Rect.block (s := S16x16x1) S1x16x1.size (cc1_transform_6 i) (hinb1_6 i)).WholeWords (EltTy.packing .f32)
  hrank2 : 0 < grid2.rank
  k2_t1_ok : k2_t1_loop.OK
  k2_off1_inb : ∀ k2_t1 : Fin k2_t1_loop.trips, ∀ a, (k2_off1 k2_t1) a + S1x1x32x4096.size a ≤ S1x16x32x4096.size a
  k2_off2_inb : ∀ k2_t1 : Fin k2_t1_loop.trips, ∀ a, (k2_off2 k2_t1) a + S1x1x1.size a ≤ S1x16x1.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x32x4096.size a ≤ S16x16x32x4096.size a
  hwx2_0 : ∀ i : grid2.Coords, EltTy.bits .f32 = 32 ∨ (Rect.block (s := S16x16x32x4096) S1x16x32x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x16x1.size a ≤ S16x16x1.size a
  hwx2_1 : ∀ i : grid2.Coords, EltTy.bits .f32 = 32 ∨ (Rect.block (s := S16x16x1) S1x16x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x16x32x4096.size a ≤ S16x16x32x4096.size a
  hwx2_2 : ∀ i : grid2.Coords, EltTy.bits .f32 = 32 ∨ (Rect.block (s := S16x16x32x4096) S1x16x32x4096.size (cc2_transform_2 i) (hinb2_2 i)).WholeWords (EltTy.packing .f32)

variable [Facts₀]

def dot_S16x16_S16x8_S16x8_1_0_0_1_n_n : DotDims S16x16 S16x8 S16x8 where
  lhsContracting := [1]
  rhsContracting := [0]
  lhsNonContracting := [0]
  rhsNonContracting := [1]
  lhsBatch := []
  rhsBatch := []
  wf := dot_S16x16_S16x8_S16x8_1_0_0_1_n_n_wf
def dot_S16x8_S8x16_S16x16_1_0_0_1_n_n : DotDims S16x8 S8x16 S16x16 where
  lhsContracting := [1]
  rhsContracting := [0]
  lhsNonContracting := [0]
  rhsNonContracting := [1]
  lhsBatch := []
  rhsBatch := []
  wf := dot_S16x8_S8x16_S16x16_1_0_0_1_n_n_wf

abbrev win0_0 : Pipeline.Window sig grid0 :=
  Pipeline.Window.ofSpec (Memref.whole main_v1) S1x16x32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x16x32x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x16x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6) S1x16x32x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S32x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S32x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7_0) S1x16x32x4096.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_1) S1x16x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v7_0) S1x16x32x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S1x16x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x16x32x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16x512x64x64 : Shape := ⟨4, ![16, 512, 64, 64]⟩
abbrev S8x32 : Shape := ⟨2, ![8, 32]⟩
abbrev S8 : Shape := ⟨1, ![8]⟩
abbrev S32x8 : Shape := ⟨2, ![32, 8]⟩
abbrev S32 : Shape := ⟨1, ![32]⟩
abbrev S8x16 : Shape := ⟨2, ![8, 16]⟩
abbrev S16x8 : Shape := ⟨2, ![16, 8]⟩
abbrev S16 : Shape := ⟨1, ![16]⟩
abbrev S16x16x32x64x64 : Shape := ⟨5, ![16, 16, 32, 64, 64]⟩
abbrev S_ : Shape := ⟨0, ![]⟩
abbrev S16x16x32 : Shape := ⟨3, ![16, 16, 32]⟩
abbrev S16x16x8 : Shape := ⟨3, ![16, 16, 8]⟩
abbrev S1x1x8 : Shape := ⟨3, ![1, 1, 8]⟩
abbrev S1x1x32 : Shape := ⟨3, ![1, 1, 32]⟩
abbrev S16x16x32x1x1 : Shape := ⟨5, ![16, 16, 32, 1, 1]⟩
abbrev S16x32x16x64x64 : Shape := ⟨5, ![16, 32, 16, 64, 64]⟩
abbrev S16x16 : Shape := ⟨2, ![16, 16]⟩
abbrev S1x8 : Shape := ⟨2, ![1, 8]⟩
abbrev S1x16 : Shape := ⟨2, ![1, 16]⟩
abbrev S16x16x1x1x1 : Shape := ⟨5, ![16, 16, 1, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S8x32, .f32⟩
  | .hbm, ⟨2, _⟩ => ⟨S8, .f32⟩
  | .hbm, ⟨3, _⟩ => ⟨S32x8, .f32⟩
  | .hbm, ⟨4, _⟩ => ⟨S32, .f32⟩
  | .hbm, ⟨5, _⟩ => ⟨S8x16, .f32⟩
  | .hbm, ⟨6, _⟩ => ⟨S8, .f32⟩
  | .hbm, ⟨7, _⟩ => ⟨S16x8, .f32⟩
  | .hbm, ⟨8, _⟩ => ⟨S16, .f32⟩
  | .hbm, ⟨9, _⟩ => ⟨S16x16x32x64x64, .f32⟩
  | .hbm, ⟨10, _⟩ => ⟨S_, .f32⟩
  | .hbm, ⟨11, _⟩ => ⟨S16x16x32, .f32⟩
  | .hbm, ⟨12, _⟩ => ⟨S_, .f32⟩
  | .hbm, ⟨13, _⟩ => ⟨S16x16x32, .f32⟩
  | .hbm, ⟨14, _⟩ => ⟨S16x16x32, .f32⟩
  | .hbm, ⟨15, _⟩ => ⟨S16x16x8, .f32⟩
  | .hbm, ⟨16, _⟩ => ⟨S1x1x8, .f32⟩
  | .hbm, ⟨17, _⟩ => ⟨S16x16x8, .f32⟩
  | .hbm, ⟨18, _⟩ => ⟨S16x16x8, .f32⟩
  | .hbm, ⟨19, _⟩ => ⟨S_, .f32⟩
  | .hbm, ⟨20, _⟩ => ⟨S16x16x8, .f32⟩
  | .hbm, ⟨21, _⟩ => ⟨S16x16x8, .f32⟩
  | .hbm, ⟨22, _⟩ => ⟨S16x16x32, .f32⟩
  | .hbm, ⟨23, _⟩ => ⟨S1x1x32, .f32⟩
  | .hbm, ⟨24, _⟩ => ⟨S16x16x32, .f32⟩
  | .hbm, ⟨25, _⟩ => ⟨S16x16x32, .f32⟩
  | .hbm, ⟨26, _⟩ => ⟨S16x16x32, .f32⟩
  | .hbm, ⟨27, _⟩ => ⟨S16x16x32, .f32⟩
  | .hbm, ⟨28, _⟩ => ⟨S_, .f32⟩
  | .hbm, ⟨29, _⟩ => ⟨S16x16x32, .f32⟩
  | .hbm, ⟨30, _⟩ => ⟨S16x16x32, .f32⟩
  | .hbm, ⟨31, _⟩ => ⟨S_, .f32⟩
  | .hbm, ⟨32, _⟩ => ⟨S16x16x32, .f32⟩
  | .hbm, ⟨33, _⟩ => ⟨S16x16x32, .f32⟩
  | .hbm, ⟨34, _⟩ => ⟨S16x16x32x1x1, .f32⟩
  | .hbm, ⟨35, _⟩ => ⟨S16x16x32x64x64, .f32⟩
  | .hbm, ⟨36, _⟩ => ⟨S16x16x32x64x64, .f32⟩
  | .hbm, ⟨37, _⟩ => ⟨S16x512x64x64, .f32⟩
  | .hbm, ⟨38, _⟩ => ⟨S16x16x32x64x64, .f32⟩
  | .hbm, ⟨39, _⟩ => ⟨S16x32x16x64x64, .f32⟩
  | .hbm, ⟨40, _⟩ => ⟨S16x512x64x64, .f32⟩
  | .hbm, ⟨41, _⟩ => ⟨S16x16x32x64x64, .f32⟩
  | .hbm, ⟨42, _⟩ => ⟨S_, .f32⟩
  | .hbm, ⟨43, _⟩ => ⟨S16x16x32, .f32⟩
  | .hbm, ⟨44, _⟩ => ⟨S_, .f32⟩
  | .hbm, ⟨45, _⟩ => ⟨S16x16x32, .f32⟩
  | .hbm, ⟨46, _⟩ => ⟨S16x16x32, .f32⟩
  | .hbm, ⟨47, _⟩ => ⟨S16x16x8, .f32⟩
  | .hbm, ⟨48, _⟩ => ⟨S1x1x8, .f32⟩
  | .hbm, ⟨49, _⟩ => ⟨S16x16x8, .f32⟩
  | .hbm, ⟨50, _⟩ => ⟨S16x16x8, .f32⟩
  | .hbm, ⟨51, _⟩ => ⟨S_, .f32⟩
  | .hbm, ⟨52, _⟩ => ⟨S16x16x8, .f32⟩
  | .hbm, ⟨53, _⟩ => ⟨S16x16x8, .f32⟩
  | .hbm, ⟨54, _⟩ => ⟨S16x16x32, .f32⟩
  | .hbm, ⟨55, _⟩ => ⟨S1x1x32, .f32⟩
  | .hbm, ⟨56, _⟩ => ⟨S16x16x32, .f32⟩
  | .hbm, ⟨57, _⟩ => ⟨S16x16x32, .f32⟩
  | .hbm, ⟨58, _⟩ => ⟨S16x16x32, .f32⟩
  | .hbm, ⟨59, _⟩ => ⟨S16x16x32, .f32⟩
  | .hbm, ⟨60, _⟩ => ⟨S_, .f32⟩
  | .hbm, ⟨61, _⟩ => ⟨S16x16x32, .f32⟩
  | .hbm, ⟨62, _⟩ => ⟨S16x16x32, .f32⟩
  | .hbm, ⟨63, _⟩ => ⟨S_, .f32⟩
  | .hbm, ⟨64, _⟩ => ⟨S16x16x32, .f32⟩
  | .hbm, ⟨65, _⟩ => ⟨S16x16x32, .f32⟩
  | .hbm, ⟨66, _⟩ => ⟨S16x16x32x1x1, .f32⟩
  | .hbm, ⟨67, _⟩ => ⟨S16x16x32x64x64, .f32⟩
  | .hbm, ⟨68, _⟩ => ⟨S16x16x32x64x64, .f32⟩
  | .hbm, ⟨69, _⟩ => ⟨S16x512x64x64, .f32⟩
  | .hbm, ⟨70, _⟩ => ⟨S16x16x32x64x64, .f32⟩
  | .hbm, ⟨71, _⟩ => ⟨S_, .f32⟩
  | .hbm, ⟨72, _⟩ => ⟨S16x16x32, .f32⟩
  | .hbm, ⟨73, _⟩ => ⟨S_, .f32⟩
  | .hbm, ⟨74, _⟩ => ⟨S16x16x32, .f32⟩
  | .hbm, ⟨75, _⟩ => ⟨S16x16x32, .f32⟩
  | .hbm, ⟨76, _⟩ => ⟨S_, .f32⟩
  | .hbm, ⟨77, _⟩ => ⟨S16x16, .f32⟩
  | .hbm, ⟨78, _⟩ => ⟨S_, .f32⟩
  | .hbm, ⟨79, _⟩ => ⟨S16x16, .f32⟩
  | .hbm, ⟨80, _⟩ => ⟨S16x16, .f32⟩
  | .hbm, ⟨81, _⟩ => ⟨S16x8, .f32⟩
  | .hbm, ⟨82, _⟩ => ⟨S16x8, .f32⟩
  | .hbm, ⟨83, _⟩ => ⟨S1x8, .f32⟩
  | .hbm, ⟨84, _⟩ => ⟨S16x8, .f32⟩
  | .hbm, ⟨85, _⟩ => ⟨S16x8, .f32⟩
  | .hbm, ⟨86, _⟩ => ⟨S_, .f32⟩
  | .hbm, ⟨87, _⟩ => ⟨S16x8, .f32⟩
  | .hbm, ⟨88, _⟩ => ⟨S16x8, .f32⟩
  | .hbm, ⟨89, _⟩ => ⟨S8x16, .f32⟩
  | .hbm, ⟨90, _⟩ => ⟨S16x16, .f32⟩
  | .hbm, ⟨91, _⟩ => ⟨S1x16, .f32⟩
  | .hbm, ⟨92, _⟩ => ⟨S16x16, .f32⟩
  | .hbm, ⟨93, _⟩ => ⟨S16x16, .f32⟩
  | .hbm, ⟨94, _⟩ => ⟨S16x16, .f32⟩
  | .hbm, ⟨95, _⟩ => ⟨S16x16, .f32⟩
  | .hbm, ⟨96, _⟩ => ⟨S_, .f32⟩
  | .hbm, ⟨97, _⟩ => ⟨S16x16, .f32⟩
  | .hbm, ⟨98, _⟩ => ⟨S16x16, .f32⟩
  | .hbm, ⟨99, _⟩ => ⟨S_, .f32⟩
  | .hbm, ⟨100, _⟩ => ⟨S16x16, .f32⟩
  | .hbm, ⟨101, _⟩ => ⟨S16x16, .f32⟩
  | .hbm, ⟨102, _⟩ => ⟨S16x16x1x1x1, .f32⟩
  | .hbm, ⟨103, _⟩ => ⟨S16x16x32x64x64, .f32⟩
  | .hbm, ⟨104, _⟩ => ⟨S16x16x32x64x64, .f32⟩
  | .hbm, ⟨105, _⟩ => ⟨S16x32x16x64x64, .f32⟩
  | .hbm, ⟨106, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_cst : Ref sig .tc := ⟨.hbm, 51, rfl⟩
abbrev main_call1_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call2_cst : Ref sig .tc := ⟨.hbm, 86, rfl⟩
abbrev main_call2_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  shapeCasts_S16x512x64x64_S16x16x32x64x64 : S16x512x64x64.ShapeCasts S16x16x32x64x64
  reducesTo_S16x16x32x64x64_S16x16x32_d3_4 : S16x16x32x64x64.ReducesTo [3, 4] S16x16x32
  h_S_ : 0 < S_.numel
  bcast_S_S16x16x32 : S_.BroadcastsInDim S16x16x32 (![] : Fin 0 → Fin S16x16x32.rank)
  bcast_S8_S1x1x8_2 : S8.BroadcastsInDim S1x1x8 (![2] : Fin 1 → Fin S1x1x8.rank)
  bcast_S1x1x8_S16x16x8_0_1_2 : S1x1x8.BroadcastsInDim S16x16x8 (![0, 1, 2] : Fin 3 → Fin S16x16x8.rank)
  bcast_S_S16x16x8 : S_.BroadcastsInDim S16x16x8 (![] : Fin 0 → Fin S16x16x8.rank)
  bcast_S32_S1x1x32_2 : S32.BroadcastsInDim S1x1x32 (![2] : Fin 1 → Fin S1x1x32.rank)
  bcast_S1x1x32_S16x16x32_0_1_2 : S1x1x32.BroadcastsInDim S16x16x32 (![0, 1, 2] : Fin 3 → Fin S16x16x32.rank)
  bcast_S16x16x32_S16x16x32x1x1_0_1_2 : S16x16x32.BroadcastsInDim S16x16x32x1x1 (![0, 1, 2] : Fin 3 → Fin S16x16x32x1x1.rank)
  bcast_S16x16x32x1x1_S16x16x32x64x64_0_1_2_3_4 : S16x16x32x1x1.BroadcastsInDim S16x16x32x64x64 (![0, 1, 2, 3, 4] : Fin 5 → Fin S16x16x32x64x64.rank)
  shapeCasts_S16x16x32x64x64_S16x512x64x64 : S16x16x32x64x64.ShapeCasts S16x512x64x64
  transposes_S16x16x32x64x64_S16x32x16x64x64_0_2_1_3_4 : S16x16x32x64x64.Transposes [0, 2, 1, 3, 4] S16x32x16x64x64
  shapeCasts_S16x32x16x64x64_S16x512x64x64 : S16x32x16x64x64.ShapeCasts S16x512x64x64
  reducesTo_S16x16x32_S16x16_d2 : S16x16x32.ReducesTo [2] S16x16
  bcast_S_S16x16 : S_.BroadcastsInDim S16x16 (![] : Fin 0 → Fin S16x16.rank)
  transposes_S8x16_S16x8_1_0 : S8x16.Transposes [1, 0] S16x8
  bcast_S8_S1x8_1 : S8.BroadcastsInDim S1x8 (![1] : Fin 1 → Fin S1x8.rank)
  bcast_S1x8_S16x8_0_1 : S1x8.BroadcastsInDim S16x8 (![0, 1] : Fin 2 → Fin S16x8.rank)
  bcast_S_S16x8 : S_.BroadcastsInDim S16x8 (![] : Fin 0 → Fin S16x8.rank)
  transposes_S16x8_S8x16_1_0 : S16x8.Transposes [1, 0] S8x16
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S16x16_S16x16x1x1x1_0_1 : S16x16.BroadcastsInDim S16x16x1x1x1 (![0, 1] : Fin 2 → Fin S16x16x1x1x1.rank)
  bcast_S16x16x1x1x1_S16x16x32x64x64_0_1_2_3_4 : S16x16x1x1x1.BroadcastsInDim S16x16x32x64x64 (![0, 1, 2, 3, 4] : Fin 5 → Fin S16x16x32x64x64.rank)
  dot_S16x16x32_S8x32_S16x16x8_2_1_01_0_n_n_wf : DotDims.WF S16x16x32 S8x32 S16x16x8 [2] [1] [0, 1] [0] [] []
  dot_S16x16x8_S32x8_S16x16x32_2_1_01_0_n_n_wf : DotDims.WF S16x16x8 S32x8 S16x16x32 [2] [1] [0, 1] [0] [] []
  dot_S16x16_S16x8_S16x8_1_0_0_1_n_n_wf : DotDims.WF S16x16 S16x8 S16x8 [1] [0] [0] [1] [] []
  dot_S16x8_S8x16_S16x16_1_0_0_1_n_n_wf : DotDims.WF S16x8 S8x16 S16x16 [1] [0] [0] [1] [] []

variable [Facts₀]

def dot_S16x16x32_S8x32_S16x16x8_2_1_01_0_n_n : DotDims S16x16x32 S8x32 S16x16x8 where
  lhsContracting := [2]
  rhsContracting := [1]
  lhsNonContracting := [0, 1]
  rhsNonContracting := [0]
  lhsBatch := []
  rhsBatch := []
  wf := dot_S16x16x32_S8x32_S16x16x8_2_1_01_0_n_n_wf
def dot_S16x16x8_S32x8_S16x16x32_2_1_01_0_n_n : DotDims S16x16x8 S32x8 S16x16x32 where
  lhsContracting := [2]
  rhsContracting := [1]
  lhsNonContracting := [0, 1]
  rhsNonContracting := [0]
  lhsBatch := []
  rhsBatch := []
  wf := dot_S16x16x8_S32x8_S16x16x32_2_1_01_0_n_n_wf
def dot_S16x16_S16x8_S16x8_1_0_0_1_n_n : DotDims S16x16 S16x8 S16x8 where
  lhsContracting := [1]
  rhsContracting := [0]
  lhsNonContracting := [0]
  rhsNonContracting := [1]
  lhsBatch := []
  rhsBatch := []
  wf := dot_S16x16_S16x8_S16x8_1_0_0_1_n_n_wf
def dot_S16x8_S8x16_S16x16_1_0_0_1_n_n : DotDims S16x8 S8x16 S16x16 where
  lhsContracting := [1]
  rhsContracting := [0]
  lhsNonContracting := [0]
  rhsNonContracting := [1]
  lhsBatch := []
  rhsBatch := []
  wf := dot_S16x8_S8x16_S16x16_1_0_0_1_n_n_wf

class Facts : Prop extends Facts₀ where

variable [Facts]
-- ==== Proof.KernelRun.lean ====
/-
  The kernel's whole run with its result named: every weakly fair execution of the program — three kernel launches
  among stretches of host operations — terminates without a fault, leaves the argument arrays as launched, and leaves
  in the result buffer the contents that the chain of segments computes for it: the last boundary's contents, a fold
  of the host operations and of the three launches' write-backs from the launch memory.
  The last thread state holds every unscoped buffer at the last boundary's contents; read against the final state it
  gives the result buffer's contents and, walking the fold back through buffers no segment writes, the arguments'.
-/
import proofs.«161621_j77464030150917_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents. -/
theorem run_named : θ_run defs (onTc (τ := τ) (main (F := F))) ⟨m, fun _ => 0, ρ⟩ (fun r => ∀ c : Dev nD,
      r.2.mem ((c.tc : Thread nD τ).loc main_v30) = W9 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v30 (by decide)),
      (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunValue

end
-- ==== Proof.Spec.lean ====
/-
  The specification: the gated channel-group attention as ONE function of the argument arrays, index by index,
  over the extended reals.

  The activation x[b, ch, h, w] (16 × 512 × 64 × 64) is read as 16 groups of 32 channels with the two spatial axes
  merged: X[b, g, c, s] with ch = 32·g + c and s = 64·h + w (`grouped`).  One gating pass multiplies every entry of a
  group's channel c by a gate that depends only on the 32 channel sums σ[c'] = Σ_s X[b, g, c', s] of that group:
    gate c = logistic ( Σ_o max( Σ_c' (σ[c'] · 2⁻¹²) · w1[o, c'] + b1[o], 0 ) · w2[c, o] + b2[c] )        (`gate`, `passF`).
  Between the two passes the channels are shuffled: the 512 channels, numbered n = 32·g + c, are re-read as
  n = 16·c₁ + g₁ (`shuffled`).  After the second pass each group is scaled by a cross-group weight
    ω[b, g] = logistic ( Σ_j max( Σ_g' γ[b, g'] · cw1[j, g'] + cb1[j], 0 ) · cw2[g, j] + cb2[g] )              (`cross`, `omega`)
  of the group means γ[b, g] = (Σ_c Σ_s X₃[b, g, c, s]) · 2⁻¹⁷ (`globF`), and the channels are laid out with the channel
  inside the group as the major axis: result[b, 16·c₁ + g₁, h, w] = X₃[b, g₁, c₁, 64·h + w] · ω[b, g₁] (`out`).
  The two scale factors stay the f32 words 0x39800000 (2⁻¹²) and 0x37000000 (2⁻¹⁷).
-/
import Idealize.ShloMosaic.PureOps.Ideal
import Idealize.ShloMosaic.Lib.ValueIdx

noncomputable section

open scoped BigOperators

namespace Cert.Spec

open Idealize.ShloMosaic Idealize.ShloMosaic.ValueIdx

/-- The activation's shape, and the same data as groups of channels with the spatial axes merged. -/
abbrev SX : Shape := ⟨4, ![16, 512, 64, 64]⟩
abbrev SG : Shape := ⟨4, ![16, 16, 32, 4096]⟩
/-- One number per (batch, group), kept with a trailing unit axis. -/
abbrev SG1 : Shape := ⟨3, ![16, 16, 1]⟩

/-- 2⁻¹² (one over the 4096 spatial positions) and 2⁻¹⁷ (one over the 32 · 4096 entries of a group), as f32 words. -/
def k12 : EReal := Ideal.ofBits .f32 0x39800000#32
def k17 : EReal := Ideal.ofBits .f32 0x37000000#32

/-! ## Index arithmetic -/

/-- Channel number of channel `c` of group `g`: 32·g + c. -/
def chan (g : Fin 16) (c : Fin 32) : Fin 512 := ⟨g.val * 32 + c.val, by omega⟩
/-- A channel number n read as n = 16·c₁ + g₁: the group g₁ and the channel c₁ inside it. -/
def grpOf (n : Fin 512) : Fin 16 := ⟨n.val % 16, by omega⟩
def chOf (n : Fin 512) : Fin 32 := ⟨n.val / 16, by omega⟩
/-- Merged spatial position 64·h + w, and its two coordinates back. -/
def spat (h w : Fin 64) : Fin 4096 := ⟨h.val * 64 + w.val, by omega⟩
def row (s : Fin 4096) : Fin 64 := ⟨s.val / 64, by omega⟩
def col (s : Fin 4096) : Fin 64 := ⟨s.val % 64, by omega⟩

/-! ## The pieces -/

/-- The gate of channel `c` of a group whose 32 channel sums are `σ`. -/
def gate (w1 : Fin 8 → Fin 32 → EReal) (b1 : Fin 8 → EReal) (w2 : Fin 32 → Fin 8 → EReal) (b2 : Fin 32 → EReal)
    (σ : Fin 32 → EReal) (c : Fin 32) : EReal :=
  Ideal.logistic ((∑ o : Fin 8, max ((∑ c' : Fin 32, (σ c' * k12) * w1 o c') + b1 o) 0 * w2 c o) + b2 c)

/-- The sum over the spatial positions of channel `c` of group `g` of batch `b`. -/
def chanSum (A : SG.Idx → EReal) (b g : Fin 16) (c : Fin 32) : EReal := ∑ s : Fin 4096, A (ix4 b g c s)

/-- One gating pass: every entry times the gate of its channel. -/
def passF (w1 : Fin 8 → Fin 32 → EReal) (b1 : Fin 8 → EReal) (w2 : Fin 32 → Fin 8 → EReal) (b2 : Fin 32 → EReal)
    (A : SG.Idx → EReal) : SG.Idx → EReal :=
  fun i => A i * gate w1 b1 w2 b2 (chanSum A (i 0) (i 1)) (i 2)

/-- The mean of each group of the gated array. -/
def globF (w1 : Fin 8 → Fin 32 → EReal) (b1 : Fin 8 → EReal) (w2 : Fin 32 → Fin 8 → EReal) (b2 : Fin 32 → EReal)
    (A : SG.Idx → EReal) : SG1.Idx → EReal :=
  fun j => (∑ c : Fin 32, ∑ s : Fin 4096, passF w1 b1 w2 b2 A (ix4 (j 0) (j 1) c s)) * k17

/-- Every entry of a group times that group's weight. -/
def scaleF (A : SG.Idx → EReal) (ω : SG1.Idx → EReal) : SG.Idx → EReal :=
  fun i => A i * ω (ix3 (i 0) (i 1) 0)

/-- The cross-group weight of group `g` from the 16 group means `γ` of a batch element. -/
def cross (cw1 : Fin 8 → Fin 16 → EReal) (cb1 : Fin 8 → EReal) (cw2 : Fin 16 → Fin 8 → EReal) (cb2 : Fin 16 → EReal)
    (γ : Fin 16 → EReal) (g : Fin 16) : EReal :=
  Ideal.logistic ((∑ j : Fin 8, max ((∑ g' : Fin 16, γ g' * cw1 j g') + cb1 j) 0 * cw2 g j) + cb2 g)

/-- The activation as groups of channels with the spatial axes merged. -/
def grouped (x : SX.Idx → EReal) : SG.Idx → EReal :=
  fun i => x (ix4 (i 0) (chan (i 1) (i 2)) (row (i 3)) (col (i 3)))

/-- The channel shuffle between the passes. -/
def shuffled (A : SG.Idx → EReal) : SG.Idx → EReal :=
  fun i => A (ix4 (i 0) (grpOf (chan (i 1) (i 2))) (chOf (chan (i 1) (i 2))) (i 3))

/-! ## The whole function, over the argument arrays -/

section Whole

variable (x : SX.Idx → EReal) (gw1 : (⟨2, ![8, 32]⟩ : Shape).Idx → EReal) (gb1 : (⟨1, ![8]⟩ : Shape).Idx → EReal)
  (gw2 : (⟨2, ![32, 8]⟩ : Shape).Idx → EReal) (gb2 : (⟨1, ![32]⟩ : Shape).Idx → EReal)
  (cw1 : (⟨2, ![8, 16]⟩ : Shape).Idx → EReal) (cb1 : (⟨1, ![8]⟩ : Shape).Idx → EReal)
  (cw2 : (⟨2, ![16, 8]⟩ : Shape).Idx → EReal) (cb2 : (⟨1, ![16]⟩ : Shape).Idx → EReal)

/-- The gate MLP's parameters as functions of coordinates. -/
def W1 : Fin 8 → Fin 32 → EReal := fun o c => gw1 (ix2 o c)
def B1 : Fin 8 → EReal := fun o => gb1 (ix1 o)
def W2 : Fin 32 → Fin 8 → EReal := fun c o => gw2 (ix2 c o)
def B2 : Fin 32 → EReal := fun c => gb2 (ix1 c)

/-- After the first pass; shuffled (the second pass's input); after the second pass. -/
def x1 : SG.Idx → EReal := passF (W1 gw1) (B1 gb1) (W2 gw2) (B2 gb2) (grouped x)
def x2 : SG.Idx → EReal := shuffled (x1 x gw1 gb1 gw2 gb2)
def x3 : SG.Idx → EReal := passF (W1 gw1) (B1 gb1) (W2 gw2) (B2 gb2) (x2 x gw1 gb1 gw2 gb2)
/-- The group means of the second pass's output. -/
def glob : SG1.Idx → EReal := globF (W1 gw1) (B1 gb1) (W2 gw2) (B2 gb2) (x2 x gw1 gb1 gw2 gb2)

/-- The cross-group weights, with the trailing unit axis. -/
def omega : SG1.Idx → EReal := fun j =>
  cross (fun q g' => cw1 (ix2 q g')) (fun q => cb1 (ix1 q)) (fun g q => cw2 (ix2 g q)) (fun g => cb2 (ix1 g))
    (fun g' => glob x gw1 gb1 gw2 gb2 (ix3 (j 0) g' 0)) (j 1)

/-- The weighted groups, still as [16, 16, 32, 4096]. -/
def weighted : SG.Idx → EReal :=
  scaleF (x3 x gw1 gb1 gw2 gb2) (omega x gw1 gb1 gw2 gb2 cw1 cb1 cw2 cb2)

/-- The result: channel number 16·c₁ + g₁ holds channel c₁ of group g₁. -/
def out : SX.Idx → EReal :=
  fun i => weighted x gw1 gb1 gw2 gb2 cw1 cb1 cw2 cb2 (ix4 (i 0) (grpOf (i 1)) (chOf (i 1)) (spat (i 2) (i 3)))

end Whole

end Cert.Spec

end
-- ==== Proof.BodySpec.lean ====
/-
  What one grid point of each kernel leaves in its output blocks, as functions of the point's input blocks.

  A point of the gating kernel holds the 16 groups of one batch element, x0 : [1, 16, 32, 4096], with the transposed
  first weight matrix x1 : [32, 8] (x1[c', o] = w1[o, c']), the biases x2 : [8], x4 : [32] and the second weights
  x3 : [32, 8].  Its first output block is every entry times its channel's gate (`blkGate`), the gate computed from
  the 32 channel sums of the entry's own group; its second output block holds, per group, the sum of the gated group
  times 2⁻¹⁷ (`blkMean`).  A point of the scaling kernel multiplies every entry of group g by the g-th of its 16
  weights (`blkScale`).
-/
import proofs.«161621_j77464030150917_2_alg».proof.Proof.Spec

noncomputable section

open scoped BigOperators

namespace Cert.Spec

open Idealize.ShloMosaic Idealize.ShloMosaic.ValueIdx

/-- One batch element's block of the grouped activation, and of the per-group numbers. -/
abbrev SB : Shape := ⟨4, ![1, 16, 32, 4096]⟩
abbrev SB1 : Shape := ⟨3, ![1, 16, 1]⟩

section Blocks

variable (x0 : SB.Idx → EReal) (x1 : (⟨2, ![32, 8]⟩ : Shape).Idx → EReal) (x2 : (⟨1, ![8]⟩ : Shape).Idx → EReal)
  (x3 : (⟨2, ![32, 8]⟩ : Shape).Idx → EReal) (x4 : (⟨1, ![32]⟩ : Shape).Idx → EReal)

/-- The gated block: entry (0, g, c, s) times the gate of channel c of group g. -/
def blkGate : SB.Idx → EReal := fun y =>
  x0 y * gate (fun o c' => x1 (ix2 c' o)) (fun o => x2 (ix1 o)) (fun c' o => x3 (ix2 c' o)) (fun c' => x4 (ix1 c'))
    (fun c' => ∑ s : Fin 4096, x0 (ix4 (y 0) (y 1) c' s)) (y 2)

/-- Per group, the sum of the gated group times 2⁻¹⁷. -/
def blkMean : SB1.Idx → EReal := fun y =>
  (∑ c' : Fin 32, ∑ s : Fin 4096, blkGate x0 x1 x2 x3 x4 (ix4 (y 0) (y 1) c' s)) * k17

end Blocks

/-- The scaled block: entry (0, g, c, s) times the weight of group g. -/
def blkScale (x0 : SB.Idx → EReal) (x1 : SB1.Idx → EReal) : SB.Idx → EReal := fun y =>
  x0 y * x1 (ix3 (y 0) (y 1) 0)

end Cert.Spec

end
-- ==== Proof.Layout.lean ====
/-
  The kernel program's three layout chains, read at an index, for an arbitrary array.

  * Regrouping: the activation [16, 512, 64, 64] reshaped to [16, 16, 32, 4096] holds at (b, g, c, s) the entry
    (b, 32·g + c, s / 64, s % 64): both are position ((16·b + g)·32 + c)·4096 + s of the row-major order.
  * The shuffle between the passes: reshape to [16, 16, 32, 64, 64], swap the two channel axes, reshape back to
    [16, 16, 32, 64, 64] and merge the spatial axes.  At (b, g, c, s) it holds the operand's entry
    (b, n % 16, n / 16, s) with n = 32·g + c: the swap sends channel number n = 16·c₁ + g₁ to group g₁, channel c₁.
  * The final layout: reshape to five axes, swap the channel axes, merge them into 512 channels.  At (b, ch, h, w) it
    holds the operand's entry (b, ch % 16, ch / 16, 64·h + w).
  Each step is a row-major position kept by a reshape or a coordinate swap by the transpose.
-/
import proofs.«161621_j77464030150917_2_alg».proof.KernelIdeal
import proofs.«161621_j77464030150917_2_alg».proof.Proof.Spec
import Idealize.ShloMosaic.Lib.Pipeline.Value
import Idealize.ShloMosaic.Lib.ValueIdx

noncomputable section

namespace Cert.KernelIdeal.Layout

open Cert.KernelIdeal Cert.Spec
open Idealize.ShloMosaic Idealize.ShloMosaic.ValueIdx

variable {α : Type}
  (hg : S16x512x64x64.ShapeCasts S16x16x32x4096) (hs : S16x16x32x4096.ShapeCasts S16x16x32x64x64)
  (ht : S16x16x32x64x64.Transposes [0, 2, 1, 3, 4] S16x32x16x64x64) (hr : S16x32x16x64x64.ShapeCasts S16x16x32x64x64)
  (hm : S16x16x32x64x64.ShapeCasts S16x16x32x4096) (hf : S16x32x16x64x64.ShapeCasts S16x512x64x64)

/-- The regrouped activation at (b, g, c, s). -/
theorem group_apply (x : S16x512x64x64.Idx → α) (i : S16x16x32x4096.Idx) :
    shapeCast S16x16x32x4096 x hg i
      = x (ix4 (i 0) (chan (i 1) (i 2)) (row (i 3)) (col (i 3))) := by
  refine shapeCast_apply x _ i _ ?_
  rw [Shape.rowMajor_val_four, Shape.rowMajor_val_four]
  have h0 : (i 0).val < 16 := (i 0).isLt
  have h1 : (i 1).val < 16 := (i 1).isLt
  have h2 : (i 2).val < 32 := (i 2).isLt
  have h3 : (i 3).val < 4096 := (i 3).isLt
  show (((i 0).val * 512 + ((i 1).val * 32 + (i 2).val)) * 64 + (i 3).val / 64) * 64 + (i 3).val % 64
      = (((i 0).val * 16 + (i 1).val) * 32 + (i 2).val) * 4096 + (i 3).val
  omega

/-- The five-axis view of a grouped array at (b, g, c, h, w): the entry (b, g, c, 64·h + w). -/
theorem split_apply (A : S16x16x32x4096.Idx → α) (b g : Fin 16) (c : Fin 32) (h w : Fin 64) :
    shapeCast S16x16x32x64x64 A hs (ix5 b g c h w) = A (ix4 b g c (spat h w)) := by
  refine shapeCast_apply A _ _ _ ?_
  rw [Shape.rowMajor_val_four, Shape.rowMajor_val_five]
  show ((b.val * 16 + g.val) * 32 + c.val) * 4096 + (h.val * 64 + w.val)
      = (((b.val * 16 + g.val) * 32 + c.val) * 64 + h.val) * 64 + w.val
  omega

/-- The swap of the two channel axes at (b, c₁, g₁, h, w): the operand at (b, g₁, c₁, h, w). -/
theorem swap_apply (B : S16x16x32x64x64.Idx → α) (b : Fin 16) (c1 : Fin 32) (g1 : Fin 16) (h w : Fin 64) :
    transpose S16x32x16x64x64 [0, 2, 1, 3, 4] B ht (ix5 b c1 g1 h w)
      = B (ix5 b g1 c1 h w) :=
  transpose_apply [0, 2, 1, 3, 4] B _ _ _ (fun a => match a with
    | ⟨0, _⟩ => rfl
    | ⟨1, _⟩ => rfl
    | ⟨2, _⟩ => rfl
    | ⟨3, _⟩ => rfl
    | ⟨4, _⟩ => rfl)

/-- The channel shuffle between the passes at (b, g, c, s). -/
theorem shuffle_apply (A : S16x16x32x4096.Idx → α) (i : S16x16x32x4096.Idx) :
    shapeCast S16x16x32x4096
      (shapeCast S16x16x32x64x64
        (transpose S16x32x16x64x64 [0, 2, 1, 3, 4]
          (shapeCast S16x16x32x64x64 A hs)
          ht)
        hr)
      hm i
      = A (ix4 (i 0) (grpOf (chan (i 1) (i 2))) (chOf (chan (i 1) (i 2))) (i 3)) := by
  have h0 : (i 0).val < 16 := (i 0).isLt
  have h1 : (i 1).val < 16 := (i 1).isLt
  have h2 : (i 2).val < 32 := (i 2).isLt
  have h3 : (i 3).val < 4096 := (i 3).isLt
  -- merge of the spatial axes
  rw [shapeCast_apply _ hm i (ix5 (i 0) (i 1) (i 2) (row (i 3)) (col (i 3))) (by
    rw [Shape.rowMajor_val_five, Shape.rowMajor_val_four]
    show ((((i 0).val * 16 + (i 1).val) * 32 + (i 2).val) * 64 + (i 3).val / 64) * 64 + (i 3).val % 64
      = (((i 0).val * 16 + (i 1).val) * 32 + (i 2).val) * 4096 + (i 3).val
    omega)]
  -- the 512 channels re-read as (channel, group)
  rw [shapeCast_apply _ hr _
    (ix5 (i 0) (chOf (chan (i 1) (i 2))) (grpOf (chan (i 1) (i 2))) (row (i 3)) (col (i 3))) (by
    rw [Shape.rowMajor_val_five, Shape.rowMajor_val_five]
    show ((((i 0).val * 32 + ((i 1).val * 32 + (i 2).val) / 16) * 16 + ((i 1).val * 32 + (i 2).val) % 16) * 64 + (i 3).val / 64) * 64 + (i 3).val % 64
      = ((((i 0).val * 16 + (i 1).val) * 32 + (i 2).val) * 64 + (i 3).val / 64) * 64 + (i 3).val % 64
    omega)]
  refine (swap_apply ht _ _ _ _ _ _).trans ((split_apply hs _ _ _ _ _ _).trans ?_)
  refine congrArg A (funext fun a => Fin.ext ?_)
  match a with
  | ⟨0, _⟩ => rfl
  | ⟨1, _⟩ => rfl
  | ⟨2, _⟩ => rfl
  | ⟨3, _⟩ => show (i 3).val / 64 * 64 + (i 3).val % 64 = (i 3).val; omega

/-- The final layout at (b, ch, h, w). -/
theorem final_apply (A : S16x16x32x4096.Idx → α) (i : S16x512x64x64.Idx) :
    shapeCast S16x512x64x64
      (transpose S16x32x16x64x64 [0, 2, 1, 3, 4]
        (shapeCast S16x16x32x64x64 A hs)
        ht)
      hf i
      = A (ix4 (i 0) (grpOf (i 1)) (chOf (i 1)) (spat (i 2) (i 3))) := by
  have h0 : (i 0).val < 16 := (i 0).isLt
  have h1 : (i 1).val < 512 := (i 1).isLt
  have h2 : (i 2).val < 64 := (i 2).isLt
  have h3 : (i 3).val < 64 := (i 3).isLt
  rw [shapeCast_apply _ hf i (ix5 (i 0) (chOf (i 1)) (grpOf (i 1)) (i 2) (i 3)) (by
    rw [Shape.rowMajor_val_five, Shape.rowMajor_val_four]
    show ((((i 0).val * 32 + (i 1).val / 16) * 16 + (i 1).val % 16) * 64 + (i 2).val) * 64 + (i 3).val
      = (((i 0).val * 512 + (i 1).val) * 64 + (i 2).val) * 64 + (i 3).val
    omega)]
  exact (swap_apply ht _ _ _ _ _ _).trans (split_apply hs _ _ _ _ _ _)

end Cert.KernelIdeal.Layout

end
-- ==== Proof.LibLogistic.lean ====
/-
  A reusable lemma: the logistic function written two ways, on the extended reals, and the f32 words of 0, 1 and 0.5.

  One program computes the logistic function as 1 / (1 + e^(-v)); the other as 1/2 · tanh (v/2) + 1/2.  Over the
  reals these are one function: with a = e^(v/2),  tanh (v/2) = (a - 1/a) / (a + 1/a),  so
  1/2 · tanh (v/2) + 1/2 = a / (a + 1/a) = 1 / (1 + 1/a²) = 1 / (1 + e^(-v)).
  Over the extended reals the identity survives at both infinities: at -∞ both sides are 0 (tanh (-∞) = -1,
  e^(+∞) = +∞, 1/∞ = 0) and at +∞ both are 1.  So the identity needs no finiteness of v.
-/
import Idealize.ShloMosaic.PureOps.Ideal

noncomputable section

namespace Cert.Logistic

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- The quotient 1 / (1 + e^(-v)) with the literal 1.0 in both places is the logistic function. -/
theorem one_div_one_add_exp_neg (v : EReal) :
    Ideal.div (Ideal.ofBits .f32 0x3F800000#32) (Ideal.ofBits .f32 0x3F800000#32 + Ideal.exp (-v)) = Ideal.logistic v := by
  rw [ofBits_one]; rfl

/-- Over the reals: 1/2 · tanh (r/2) + 1/2 = 1 / (1 + e^(-r)). -/
theorem real_half_tanh (r : ℝ) : (1 / 2 : ℝ) * Real.tanh ((1 / 2) * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have h1 : Real.exp (-r) = (Real.exp (1 / 2 * r))⁻¹ * (Real.exp (1 / 2 * r))⁻¹ := by
    rw [← hn, ← Real.exp_add]; congr 1; ring
  rw [Real.tanh_eq_sinh_div_cosh, Real.sinh_eq, Real.cosh_eq, hn, h1]
  field_simp
  ring

/-- Over the extended reals, with the literal 0.5 in all three places: 0.5 · tanh (0.5 · v) + 0.5 is the logistic
    function of v, infinities included. -/
theorem half_tanh_half (v : EReal) :
    Ideal.ofBits .f32 0x3F000000#32 * Ideal.tanh (Ideal.ofBits .f32 0x3F000000#32 * v) + Ideal.ofBits .f32 0x3F000000#32
      = Ideal.logistic v := by
  rw [ofBits_half]
  have hneg : (-1 : EReal) = ((-1 : ℝ) : EReal) := by norm_num
  have hone : (1 : EReal) = ((1 : ℝ) : EReal) := rfl
  induction v using EReal.rec with
  | bot =>
    rw [EReal.coe_mul_bot_of_pos (by norm_num), Ideal.tanh_bot, Ideal.logistic_bot, hneg, ← EReal.coe_mul, ← EReal.coe_add]
    norm_num
  | coe r =>
    rw [← EReal.coe_mul, Ideal.tanh_coe, ← EReal.coe_mul, ← EReal.coe_add, Ideal.logistic_coe, real_half_tanh]
  | top =>
    rw [EReal.coe_mul_top_of_pos (by norm_num), Ideal.tanh_top, Ideal.logistic_top, hone, ← EReal.coe_mul, ← EReal.coe_add]
    norm_num

end Cert.Logistic

end
-- ==== Proof.SpecLaws.lean ====
/-
  The three small laws that join the two programs' spellings of the same numbers, on the extended reals, with no
  finiteness assumed.

  * Dividing by 4096.0 is multiplying by the f32 word of 2⁻¹² (`div_4096`): a quotient by a nonzero real is the product
    with its reciprocal on every extended real, infinities included.
  * A mean of means is one mean (`mean_mean`): ((Σ_c (σ_c / 4096)) / 32) = (Σ_c σ_c) · 2⁻¹⁷.  Multiplication by a
    nonnegative real distributes over a sum of extended reals (with the convention +∞ + -∞ = -∞ on both sides), so
    the factor 2⁻¹² moves out of the sum, and 2⁻¹² · (1/32) = 2⁻¹⁷.
  * 1 / (1 + e^(-v)) with the literal 1.0 is the logistic function (`logistic_host`).
-/
import proofs.«161621_j77464030150917_2_alg».proof.Proof.Spec
import proofs.«161621_j77464030150917_2_alg».proof.Proof.LibLogistic

noncomputable section

open scoped BigOperators

namespace Cert.Spec

open Idealize.ShloMosaic

/-- The word of 4096.0 denotes 4096. -/
theorem ofBits_4096 : Ideal.ofBits .f32 0x45800000#32 = ((4096 : ℝ) : EReal) := by
  simp [Ideal.ofBits, Ideal.ieee, -EReal.coe_mul]; norm_num

/-- The word of 32.0 denotes 32. -/
theorem ofBits_32 : Ideal.ofBits .f32 0x42000000#32 = ((32 : ℝ) : EReal) := by
  simp [Ideal.ofBits, Ideal.ieee, -EReal.coe_mul]; norm_num

/-- The word 0x39800000 denotes 1/4096. -/
theorem k12_eq : k12 = ((1 / 4096 : ℝ) : EReal) := by
  unfold k12; simp [Ideal.ofBits, Ideal.ieee, -EReal.coe_mul]; norm_num

/-- The word 0x37000000 denotes 1/131072. -/
theorem k17_eq : k17 = ((1 / 131072 : ℝ) : EReal) := by
  unfold k17; simp [Ideal.ofBits, Ideal.ieee, -EReal.coe_mul]; norm_num

/-- x / 4096.0 = x · 2⁻¹², for every extended real x. -/
theorem div_4096 (x : EReal) : Ideal.div x (Ideal.ofBits .f32 0x45800000#32) = x * k12 := by
  rw [ofBits_4096, Ideal.div_coe (by norm_num : (4096 : ℝ) ≠ 0), k12_eq]

/-- A nonnegative real factor moves out of a finite sum of extended reals. -/
theorem sum_mul_coe {ι : Type} (s : Finset ι) (f : ι → EReal) (a : ℝ) (ha : 0 ≤ a) :
    ∑ i ∈ s, f i * (a : EReal) = (∑ i ∈ s, f i) * (a : EReal) := by
  classical
  induction s using Finset.induction_on with
  | empty => simp
  | insert j s hj ih =>
    rw [Finset.sum_insert hj, Finset.sum_insert hj, ih,
      EReal.right_distrib_of_nonneg_of_ne_top (EReal.coe_nonneg.mpr ha) (EReal.coe_ne_top a)]

/-- The mean over 32 channels of the means over 4096 positions is the sum times 2⁻¹⁷. -/
theorem mean_mean (σ : Fin 32 → EReal) :
    Ideal.div (0 + ∑ c : Fin 32, Ideal.div (0 + σ c) (Ideal.ofBits .f32 0x45800000#32)) (Ideal.ofBits .f32 0x42000000#32)
      = (∑ c : Fin 32, σ c) * k17 := by
  simp only [zero_add, div_4096]
  rw [k12_eq, sum_mul_coe _ _ _ (by norm_num), ofBits_32, Ideal.div_coe (by norm_num : (32 : ℝ) ≠ 0), mul_assoc,
    ← EReal.coe_mul, k17_eq]
  norm_num

/-- 1 / (1 + e^(-v)), with the literal 1.0 in both places, is the logistic function. -/
theorem logistic_host (v : EReal) :
    Ideal.div (Ideal.ofBits .f32 0x3F800000#32) (Ideal.ofBits .f32 0x3F800000#32 + Ideal.exp (-v)) = Ideal.logistic v :=
  Cert.Logistic.one_div_one_add_exp_neg v

end Cert.Spec

end
-- ==== Proof.CrossHost.lean ====
/-
  The cross-group weights: the host operations between the second and the third launch, read at an entry.

  From the 16 group means γ[b, ·] of a batch element the chain computes, for group g,
    ω[b, g] = 1 / (1 + e^(-( Σ_q max( Σ_g' γ[b, g'] · cw1[q, g'] + cb1[q], 0 ) · cw2[g, q] + cb2[g] ))),
  which is the logistic function of that sum.  Each dense product is a sum over its one contracted axis, the weights
  are read through their transposes, each bias is spread over the 16 rows, and the two unit-axis reshapes keep the
  row-major position.
-/
import proofs.«161621_j77464030150917_2_alg».proof.KernelIdeal
import proofs.«161621_j77464030150917_2_alg».proof.Proof.Gen.KernelIdeal
import proofs.«161621_j77464030150917_2_alg».proof.Proof.SpecLaws
import Idealize.ShloMosaic.Lib.Pipeline.Value
import Idealize.ShloMosaic.Lib.ValueIdx
import Idealize.ShloMosaic.PureOps.Ideal.Laws

noncomputable section

open scoped BigOperators

namespace Cert.KernelIdeal.CrossHost

open Cert.KernelIdeal Cert.KernelIdeal.Facts₀ Cert.Spec
open Idealize.ShloMosaic Idealize.ShloMosaic.ValueIdx

/-- The host operations between the second and the third launch, as one function of the group means (kept with
    their trailing unit axis) and the four cross-gate parameters: drop the unit axis, two dense layers (weights
    transposed, bias spread over the rows, clamp at zero after the first), 1 / (1 + e^(-·)), put the unit axis back. -/
def crossTerm (γ : FVec Ideal S16x16x1 .f32) (cw1 : FVec Ideal S8x16 .f32) (cb1 : FVec Ideal S8 .f32)
    (cw2 : FVec Ideal S16x8 .f32) (cb2 : FVec Ideal S16 .f32) : FVec Ideal S16x16x1 .f32 :=
  shapeCast S16x16x1
    (Host.divf (F := Ideal) (broadcastInDim S16x16 ![] bcast_S_S16x16 (constant (F := Ideal) S_ .f32 0x3F800000#32))
      (addf (broadcastInDim S16x16 ![] bcast_S_S16x16 (constant (F := Ideal) S_ .f32 0x3F800000#32))
        (Host.exp (F := Ideal) (Host.negf (F := Ideal)
          (addf
            (Host.dotGeneral (F := Ideal) dot_S16x8_S8x16_S16x16_1_0_0_1_n_n none
              (maximumf
                (addf
                  (Host.dotGeneral (F := Ideal) dot_S16x16_S16x8_S16x8_1_0_0_1_n_n none
                    (shapeCast S16x16 γ shapeCasts_S16x16x1_S16x16)
                    (transpose S16x8 [1, 0] cw1 transposes_S8x16_S16x8_1_0))
                  (broadcastInDim S16x8 ![0, 1] bcast_S1x8_S16x8_0_1 (broadcastInDim S1x8 ![1] bcast_S8_S1x8_1 cb1)))
                (broadcastInDim S16x8 ![] bcast_S_S16x8 (constant (F := Ideal) S_ .f32 0x00000000#32)))
              (transpose S8x16 [1, 0] cw2 transposes_S16x8_S8x16_1_0))
            (broadcastInDim S16x16 ![0, 1] bcast_S1x16_S16x16_0_1 (broadcastInDim S1x16 ![1] bcast_S16_S1x16_1 cb2)))))))
    shapeCasts_S16x16_S16x16x1

abbrev dA := dot_S16x16_S16x8_S16x8_1_0_0_1_n_n
abbrev dB := dot_S16x8_S8x16_S16x16_1_0_0_1_n_n

/-! ## The two dense products read at an entry -/

theorem lhsA_0 (i : S16x8.Idx) (q : dA.contr.Idx) : (dA.lhsIdx i q 0).val = (i 0).val := by
  unfold DotDims.lhsIdx
  rw [dif_neg (show ¬(0 : Fin S16x16.rank) ∈ dA.lhsBatch by decide), dif_pos (show (0 : Fin S16x16.rank) ∈ dA.lhsNonContracting by decide)]
  rfl
theorem lhsA_1 (i : S16x8.Idx) (q : dA.contr.Idx) : (dA.lhsIdx i q 1).val = (q ⟨0, by decide⟩).val :=
  dA.lhsIdx_val_of_single rfl i q
theorem rhsA_0 (i : S16x8.Idx) (q : dA.contr.Idx) : (dA.rhsIdx i q 0).val = (q ⟨0, by decide⟩).val :=
  dA.rhsIdx_val_of_single rfl i q
theorem rhsA_1 (i : S16x8.Idx) (q : dA.contr.Idx) : (dA.rhsIdx i q 1).val = (i 1).val := by
  unfold DotDims.rhsIdx
  rw [dif_neg (show ¬(1 : Fin S16x8.rank) ∈ dA.rhsBatch by decide), dif_pos (show (1 : Fin S16x8.rank) ∈ dA.rhsNonContracting by decide)]
  rfl

/-- The first product at (b, q): the sum over the 16 groups. -/
theorem dotA_apply (l : FVec Ideal S16x16 .f32) (r : FVec Ideal S16x8 .f32) (b : Fin 16) (q : Fin 8) :
    Host.dotGeneral (F := Ideal) dA none l r (ix2 b q) = ∑ k : Fin 16, l (ix2 b k) * r (ix2 k q) := by
  simp only [Host.dotGeneral]
  rw [Ideal.dotGeneral_apply, ← Equiv.sum_comp (ValueIdx.contrEquiv1 dA 16 rfl rfl).symm]
  refine Finset.sum_congr rfl fun k _ => ?_
  have hk := ValueIdx.contrEquiv1_symm_val dA 16 rfl rfl k
  have el : dA.lhsIdx (ix2 b q) ((ValueIdx.contrEquiv1 dA 16 rfl rfl).symm k) = ix2 b k := funext fun a => Fin.ext (by
    match a with
    | ⟨0, _⟩ => exact lhsA_0 _ _
    | ⟨1, _⟩ => exact (lhsA_1 _ _).trans hk)
  have er : dA.rhsIdx (ix2 b q) ((ValueIdx.contrEquiv1 dA 16 rfl rfl).symm k) = ix2 k q := funext fun a => Fin.ext (by
    match a with
    | ⟨0, _⟩ => exact (rhsA_0 _ _).trans hk
    | ⟨1, _⟩ => exact rhsA_1 _ _)
  rw [el, er]

theorem lhsB_0 (i : S16x16.Idx) (q : dB.contr.Idx) : (dB.lhsIdx i q 0).val = (i 0).val := by
  unfold DotDims.lhsIdx
  rw [dif_neg (show ¬(0 : Fin S16x8.rank) ∈ dB.lhsBatch by decide), dif_pos (show (0 : Fin S16x8.rank) ∈ dB.lhsNonContracting by decide)]
  rfl
theorem lhsB_1 (i : S16x16.Idx) (q : dB.contr.Idx) : (dB.lhsIdx i q 1).val = (q ⟨0, by decide⟩).val :=
  dB.lhsIdx_val_of_single rfl i q
theorem rhsB_0 (i : S16x16.Idx) (q : dB.contr.Idx) : (dB.rhsIdx i q 0).val = (q ⟨0, by decide⟩).val :=
  dB.rhsIdx_val_of_single rfl i q
theorem rhsB_1 (i : S16x16.Idx) (q : dB.contr.Idx) : (dB.rhsIdx i q 1).val = (i 1).val := by
  unfold DotDims.rhsIdx
  rw [dif_neg (show ¬(1 : Fin S8x16.rank) ∈ dB.rhsBatch by decide), dif_pos (show (1 : Fin S8x16.rank) ∈ dB.rhsNonContracting by decide)]
  rfl

/-- The second product at (b, g): the sum over the 8 hidden units. -/
theorem dotB_apply (l : FVec Ideal S16x8 .f32) (r : FVec Ideal S8x16 .f32) (b g : Fin 16) :
    Host.dotGeneral (F := Ideal) dB none l r (ix2 b g) = ∑ k : Fin 8, l (ix2 b k) * r (ix2 k g) := by
  simp only [Host.dotGeneral]
  rw [Ideal.dotGeneral_apply, ← Equiv.sum_comp (ValueIdx.contrEquiv1 dB 8 rfl rfl).symm]
  refine Finset.sum_congr rfl fun k _ => ?_
  have hk := ValueIdx.contrEquiv1_symm_val dB 8 rfl rfl k
  have el : dB.lhsIdx (ix2 b g) ((ValueIdx.contrEquiv1 dB 8 rfl rfl).symm k) = ix2 b k := funext fun a => Fin.ext (by
    match a with
    | ⟨0, _⟩ => exact lhsB_0 _ _
    | ⟨1, _⟩ => exact (lhsB_1 _ _).trans hk)
  have er : dB.rhsIdx (ix2 b g) ((ValueIdx.contrEquiv1 dB 8 rfl rfl).symm k) = ix2 k g := funext fun a => Fin.ext (by
    match a with
    | ⟨0, _⟩ => exact (rhsB_0 _ _).trans hk
    | ⟨1, _⟩ => exact rhsB_1 _ _)
  rw [el, er]

/-! ## The layout operations of the chain read at an entry -/

/-- The means without their unit axis, at (b, g'). -/
theorem gamma_apply (γ : FVec Ideal S16x16x1 .f32) (b g' : Fin 16) :
    shapeCast S16x16 γ shapeCasts_S16x16x1_S16x16 (ix2 b g') = γ (ix3 b g' 0) := by
  refine shapeCast_apply γ _ _ _ ?_
  rw [Shape.rowMajor_val_three, Shape.rowMajor_val_two]
  show (b.val * 16 + g'.val) * 1 + 0 = b.val * 16 + g'.val
  omega

/-- The transposed first weights at (g', q): cw1[q, g']. -/
theorem cw1T_apply (cw1 : FVec Ideal S8x16 .f32) (g' : Fin 16) (q : Fin 8) :
    transpose S16x8 [1, 0] cw1 transposes_S8x16_S16x8_1_0 (ix2 g' q) = cw1 (ix2 q g') :=
  transpose_apply [1, 0] cw1 _ _ _ (fun a => match a with
    | ⟨0, _⟩ => rfl
    | ⟨1, _⟩ => rfl)

/-- The transposed second weights at (q, g): cw2[g, q]. -/
theorem cw2T_apply (cw2 : FVec Ideal S16x8 .f32) (q : Fin 8) (g : Fin 16) :
    transpose S8x16 [1, 0] cw2 transposes_S16x8_S8x16_1_0 (ix2 q g) = cw2 (ix2 g q) :=
  transpose_apply [1, 0] cw2 _ _ _ (fun a => match a with
    | ⟨0, _⟩ => rfl
    | ⟨1, _⟩ => rfl)

/-- The first bias spread over the rows, at (b, q). -/
theorem cb1_apply (cb1 : FVec Ideal S8 .f32) (b : Fin 16) (q : Fin 8) :
    broadcastInDim S16x8 ![0, 1] bcast_S1x8_S16x8_0_1 (broadcastInDim S1x8 ![1] bcast_S8_S1x8_1 cb1) (ix2 b q) = cb1 (ix1 q) := by
  refine (broadcastInDim_apply ![0, 1] bcast_S1x8_S16x8_0_1 _ (ix2 b q) (ix2 0 q) (fun a => match a with
    | ⟨0, _⟩ => rfl
    | ⟨1, _⟩ => rfl)).trans ?_
  exact broadcastInDim_apply ![1] bcast_S8_S1x8_1 cb1 (ix2 0 q) (ix1 q) (fun a => match a with
    | ⟨0, _⟩ => rfl)

/-- The second bias spread over the rows, at (b, g). -/
theorem cb2_apply (cb2 : FVec Ideal S16 .f32) (b g : Fin 16) :
    broadcastInDim S16x16 ![0, 1] bcast_S1x16_S16x16_0_1 (broadcastInDim S1x16 ![1] bcast_S16_S1x16_1 cb2) (ix2 b g) = cb2 (ix1 g) := by
  refine (broadcastInDim_apply ![0, 1] bcast_S1x16_S16x16_0_1 _ (ix2 b g) (ix2 0 g) (fun a => match a with
    | ⟨0, _⟩ => rfl
    | ⟨1, _⟩ => rfl)).trans ?_
  exact broadcastInDim_apply ![1] bcast_S16_S1x16_1 cb2 (ix2 0 g) (ix1 g) (fun a => match a with
    | ⟨0, _⟩ => rfl)

/-! ## The chain at an entry -/

/-- The chain at (b, g): the cross-group weight of group g from the 16 means of batch element b. -/
theorem crossTerm_apply (γ : FVec Ideal S16x16x1 .f32) (cw1 : FVec Ideal S8x16 .f32) (cb1 : FVec Ideal S8 .f32)
    (cw2 : FVec Ideal S16x8 .f32) (cb2 : FVec Ideal S16 .f32) (b g : Fin 16) (u : Fin 1) :
    crossTerm γ cw1 cb1 cw2 cb2 (ix3 b g u)
      = cross (fun q g' => cw1 (ix2 q g')) (fun q => cb1 (ix1 q)) (fun g q => cw2 (ix2 g q)) (fun g => cb2 (ix1 g))
          (fun g' => γ (ix3 b g' 0)) g := by
  unfold crossTerm
  refine (shapeCast_apply _ _ (ix3 b g u) (ix2 b g) ?_).trans ?_
  · rw [Shape.rowMajor_val_two, Shape.rowMajor_val_three]
    have := u.isLt
    show b.val * 16 + g.val = (b.val * 16 + g.val) * 1 + u.val
    omega
  simp only [Host.divf, Host.exp, Host.negf, addf, Ideal.hostDivf_def, Ideal.addf_def, Ideal.hostUnary_exp_def,
    Ideal.exp_def, Ideal.hostNegf_def, Ideal.negf_def]
  rw [dotB_apply, cb2_apply]
  unfold cross
  have hone : ∀ j : S16x16.Idx,
      broadcastInDim S16x16 ![] bcast_S_S16x16 (constant (F := Ideal) S_ .f32 0x3F800000#32) j = Ideal.ofBits .f32 0x3F800000#32 :=
    fun _ => rfl
  have hzero : ∀ j : S16x8.Idx,
      broadcastInDim S16x8 ![] bcast_S_S16x8 (constant (F := Ideal) S_ .f32 0x00000000#32) j = 0 :=
    fun _ => Ideal.ofBits_zero_f32
  rw [hone, logistic_host]
  refine congrArg Ideal.logistic (congrArg (· + cb2 (ix1 g)) (Finset.sum_congr rfl fun k _ => ?_))
  rw [cw2T_apply]
  refine congrArg (· * cw2 (ix2 g k)) ?_
  show max (Host.dotGeneral (F := Ideal) dA none _ _ (ix2 b k) + _) _ = _
  rw [dotA_apply, cb1_apply, hzero]
  refine congrArg (max · 0) (congrArg (· + cb1 (ix1 k)) (Finset.sum_congr rfl fun g' _ => ?_))
  rw [gamma_apply, cw1T_apply]

end Cert.KernelIdeal.CrossHost

end
-- ==== Proof.Glue.lean ====
/-
  The kernel program's result buffer as a function of its nine argument arrays.

  The program's memory is followed from the launch through its segments: a stretch of host operations replaces a
  buffer by the operation's value of its operands and leaves every other buffer alone; a launch replaces each of its
  output arrays by what its grid points wrote back and leaves its input arrays as entered.  So
    * before the first launch the first weight matrix is transposed and the activation regrouped;
    * the first launch leaves the first gating pass of the regrouped activation (its per-group means are not used);
    * the shuffle chain turns it into the second pass's input; the gate parameters reach the second launch unchanged;
    * the second launch leaves the second pass and its group means;
    * the host chain on the means gives the cross-group weights; the third launch scales each group by its weight;
    * the final layout chain gives the result.
  Read at an index through the layout lemmas, this is the specification `Cert.Spec.out` of the argument arrays.
  What each launch leaves in its output arrays is taken here as a hypothesis about that launch alone
  (`Gate0Out`, `Gate1Out`, `Gate1Mean`, `ScaleOut`), for any contents the launch is entered from.
-/
import proofs.«161621_j77464030150917_2_alg».proof.Proof.Gen.KernelIdeal.Frame
import proofs.«161621_j77464030150917_2_alg».proof.Proof.BodySpec
import proofs.«161621_j77464030150917_2_alg».proof.Proof.Layout
import proofs.«161621_j77464030150917_2_alg».proof.Proof.CrossHost
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

open Cert.Spec Cert.KernelIdeal.Layout Cert.KernelIdeal.CrossHost

/-- The buffer contents a launch is entered from. -/
abbrev VT := (c : Dev nD) → (b : Ref sig .tc) → Buf (Elt Ideal) ((c : Thread nD τ).loc b)

/-! ## What each launch leaves in its output arrays, for any entry contents (proved per launch elsewhere) -/

def Gate0Out : Prop := ∀ (V : VT) (c : Dev nD), (dat0 (F := Ideal) V c).arrAt 5 cfg0.N
    = passF (fun o c' => V c main_v0 (ix2 c' o)) (fun o => V c main_arg2 (ix1 o)) (fun c' o => V c main_arg3 (ix2 c' o)) (fun c' => V c main_arg4 (ix1 c')) (V c main_v1)
def Gate1Out : Prop := ∀ (V : VT) (c : Dev nD), (dat1 (F := Ideal) V c).arrAt 5 cfg1.N
    = passF (fun o c' => V c main_v0 (ix2 c' o)) (fun o => V c main_arg2 (ix1 o)) (fun c' o => V c main_arg3 (ix2 c' o)) (fun c' => V c main_arg4 (ix1 c')) (V c main_v6)
def Gate1Mean : Prop := ∀ (V : VT) (c : Dev nD), (dat1 (F := Ideal) V c).arrAt 6 cfg1.N
    = globF (fun o c' => V c main_v0 (ix2 c' o)) (fun o => V c main_arg2 (ix1 o)) (fun c' o => V c main_arg3 (ix2 c' o)) (fun c' => V c main_arg4 (ix1 c')) (V c main_v6)
def ScaleOut : Prop := ∀ (V : VT) (c : Dev nD), (dat2 (F := Ideal) V c).arrAt 2 cfg2.N = scaleF (V c main_v7_0) (V c main_v26)

theorem passF_congr {w1 w1' : Fin 8 → Fin 32 → EReal} {b1 b1' : Fin 8 → EReal} {w2 w2' : Fin 32 → Fin 8 → EReal}
    {b2 b2' : Fin 32 → EReal} {A A' : SG.Idx → EReal} (h1 : w1 = w1') (h2 : b1 = b1') (h3 : w2 = w2') (h4 : b2 = b2') (h5 : A = A') :
    passF w1 b1 w2 b2 A = passF w1' b1' w2' b2' A' := by subst h1 h2 h3 h4 h5; rfl
theorem globF_congr {w1 w1' : Fin 8 → Fin 32 → EReal} {b1 b1' : Fin 8 → EReal} {w2 w2' : Fin 32 → Fin 8 → EReal}
    {b2 b2' : Fin 32 → EReal} {A A' : SG.Idx → EReal} (h1 : w1 = w1') (h2 : b1 = b1') (h3 : w2 = w2') (h4 : b2 = b2') (h5 : A = A') :
    globF w1 b1 w2 b2 A = globF w1' b1' w2' b2' A' := by subst h1 h2 h3 h4 h5; rfl

/-! ## Before the first launch -/

theorem W1_v0 : W1 m ρ c (Proc.devRef .tc main_v0)
    = transpose S32x8 [1, 0] (m ((c : Thread nD τ).loc main_arg1)) transposes_S8x32_S32x8_1_0 := by
  show StableHlo.after hostOps0 (W0 m ρ c) (Proc.devRef .tc main_v0) = _
  after_results
  all_goals rfl
theorem W1_v1 : W1 m ρ c (Proc.devRef .tc main_v1)
    = shapeCast S16x16x32x4096 (m ((c : Thread nD τ).loc main_arg0)) shapeCasts_S16x512x64x64_S16x16x32x4096 := by
  show StableHlo.after hostOps0 (W0 m ρ c) (Proc.devRef .tc main_v1) = _
  after_results
  all_goals rfl
theorem W1_a2 : W1 m ρ c (Proc.devRef .tc main_arg2) = m ((c : Thread nD τ).loc main_arg2) := by
  show StableHlo.after hostOps0 (W0 m ρ c) (Proc.devRef .tc main_arg2) = _
  after_results
  all_goals rfl
theorem W1_a3 : W1 m ρ c (Proc.devRef .tc main_arg3) = m ((c : Thread nD τ).loc main_arg3) := by
  show StableHlo.after hostOps0 (W0 m ρ c) (Proc.devRef .tc main_arg3) = _
  after_results
  all_goals rfl
theorem W1_a4 : W1 m ρ c (Proc.devRef .tc main_arg4) = m ((c : Thread nD τ).loc main_arg4) := by
  show StableHlo.after hostOps0 (W0 m ρ c) (Proc.devRef .tc main_arg4) = _
  after_results
  all_goals rfl

/-- The first weights as the launches read them — through their transpose — are the weights themselves. -/
theorem w1_read : (fun (o : Fin 8) (c' : Fin 32) => W1 m ρ c (Proc.devRef .tc main_v0) (ix2 c' o))
    = Cert.Spec.W1 (m ((c : Thread nD τ).loc main_arg1)) := by
  funext o c'
  rw [W1_v0]
  exact transpose_apply [1, 0] _ _ _ _ (fun a => match a with
    | ⟨0, _⟩ => rfl
    | ⟨1, _⟩ => rfl)

section Chain

/-! ## The first launch -/

/-- After the first launch its first output holds the first gating pass of the regrouped activation. -/
theorem W2_v2_0 (h0 : Gate0Out) : W2 m ρ c (Proc.devRef .tc main_v2_0) = x1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((h0 (V1 m ρ) c).trans ?_)
  unfold x1
  refine passF_congr (w1_read m ρ c) ?_ ?_ ?_ ?_
  · funext o; show W1 m ρ c (Proc.devRef .tc main_arg2) (ix1 o) = _; rw [W1_a2]; rfl
  · funext c' o; show W1 m ρ c (Proc.devRef .tc main_arg3) (ix2 c' o) = _; rw [W1_a3]; rfl
  · funext c'; show W1 m ρ c (Proc.devRef .tc main_arg4) (ix1 c') = _; rw [W1_a4]; rfl
  · show W1 m ρ c (Proc.devRef .tc main_v1) = _
    rw [W1_v1]
    funext i
    exact group_apply _ _ i

/-! ## Between the first and the second launch -/

/-- An input array of the first launch is left as it was entered. -/
theorem W2_in (w : Fin cfg0.W) (hw : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hw _).trans (A_eq0 (V1 m ρ) c w))

theorem W3_v6 (h0 : Gate0Out) : W3 m ρ c (Proc.devRef .tc main_v6) = x2 (m ((c : Thread nD τ).loc main_arg0)) (m ((c : Thread nD τ).loc main_arg1)) (m ((c : Thread nD τ).loc main_arg2)) (m ((c : Thread nD τ).loc main_arg3)) (m ((c : Thread nD τ).loc main_arg4)) := by
  have e : W3 m ρ c (Proc.devRef .tc main_v6)
      = shapeCast S16x16x32x4096
          (shapeCast S16x16x32x64x64
            (transpose S16x32x16x64x64 [0, 2, 1, 3, 4]
              (shapeCast S16x16x32x64x64 (W2 m ρ c (Proc.devRef .tc main_v2_0)) shapeCasts_S16x16x32x4096_S16x16x32x64x64)
              transposes_S16x16x32x64x64_S16x32x16x64x64_0_2_1_3_4)
            shapeCasts_S16x32x16x64x64_S16x16x32x64x64)
          shapeCasts_S16x16x32x64x64_S16x16x32x4096 := by
    show StableHlo.after hostOps1 (W2 m ρ c) (Proc.devRef .tc main_v6) = _
    after_results
    all_goals rfl
  rw [e, W2_v2_0 m ρ c h0]
  unfold x2
  funext i
  exact shuffle_apply _ _ _ _ _ i

theorem W3_v0 : W3 m ρ c (Proc.devRef .tc main_v0) = W1 m ρ c (Proc.devRef .tc main_v0) := by
  have e : W3 m ρ c (Proc.devRef .tc main_v0) = W2 m ρ c (Proc.devRef .tc main_v0) := by
    show StableHlo.after hostOps1 (W2 m ρ c) (Proc.devRef .tc main_v0) = _
    after_results
    all_goals rfl
  exact e.trans (W2_in m ρ c 1 rfl)
theorem W3_a2 : W3 m ρ c (Proc.devRef .tc main_arg2) = (m ((c : Thread nD τ).loc main_arg2)) := by
  have e : W3 m ρ c (Proc.devRef .tc main_arg2) = W2 m ρ c (Proc.devRef .tc main_arg2) := by
    show StableHlo.after hostOps1 (W2 m ρ c) (Proc.devRef .tc main_arg2) = _
    after_results
    all_goals rfl
  exact (e.trans (W2_in m ρ c 2 rfl)).trans (W1_a2 m ρ c)
theorem W3_a3 : W3 m ρ c (Proc.devRef .tc main_arg3) = (m ((c : Thread nD τ).loc main_arg3)) := by
  have e : W3 m ρ c (Proc.devRef .tc main_arg3) = W2 m ρ c (Proc.devRef .tc main_arg3) := by
    show StableHlo.after hostOps1 (W2 m ρ c) (Proc.devRef .tc main_arg3) = _
    after_results
    all_goals rfl
  exact (e.trans (W2_in m ρ c 3 rfl)).trans (W1_a3 m ρ c)
theorem W3_a4 : W3 m ρ c (Proc.devRef .tc main_arg4) = (m ((c : Thread nD τ).loc main_arg4)) := by
  have e : W3 m ρ c (Proc.devRef .tc main_arg4) = W2 m ρ c (Proc.devRef .tc main_arg4) := by
    show StableHlo.after hostOps1 (W2 m ρ c) (Proc.devRef .tc main_arg4) = _
    after_results
    all_goals rfl
  exact (e.trans (W2_in m ρ c 4 rfl)).trans (W1_a4 m ρ c)

/-! ## The second launch -/

theorem W4_v7_0 (h0 : Gate0Out) (h1 : Gate1Out) : W4 m ρ c (Proc.devRef .tc main_v7_0) = x3 (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((h1 (V3 m ρ) c).trans ?_)
  unfold x3
  refine passF_congr ?_ ?_ ?_ ?_ ?_
  · show (fun (o : Fin 8) (c' : Fin 32) => W3 m ρ c (Proc.devRef .tc main_v0) (ix2 c' o)) = _
    rw [W3_v0]; exact w1_read m ρ c
  · funext o; show W3 m ρ c (Proc.devRef .tc main_arg2) (ix1 o) = _; rw [W3_a2]; rfl
  · funext c' o; show W3 m ρ c (Proc.devRef .tc main_arg3) (ix2 c' o) = _; rw [W3_a3]; rfl
  · funext c'; show W3 m ρ c (Proc.devRef .tc main_arg4) (ix1 c') = _; rw [W3_a4]; rfl
  · exact W3_v6 m ρ c h0

theorem W4_v7_1 (h0 : Gate0Out) (h1 : Gate1Mean) : W4 m ρ c (Proc.devRef .tc main_v7_1) = glob (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 6).trans ((h1 (V3 m ρ) c).trans ?_)
  unfold glob
  refine globF_congr ?_ ?_ ?_ ?_ ?_
  · show (fun (o : Fin 8) (c' : Fin 32) => W3 m ρ c (Proc.devRef .tc main_v0) (ix2 c' o)) = _
    rw [W3_v0]; exact w1_read m ρ c
  · funext o; show W3 m ρ c (Proc.devRef .tc main_arg2) (ix1 o) = _; rw [W3_a2]; rfl
  · funext c' o; show W3 m ρ c (Proc.devRef .tc main_arg3) (ix2 c' o) = _; rw [W3_a3]; rfl
  · funext c'; show W3 m ρ c (Proc.devRef .tc main_arg4) (ix1 c') = _; rw [W3_a4]; rfl
  · exact W3_v6 m ρ c h0

end Chain

section Tail

/-! ## Between the second and the third launch: the cross-group weights -/

theorem W1_a5 : W1 m ρ c (Proc.devRef .tc main_arg5) = (m ((c : Thread nD τ).loc main_arg5)) := by
  show StableHlo.after hostOps0 (W0 m ρ c) (Proc.devRef .tc main_arg5) = _
  after_results
  all_goals rfl
theorem W4_a5 : W4 m ρ c (Proc.devRef .tc main_arg5) = (m ((c : Thread nD τ).loc main_arg5)) := by
  have e3 : W3 m ρ c (Proc.devRef .tc main_arg5) = W2 m ρ c (Proc.devRef .tc main_arg5) := by
    show StableHlo.after hostOps1 (W2 m ρ c) (Proc.devRef .tc main_arg5) = _
    after_results
    all_goals rfl
  exact (W4_of_ne m ρ c main_arg5 (by decide)).trans
    (e3.trans ((W2_of_ne m ρ c main_arg5 (by decide)).trans (W1_a5 m ρ c)))

theorem W1_a6 : W1 m ρ c (Proc.devRef .tc main_arg6) = (m ((c : Thread nD τ).loc main_arg6)) := by
  show StableHlo.after hostOps0 (W0 m ρ c) (Proc.devRef .tc main_arg6) = _
  after_results
  all_goals rfl
theorem W4_a6 : W4 m ρ c (Proc.devRef .tc main_arg6) = (m ((c : Thread nD τ).loc main_arg6)) := by
  have e3 : W3 m ρ c (Proc.devRef .tc main_arg6) = W2 m ρ c (Proc.devRef .tc main_arg6) := by
    show StableHlo.after hostOps1 (W2 m ρ c) (Proc.devRef .tc main_arg6) = _
    after_results
    all_goals rfl
  exact (W4_of_ne m ρ c main_arg6 (by decide)).trans
    (e3.trans ((W2_of_ne m ρ c main_arg6 (by decide)).trans (W1_a6 m ρ c)))

theorem W1_a7 : W1 m ρ c (Proc.devRef .tc main_arg7) = (m ((c : Thread nD τ).loc main_arg7)) := by
  show StableHlo.after hostOps0 (W0 m ρ c) (Proc.devRef .tc main_arg7) = _
  after_results
  all_goals rfl
theorem W4_a7 : W4 m ρ c (Proc.devRef .tc main_arg7) = (m ((c : Thread nD τ).loc main_arg7)) := by
  have e3 : W3 m ρ c (Proc.devRef .tc main_arg7) = W2 m ρ c (Proc.devRef .tc main_arg7) := by
    show StableHlo.after hostOps1 (W2 m ρ c) (Proc.devRef .tc main_arg7) = _
    after_results
    all_goals rfl
  exact (W4_of_ne m ρ c main_arg7 (by decide)).trans
    (e3.trans ((W2_of_ne m ρ c main_arg7 (by decide)).trans (W1_a7 m ρ c)))

theorem W1_a8 : W1 m ρ c (Proc.devRef .tc main_arg8) = (m ((c : Thread nD τ).loc main_arg8)) := by
  show StableHlo.after hostOps0 (W0 m ρ c) (Proc.devRef .tc main_arg8) = _
  after_results
  all_goals rfl
theorem W4_a8 : W4 m ρ c (Proc.devRef .tc main_arg8) = (m ((c : Thread nD τ).loc main_arg8)) := by
  have e3 : W3 m ρ c (Proc.devRef .tc main_arg8) = W2 m ρ c (Proc.devRef .tc main_arg8) := by
    show StableHlo.after hostOps1 (W2 m ρ c) (Proc.devRef .tc main_arg8) = _
    after_results
    all_goals rfl
  exact (W4_of_ne m ρ c main_arg8 (by decide)).trans
    (e3.trans ((W2_of_ne m ρ c main_arg8 (by decide)).trans (W1_a8 m ρ c)))

theorem W7_v7_0 : W7 m ρ c (Proc.devRef .tc main_v7_0) = W4 m ρ c (Proc.devRef .tc main_v7_0) := by
  show StableHlo.after hostOps2_2 (StableHlo.after hostOps2_1 (StableHlo.after hostOps2 (W4 m ρ c))) (Proc.devRef .tc main_v7_0) = _
  after_results
  all_goals rfl

theorem W7_v26 : W7 m ρ c (Proc.devRef .tc main_v26)
    = crossTerm (W4 m ρ c (Proc.devRef .tc main_v7_1)) (W4 m ρ c (Proc.devRef .tc main_arg5)) (W4 m ρ c (Proc.devRef .tc main_arg6))
        (W4 m ρ c (Proc.devRef .tc main_arg7)) (W4 m ρ c (Proc.devRef .tc main_arg8)) := by
  show StableHlo.after hostOps2_2 (StableHlo.after hostOps2_1 (StableHlo.after hostOps2 (W4 m ρ c))) (Proc.devRef .tc main_v26) = _
  after_results
  all_goals rfl

/-! ## The third launch and the final layout -/

theorem W8_v27 (h0 : Gate0Out) (h1 : Gate1Out) (h1m : Gate1Mean) (h2 : ScaleOut) :
    W8 m ρ c (Proc.devRef .tc main_v27) = weighted (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 2).trans ((h2 (V7 m ρ) c).trans ?_)
  show scaleF (W7 m ρ c (Proc.devRef .tc main_v7_0)) (W7 m ρ c (Proc.devRef .tc main_v26)) = _
  rw [W7_v7_0, W4_v7_0 m ρ c h0 h1, W7_v26, W4_v7_1 m ρ c h0 h1m, W4_a5, W4_a6, W4_a7, W4_a8]
  unfold weighted scaleF
  funext i
  refine congrArg (x3 (m ((c : Thread nD τ).loc main_arg0)) (m ((c : Thread nD τ).loc main_arg1)) (m ((c : Thread nD τ).loc main_arg2)) (m ((c : Thread nD τ).loc main_arg3)) (m ((c : Thread nD τ).loc main_arg4)) i * ·) ?_
  exact crossTerm_apply _ _ _ _ _ (i 0) (i 1) 0

/-- The result buffer at the end of the program: the specification of the nine argument arrays. -/
theorem kernel_value (h0 : Gate0Out) (h1 : Gate1Out) (h1m : Gate1Mean) (h2 : ScaleOut) :
    W9 m ρ c (Proc.devRef .tc main_v30) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e : W9 m ρ c (Proc.devRef .tc main_v30)
      = shapeCast S16x512x64x64
          (transpose S16x32x16x64x64 [0, 2, 1, 3, 4]
            (shapeCast S16x16x32x64x64 (W8 m ρ c (Proc.devRef .tc main_v27)) shapeCasts_S16x16x32x4096_S16x16x32x64x64)
            transposes_S16x16x32x64x64_S16x32x16x64x64_0_2_1_3_4)
          shapeCasts_S16x32x16x64x64_S16x512x64x64 := by
    show StableHlo.after hostOps3 (W8 m ρ c) (Proc.devRef .tc main_v30) = _
    after_results
    all_goals rfl
  rw [e, W8_v27 m ρ c h0 h1 h1m h2]
  unfold out
  funext i
  exact final_apply _ _ _ _ i

end Tail

end Cert.KernelIdeal.Glue

end
-- ==== Proof.RefSum.lean ====
/-
  The reference sums an array of shape [16, 16, 32, 64, 64] over its two spatial axes at once.  Read at an index
  (b, g, c) that sum is the initial value plus the sum, over the 4096 merged positions s = 64·h + w, of the entries
  (b, g, c, s / 64, s % 64): the entries that drop to (b, g, c) are exactly those, and s ↦ (s / 64, s % 64) is a
  bijection of the 4096 positions with the 64 × 64 pairs.
-/
import proofs.«161621_j77464030150917_2_alg».proof.Proof.Gen.ReferenceIdeal.Read
import proofs.«161621_j77464030150917_2_alg».proof.Proof.Spec
import proofs.«161621_j77464030150917_2_alg».proof.Proof.SpecLaws
import Idealize.ShloMosaic.Lib.IdealHost

noncomputable section

open scoped BigOperators

namespace Cert.RefSide

open Cert.ReferenceIdeal Cert.ReferenceIdeal.Gen Cert.ReferenceIdeal.Read Idealize.ShloMosaic Idealize.ShloMosaic.ValueIdx

/-- Dropping the two spatial coordinates of (b, g, c, h, w) leaves (b, g, c). -/
theorem drop_0 (i : S16x16x32x64x64.Idx) :
    (reducesTo_S16x16x32x64x64_S16x16x32_d3_4.drop i 0).val = (i 0).val :=
  Shape.ReducesTo.drop_apply_val_of_eq _ i 0 0
theorem drop_1 (i : S16x16x32x64x64.Idx) :
    (reducesTo_S16x16x32x64x64_S16x16x32_d3_4.drop i 1).val = (i 1).val :=
  Shape.ReducesTo.drop_apply_val_of_eq _ i 1 1
theorem drop_2 (i : S16x16x32x64x64.Idx) :
    (reducesTo_S16x16x32x64x64_S16x16x32_d3_4.drop i 2).val = (i 2).val :=
  Shape.ReducesTo.drop_apply_val_of_eq _ i 2 2

/-- The two-axis sum of the reference at (b, g, c). -/
theorem hostSum2 (y : S16x16x32x64x64.Idx → EReal) (init : S_.Idx → EReal) (b g : Fin 16) (c : Fin 32) :
    Host.reduceAdd (F := Ideal) (φ := .f32) y init reducesTo_S16x16x32x64x64_S16x16x32_d3_4 h_S_ (ix3 b g c)
      = init ix0 + ∑ s : Fin 4096, y (ix5 b g c (Cert.Spec.row s) (Cert.Spec.col s)) := by
  show Ideal.hostReduceAdd _ y (init (Shape.Idx.first h_S_)) (ix3 b g c) = _
  unfold Ideal.hostReduceAdd
  have h0 : init (Shape.Idx.first h_S_) = init ix0 := congrArg init (funext fun a => a.elim0)
  rw [h0]
  refine congrArg (init ix0 + ·) ?_
  symm
  refine Finset.sum_nbij' (fun s => ix5 b g c (Cert.Spec.row s) (Cert.Spec.col s))
    (fun i => ⟨(i 3).val * 64 + (i 4).val, by
      have h3 : (i 3).val < 64 := (i 3).isLt
      have h4 : (i 4).val < 64 := (i 4).isLt
      omega⟩) ?_ ?_ ?_ ?_ ?_
  · intro s _
    rw [Finset.mem_filter]
    refine ⟨Finset.mem_univ _, funext fun a => Fin.ext ?_⟩
    match a with
    | ⟨0, _⟩ => exact drop_0 _
    | ⟨1, _⟩ => exact drop_1 _
    | ⟨2, _⟩ => exact drop_2 _
  · intro i _
    exact Finset.mem_univ _
  · intro s _
    apply Fin.ext
    show (Cert.Spec.row s).val * 64 + (Cert.Spec.col s).val = s.val
    unfold Cert.Spec.row Cert.Spec.col
    show s.val / 64 * 64 + s.val % 64 = s.val
    omega
  · intro i hi
    rw [Finset.mem_filter] at hi
    have hd := hi.2
    have e0 : (i 0).val = b.val := by have := congrArg (fun j => (j 0).val) hd; rw [← drop_0 i]; exact this
    have e1 : (i 1).val = g.val := by have := congrArg (fun j => (j 1).val) hd; rw [← drop_1 i]; exact this
    have e2 : (i 2).val = c.val := by have := congrArg (fun j => (j 2).val) hd; rw [← drop_2 i]; exact this
    have h3 : (i 3).val < 64 := (i 3).isLt
    have h4 : (i 4).val < 64 := (i 4).isLt
    funext a
    apply Fin.ext
    match a with
    | ⟨0, _⟩ => exact e0.symm
    | ⟨1, _⟩ => exact e1.symm
    | ⟨2, _⟩ => exact e2.symm
    | ⟨3, _⟩ =>
      show ((i 3).val * 64 + (i 4).val) / 64 = (i 3).val
      omega
    | ⟨4, _⟩ =>
      show ((i 3).val * 64 + (i 4).val) % 64 = (i 4).val
      omega
  · intro s _
    rfl

end Cert.RefSide

end
-- ==== Proof.RefIdx.lean ====
/-
  Index arithmetic shared by the reference's stages: the merged spatial position s = 64·h + w and its two coordinates,
  and the reshapes between [16, 512, 64, 64], [16, 16, 32, 64, 64] and [16, 32, 16, 64, 64] read at explicit coordinates.
  A reshape keeps the row-major position, so (b, g, c, h, w) of the five-axis array is (b, 32·g + c, h, w) of the
  four-axis one, and (b, n, h, w) is (b, n / 16, n % 16, h, w) of the [16, 32, 16, 64, 64] array.
-/
import proofs.«161621_j77464030150917_2_alg».proof.Proof.Gen.ReferenceIdeal.Read
import proofs.«161621_j77464030150917_2_alg».proof.Proof.Spec
import proofs.«161621_j77464030150917_2_alg».proof.Proof.SpecLaws
import Idealize.ShloMosaic.Lib.IdealHost

noncomputable section

open scoped BigOperators

namespace Cert.RefSide

open Cert.ReferenceIdeal Cert.ReferenceIdeal.Gen Cert.ReferenceIdeal.Read Idealize.ShloMosaic Idealize.ShloMosaic.ValueIdx

open Cert.Spec

theorem row_spat (h w : Fin 64) : row (spat h w) = h := Fin.ext (by
  show (h.val * 64 + w.val) / 64 = h.val
  have := h.isLt; have := w.isLt; omega)

theorem col_spat (h w : Fin 64) : col (spat h w) = w := Fin.ext (by
  show (h.val * 64 + w.val) % 64 = w.val
  have := h.isLt; have := w.isLt; omega)

theorem spat_row_col (s : Fin 4096) : spat (row s) (col s) = s := Fin.ext (by
  show s.val / 64 * 64 + s.val % 64 = s.val
  omega)

/-- A five-axis array that agrees with a grouped array `A` has, summed over the merged positions, `A`'s channel sums. -/
theorem sum_rowcol (A : SG.Idx → EReal) (Y : S16x16x32x64x64.Idx → EReal)
    (H : ∀ (b g : Fin 16) (c : Fin 32) (h w : Fin 64), Y (ix5 b g c h w) = A (ix4 b g c (spat h w)))
    (b g : Fin 16) (c : Fin 32) :
    ∑ s : Fin 4096, Y (ix5 b g c (row s) (col s)) = chanSum A b g c := by
  unfold chanSum
  refine Finset.sum_congr rfl fun s _ => ?_
  rw [H, spat_row_col]

/-- [16, 16, 32, 64, 64] → [16, 512, 64, 64]: position (b, g, c, h, w) is position (b, 32·g + c, h, w). -/
theorem to4 (b g : Fin 16) (c : Fin 32) (h w : Fin 64) :
    idx_main_v0 (ix5 b g c h w) = ix4 b (chan g c) h w := by
  have := b.isLt; have := g.isLt; have := c.isLt; have := h.isLt; have := w.isLt
  funext a
  apply Fin.ext
  match a with
  | ⟨0, _⟩ =>
    show (((((b.val * 16 + g.val) * 32 + c.val) * 64 + h.val) * 64 + w.val)) / 2097152 = b.val
    omega
  | ⟨1, _⟩ =>
    show (((((b.val * 16 + g.val) * 32 + c.val) * 64 + h.val) * 64 + w.val)) / 4096 % 512 = g.val * 32 + c.val
    omega
  | ⟨2, _⟩ =>
    show (((((b.val * 16 + g.val) * 32 + c.val) * 64 + h.val) * 64 + w.val)) / 64 % 64 = h.val
    omega
  | ⟨3, _⟩ =>
    show (((((b.val * 16 + g.val) * 32 + c.val) * 64 + h.val) * 64 + w.val)) % 64 = w.val
    omega

/-- [16, 512, 64, 64] → [16, 16, 32, 64, 64]: position (b, 32·g + c, h, w) is position (b, g, c, h, w). -/
theorem to5 (b g : Fin 16) (c : Fin 32) (h w : Fin 64) :
    idx_main_v22 (ix4 b (chan g c) h w) = ix5 b g c h w := by
  have := b.isLt; have := g.isLt; have := c.isLt; have := h.isLt; have := w.isLt
  funext a
  apply Fin.ext
  match a with
  | ⟨0, _⟩ =>
    show ((((b.val * 512 + (g.val * 32 + c.val)) * 64 + h.val) * 64 + w.val)) / 2097152 = b.val
    omega
  | ⟨1, _⟩ =>
    show ((((b.val * 512 + (g.val * 32 + c.val)) * 64 + h.val) * 64 + w.val)) / 131072 % 16 = g.val
    omega
  | ⟨2, _⟩ =>
    show ((((b.val * 512 + (g.val * 32 + c.val)) * 64 + h.val) * 64 + w.val)) / 4096 % 32 = c.val
    omega
  | ⟨3, _⟩ =>
    show ((((b.val * 512 + (g.val * 32 + c.val)) * 64 + h.val) * 64 + w.val)) / 64 % 64 = h.val
    omega
  | ⟨4, _⟩ =>
    show ((((b.val * 512 + (g.val * 32 + c.val)) * 64 + h.val) * 64 + w.val)) % 64 = w.val
    omega

/-- [16, 512, 64, 64] → [16, 32, 16, 64, 64]: position (b, n, h, w) is position (b, n / 16, n % 16, h, w). -/
theorem toT (b : Fin 16) (n : Fin 512) (h w : Fin 64) :
    idx_main_v25 (ix4 b n h w) = ix5 b (chOf n) (grpOf n) h w := by
  have := b.isLt; have := n.isLt; have := h.isLt; have := w.isLt
  funext a
  apply Fin.ext
  match a with
  | ⟨0, _⟩ =>
    show ((((b.val * 512 + n.val) * 64 + h.val) * 64 + w.val)) / 2097152 = b.val
    omega
  | ⟨1, _⟩ =>
    show ((((b.val * 512 + n.val) * 64 + h.val) * 64 + w.val)) / 65536 % 32 = n.val / 16
    omega
  | ⟨2, _⟩ =>
    show ((((b.val * 512 + n.val) * 64 + h.val) * 64 + w.val)) / 4096 % 16 = n.val % 16
    omega
  | ⟨3, _⟩ =>
    show ((((b.val * 512 + n.val) * 64 + h.val) * 64 + w.val)) / 64 % 64 = h.val
    omega
  | ⟨4, _⟩ =>
    show ((((b.val * 512 + n.val) * 64 + h.val) * 64 + w.val)) % 64 = w.val
    omega

/-- The transpose (0, 2, 1, 3, 4) exchanges the second and third coordinates. -/
theorem toX (b : Fin 16) (c : Fin 32) (g : Fin 16) (h w : Fin 64) :
    idx_main_v24 (ix5 b c g h w) = ix5 b g c h w := by
  funext a
  match a with
  | ⟨0, _⟩ => rfl
  | ⟨1, _⟩ => rfl
  | ⟨2, _⟩ => rfl
  | ⟨3, _⟩ => rfl
  | ⟨4, _⟩ => rfl

/-- The reshapes of the same kind further down the program are the same index functions. -/
theorem idx23_eq : idx_main_v23 = idx_main_v0 := rfl
theorem idx26_eq : idx_main_v26 = idx_main_v0 := rfl
theorem idx49_eq : idx_main_v49 = idx_main_v0 := rfl
theorem idx48_eq : idx_main_v48 = idx_main_v22 := rfl
theorem idx77_eq : idx_main_v77 = idx_main_v25 := rfl
theorem idx76_eq : idx_main_v76 = idx_main_v24 := rfl

end Cert.RefSide

end
-- ==== Proof.RefPass1.lean ====
/-
  The reference's first gating pass (the operations from the two-axis sum to the product), read at explicit
  coordinates: the pooled value of a channel is its sum over the 4096 positions times 2⁻¹², the hidden units are the
  clamped affine images of the 32 pooled values, the gate is the logistic function of the affine image of the hidden
  units, and the result is the input times the gate of its channel.
-/
import proofs.«161621_j77464030150917_2_alg».proof.Proof.Gen.ReferenceIdeal.Read
import proofs.«161621_j77464030150917_2_alg».proof.Proof.Spec
import proofs.«161621_j77464030150917_2_alg».proof.Proof.SpecLaws
import Idealize.ShloMosaic.Lib.IdealHost
import proofs.«161621_j77464030150917_2_alg».proof.Proof.RefSum
import proofs.«161621_j77464030150917_2_alg».proof.Proof.RefIdx

noncomputable section

open scoped BigOperators

namespace Cert.RefSide

open Cert.ReferenceIdeal Cert.ReferenceIdeal.Gen Cert.ReferenceIdeal.Read Idealize.ShloMosaic Idealize.ShloMosaic.ValueIdx

open Cert.Spec

variable (x0 : (⟨S16x512x64x64, .f32⟩ : BufTy).Contents (Elt Ideal)) (x1 : (⟨S8x32, .f32⟩ : BufTy).Contents (Elt Ideal))
  (x2 : (⟨S8, .f32⟩ : BufTy).Contents (Elt Ideal)) (x3 : (⟨S32x8, .f32⟩ : BufTy).Contents (Elt Ideal))
  (x4 : (⟨S32, .f32⟩ : BufTy).Contents (Elt Ideal))

/-! ## Where each stage reads its operands -/

theorem p1_lidxA (b g : Fin 16) (o : Fin 8) (k : Fin 32) : lidx_main_v4 (ix3 b g o) k = ix3 b g k := by
  funext a; match a with | ⟨0, _⟩ => rfl | ⟨1, _⟩ => rfl | ⟨2, _⟩ => rfl
theorem p1_ridxA (b g : Fin 16) (o : Fin 8) (k : Fin 32) : ridx_main_v4 (ix3 b g o) k = ix2 o k := by
  funext a; match a with | ⟨0, _⟩ => rfl | ⟨1, _⟩ => rfl
theorem p1_bidxA (b g : Fin 16) (o : Fin 8) : idx_main_v5 (idx_main_v6 (ix3 b g o)) = ix1 o := by
  funext a; match a with | ⟨0, _⟩ => rfl
theorem p1_lidxB (b g : Fin 16) (c : Fin 32) (k : Fin 8) : lidx_main_v9 (ix3 b g c) k = ix3 b g k := by
  funext a; match a with | ⟨0, _⟩ => rfl | ⟨1, _⟩ => rfl | ⟨2, _⟩ => rfl
theorem p1_ridxB (b g : Fin 16) (c : Fin 32) (k : Fin 8) : ridx_main_v9 (ix3 b g c) k = ix2 c k := by
  funext a; match a with | ⟨0, _⟩ => rfl | ⟨1, _⟩ => rfl
theorem p1_bidxB (b g : Fin 16) (c : Fin 32) : idx_main_v10 (idx_main_v11 (ix3 b g c)) = ix1 c := by
  funext a; match a with | ⟨0, _⟩ => rfl
theorem p1_gidx (b g : Fin 16) (c : Fin 32) (h w : Fin 64) :
    idx_main_v19 (idx_main_v20 (ix5 b g c h w)) = ix3 b g c := by
  funext a; match a with | ⟨0, _⟩ => rfl | ⟨1, _⟩ => rfl | ⟨2, _⟩ => rfl

/-! ## The gate, stage by stage -/

/-- The channel sums of this pass's input: over the 4096 positions of channel c' of group g of batch b. -/
def sig1 (b g : Fin 16) : Fin 32 → EReal :=
  fun c' => ∑ s : Fin 4096, val_main_v0 (F := Ideal) x0 (ix5 b g c' (row s) (col s))

/-- The pooled value: the channel sum divided by 4096.0. -/
theorem p1_pooled (b g : Fin 16) (c : Fin 32) :
    val_main_v3 (F := Ideal) x0 (ix3 b g c) = sig1 x0 b g c * k12 := by
  rw [val_main_v3_apply, val_main_v2_apply, val_main_cst_0_apply]
  unfold val_main_v1
  rw [hostSum2, val_main_cst_apply]
  simp only [Ideal.hostDivf_def, Ideal.ofBits_def, Ideal.ofBits_zero_f32, zero_add]
  exact div_4096 _

/-- The hidden unit o: the clamped affine image of the 32 pooled values. -/
theorem p1_hidden (b g : Fin 16) (o : Fin 8) :
    val_main_v8 (F := Ideal) x0 x1 x2 (ix3 b g o)
      = max ((∑ c' : Fin 32, (sig1 x0 b g c' * k12) * x1 (ix2 o c')) + x2 (ix1 o)) 0 := by
  rw [val_main_v8_apply, val_main_v7_apply, val_main_v4_apply, val_main_v6_apply, val_main_v5_apply,
    val_main_call0_v0_apply, val_main_call0_cst_apply]
  simp only [p1_lidxA, p1_ridxA, p1_bidxA, p1_pooled, Ideal.maximumf_def, Ideal.addf_def, Ideal.ofBits_def,
    Ideal.ofBits_zero_f32]

/-- The gate's argument: the affine image of the 8 hidden units. -/
theorem p1_logit (b g : Fin 16) (c : Fin 32) :
    val_main_v12 (F := Ideal) x0 x1 x2 x3 x4 (ix3 b g c)
      = (∑ o : Fin 8, max ((∑ c' : Fin 32, (sig1 x0 b g c' * k12) * x1 (ix2 o c')) + x2 (ix1 o)) 0 * x3 (ix2 c o))
          + x4 (ix1 c) := by
  rw [val_main_v12_apply, val_main_v9_apply, val_main_v11_apply, val_main_v10_apply]
  simp only [p1_lidxB, p1_ridxB, p1_bidxB, p1_hidden, Ideal.addf_def]

/-- The gate of channel c: 1 / (1 + exp(-·)) of that argument is the logistic function of it. -/
theorem p1_gate (b g : Fin 16) (c : Fin 32) :
    val_main_v18 (F := Ideal) x0 x1 x2 x3 x4 (ix3 b g c) = gate (W1 x1) (B1 x2) (W2 x3) (B2 x4) (sig1 x0 b g) c := by
  rw [val_main_v18_apply, val_main_v17_apply, val_main_cst_2_apply, val_main_v16_apply, val_main_v15_apply,
    val_main_cst_1_apply, val_main_v14_apply, val_main_v13_apply, p1_logit]
  simp only [Ideal.hostDivf_def, Ideal.addf_def, Ideal.hostUnary_exp_def, Ideal.hostNegf_def, Ideal.negf_def, Ideal.ofBits_def]
  rw [logistic_host]
  rfl

/-- The pass's result: every entry times the gate of its channel. -/
theorem p1_out (b g : Fin 16) (c : Fin 32) (h w : Fin 64) :
    val_main_v21 (F := Ideal) x0 x1 x2 x3 x4 (ix5 b g c h w)
      = val_main_v0 (F := Ideal) x0 (ix5 b g c h w) * gate (W1 x1) (B1 x2) (W2 x3) (B2 x4) (sig1 x0 b g) c := by
  rw [val_main_v21_apply, val_main_v20_apply, val_main_v19_apply, p1_gidx, p1_gate]
  rfl

/-- So, whenever the pass's input is a grouped array `A` read at (b, g, c, 64·h + w), its result is `passF A` there. -/
theorem p1_passF (A : SG.Idx → EReal)
    (H : ∀ (b g : Fin 16) (c : Fin 32) (h w : Fin 64), val_main_v0 (F := Ideal) x0 (ix5 b g c h w) = A (ix4 b g c (spat h w)))
    (b g : Fin 16) (c : Fin 32) (h w : Fin 64) :
    val_main_v21 (F := Ideal) x0 x1 x2 x3 x4 (ix5 b g c h w) = passF (W1 x1) (B1 x2) (W2 x3) (B2 x4) A (ix4 b g c (spat h w)) := by
  have hs : sig1 x0 b g = chanSum A b g := funext fun c' => sum_rowcol A _ H b g c'
  rw [p1_out, H, hs]
  rfl

/-- The regrouped activation is the specification's grouped array. -/
theorem v0_at (b g : Fin 16) (c : Fin 32) (h w : Fin 64) :
    val_main_v0 (F := Ideal) x0 (ix5 b g c h w) = grouped x0 (ix4 b g c (spat h w)) := by
  rw [val_main_v0_apply, to4]
  show x0 (ix4 b (chan g c) h w) = x0 (ix4 b (chan g c) (row (spat h w)) (col (spat h w)))
  rw [row_spat, col_spat]

/-- The first pass of the reference is the specification's first pass. -/
theorem ref_x1 (b g : Fin 16) (c : Fin 32) (h w : Fin 64) :
    val_main_v21 (F := Ideal) x0 x1 x2 x3 x4 (ix5 b g c h w) = Cert.Spec.x1 x0 x1 x2 x3 x4 (ix4 b g c (spat h w)) :=
  p1_passF x0 x1 x2 x3 x4 (grouped x0) (v0_at x0) b g c h w

end Cert.RefSide

end
-- ==== Proof.RefPass2.lean ====
/-
  The channel shuffle between the passes and the reference's second gating pass, read at explicit coordinates.
  The shuffle is two reshapes around the transpose (0, 2, 1, 3, 4): the entry (b, g, c, h, w) of its result is the
  entry (b, n % 16, n / 16, h, w) of the first pass's result, n = 32·g + c.  The second pass is the first pass's chain
  of operations on the shuffled array.
-/
import proofs.«161621_j77464030150917_2_alg».proof.Proof.Gen.ReferenceIdeal.Read
import proofs.«161621_j77464030150917_2_alg».proof.Proof.Spec
import proofs.«161621_j77464030150917_2_alg».proof.Proof.SpecLaws
import Idealize.ShloMosaic.Lib.IdealHost
import proofs.«161621_j77464030150917_2_alg».proof.Proof.RefPass1

noncomputable section

open scoped BigOperators

namespace Cert.RefSide

open Cert.ReferenceIdeal Cert.ReferenceIdeal.Gen Cert.ReferenceIdeal.Read Idealize.ShloMosaic Idealize.ShloMosaic.ValueIdx

open Cert.Spec

section Shuffle

variable (x0 : (⟨S16x512x64x64, .f32⟩ : BufTy).Contents (Elt Ideal)) (x1 : (⟨S8x32, .f32⟩ : BufTy).Contents (Elt Ideal))
  (x2 : (⟨S8, .f32⟩ : BufTy).Contents (Elt Ideal)) (x3 : (⟨S32x8, .f32⟩ : BufTy).Contents (Elt Ideal))
  (x4 : (⟨S32, .f32⟩ : BufTy).Contents (Elt Ideal))

/-- The shuffled array of the reference is the specification's. -/
theorem ref_x2 (b g : Fin 16) (c : Fin 32) (h w : Fin 64) :
    val_main_v26 (F := Ideal) x0 x1 x2 x3 x4 (ix5 b g c h w) = Cert.Spec.x2 x0 x1 x2 x3 x4 (ix4 b g c (spat h w)) := by
  rw [val_main_v26_apply, idx26_eq, to4, val_main_v25_apply, toT, val_main_v24_apply, toX, val_main_v23_apply, idx23_eq, to4,
    val_main_v22_apply, to5, ref_x1]
  rfl

end Shuffle

variable (x0 : (⟨S16x512x64x64, .f32⟩ : BufTy).Contents (Elt Ideal)) (x1 : (⟨S8x32, .f32⟩ : BufTy).Contents (Elt Ideal))
  (x2 : (⟨S8, .f32⟩ : BufTy).Contents (Elt Ideal)) (x3 : (⟨S32x8, .f32⟩ : BufTy).Contents (Elt Ideal))
  (x4 : (⟨S32, .f32⟩ : BufTy).Contents (Elt Ideal))

/-! ## Where each stage reads its operands -/

theorem p2_lidxA (b g : Fin 16) (o : Fin 8) (k : Fin 32) : lidx_main_v30 (ix3 b g o) k = ix3 b g k := by
  funext a; match a with | ⟨0, _⟩ => rfl | ⟨1, _⟩ => rfl | ⟨2, _⟩ => rfl
theorem p2_ridxA (b g : Fin 16) (o : Fin 8) (k : Fin 32) : ridx_main_v30 (ix3 b g o) k = ix2 o k := by
  funext a; match a with | ⟨0, _⟩ => rfl | ⟨1, _⟩ => rfl
theorem p2_bidxA (b g : Fin 16) (o : Fin 8) : idx_main_v31 (idx_main_v32 (ix3 b g o)) = ix1 o := by
  funext a; match a with | ⟨0, _⟩ => rfl
theorem p2_lidxB (b g : Fin 16) (c : Fin 32) (k : Fin 8) : lidx_main_v35 (ix3 b g c) k = ix3 b g k := by
  funext a; match a with | ⟨0, _⟩ => rfl | ⟨1, _⟩ => rfl | ⟨2, _⟩ => rfl
theorem p2_ridxB (b g : Fin 16) (c : Fin 32) (k : Fin 8) : ridx_main_v35 (ix3 b g c) k = ix2 c k := by
  funext a; match a with | ⟨0, _⟩ => rfl | ⟨1, _⟩ => rfl
theorem p2_bidxB (b g : Fin 16) (c : Fin 32) : idx_main_v36 (idx_main_v37 (ix3 b g c)) = ix1 c := by
  funext a; match a with | ⟨0, _⟩ => rfl
theorem p2_gidx (b g : Fin 16) (c : Fin 32) (h w : Fin 64) :
    idx_main_v45 (idx_main_v46 (ix5 b g c h w)) = ix3 b g c := by
  funext a; match a with | ⟨0, _⟩ => rfl | ⟨1, _⟩ => rfl | ⟨2, _⟩ => rfl

/-! ## The gate, stage by stage -/

/-- The channel sums of this pass's input: over the 4096 positions of channel c' of group g of batch b. -/
def sig2 (b g : Fin 16) : Fin 32 → EReal :=
  fun c' => ∑ s : Fin 4096, val_main_v26 (F := Ideal) x0 x1 x2 x3 x4 (ix5 b g c' (row s) (col s))

/-- The pooled value: the channel sum divided by 4096.0. -/
theorem p2_pooled (b g : Fin 16) (c : Fin 32) :
    val_main_v29 (F := Ideal) x0 x1 x2 x3 x4 (ix3 b g c) = sig2 x0 x1 x2 x3 x4 b g c * k12 := by
  rw [val_main_v29_apply, val_main_v28_apply, val_main_cst_4_apply]
  unfold val_main_v27
  rw [hostSum2, val_main_cst_3_apply]
  simp only [Ideal.hostDivf_def, Ideal.ofBits_def, Ideal.ofBits_zero_f32, zero_add]
  exact div_4096 _

/-- The hidden unit o: the clamped affine image of the 32 pooled values. -/
theorem p2_hidden (b g : Fin 16) (o : Fin 8) :
    val_main_v34 (F := Ideal) x0 x1 x2 x3 x4 (ix3 b g o)
      = max ((∑ c' : Fin 32, (sig2 x0 x1 x2 x3 x4 b g c' * k12) * x1 (ix2 o c')) + x2 (ix1 o)) 0 := by
  rw [val_main_v34_apply, val_main_v33_apply, val_main_v30_apply, val_main_v32_apply, val_main_v31_apply,
    val_main_call1_v0_apply, val_main_call1_cst_apply]
  simp only [p2_lidxA, p2_ridxA, p2_bidxA, p2_pooled, Ideal.maximumf_def, Ideal.addf_def, Ideal.ofBits_def,
    Ideal.ofBits_zero_f32]

/-- The gate's argument: the affine image of the 8 hidden units. -/
theorem p2_logit (b g : Fin 16) (c : Fin 32) :
    val_main_v38 (F := Ideal) x0 x1 x2 x3 x4 (ix3 b g c)
      = (∑ o : Fin 8, max ((∑ c' : Fin 32, (sig2 x0 x1 x2 x3 x4 b g c' * k12) * x1 (ix2 o c')) + x2 (ix1 o)) 0 * x3 (ix2 c o))
          + x4 (ix1 c) := by
  rw [val_main_v38_apply, val_main_v35_apply, val_main_v37_apply, val_main_v36_apply]
  simp only [p2_lidxB, p2_ridxB, p2_bidxB, p2_hidden, Ideal.addf_def]

/-- The gate of channel c: 1 / (1 + exp(-·)) of that argument is the logistic function of it. -/
theorem p2_gate (b g : Fin 16) (c : Fin 32) :
    val_main_v44 (F := Ideal) x0 x1 x2 x3 x4 (ix3 b g c) = gate (W1 x1) (B1 x2) (W2 x3) (B2 x4) (sig2 x0 x1 x2 x3 x4 b g) c := by
  rw [val_main_v44_apply, val_main_v43_apply, val_main_cst_6_apply, val_main_v42_apply, val_main_v41_apply,
    val_main_cst_5_apply, val_main_v40_apply, val_main_v39_apply, p2_logit]
  simp only [Ideal.hostDivf_def, Ideal.addf_def, Ideal.hostUnary_exp_def, Ideal.hostNegf_def, Ideal.negf_def, Ideal.ofBits_def]
  rw [logistic_host]
  rfl

/-- The pass's result: every entry times the gate of its channel. -/
theorem p2_out (b g : Fin 16) (c : Fin 32) (h w : Fin 64) :
    val_main_v47 (F := Ideal) x0 x1 x2 x3 x4 (ix5 b g c h w)
      = val_main_v26 (F := Ideal) x0 x1 x2 x3 x4 (ix5 b g c h w) * gate (W1 x1) (B1 x2) (W2 x3) (B2 x4) (sig2 x0 x1 x2 x3 x4 b g) c := by
  rw [val_main_v47_apply, val_main_v46_apply, val_main_v45_apply, p2_gidx, p2_gate]
  rfl

/-- So, whenever the pass's input is a grouped array `A` read at (b, g, c, 64·h + w), its result is `passF A` there. -/
theorem p2_passF (A : SG.Idx → EReal)
    (H : ∀ (b g : Fin 16) (c : Fin 32) (h w : Fin 64), val_main_v26 (F := Ideal) x0 x1 x2 x3 x4 (ix5 b g c h w) = A (ix4 b g c (spat h w)))
    (b g : Fin 16) (c : Fin 32) (h w : Fin 64) :
    val_main_v47 (F := Ideal) x0 x1 x2 x3 x4 (ix5 b g c h w) = passF (W1 x1) (B1 x2) (W2 x3) (B2 x4) A (ix4 b g c (spat h w)) := by
  have hs : sig2 x0 x1 x2 x3 x4 b g = chanSum A b g := funext fun c' => sum_rowcol A _ H b g c'
  rw [p2_out, H, hs]
  rfl

/-- The second pass of the reference is the specification's second pass. -/
theorem ref_v47 (b g : Fin 16) (c : Fin 32) (h w : Fin 64) :
    val_main_v47 (F := Ideal) x0 x1 x2 x3 x4 (ix5 b g c h w) = Cert.Spec.x3 x0 x1 x2 x3 x4 (ix4 b g c (spat h w)) :=
  p2_passF x0 x1 x2 x3 x4 (Cert.Spec.x2 x0 x1 x2 x3 x4) (ref_x2 x0 x1 x2 x3 x4) b g c h w

/-- … and the two reshapes after it (to [16, 512, 64, 64] and back) change nothing. -/
theorem ref_x3 (b g : Fin 16) (c : Fin 32) (h w : Fin 64) :
    val_main_v49 (F := Ideal) x0 x1 x2 x3 x4 (ix5 b g c h w) = Cert.Spec.x3 x0 x1 x2 x3 x4 (ix4 b g c (spat h w)) := by
  rw [val_main_v49_apply, idx49_eq, to4, val_main_v48_apply, idx48_eq, to5, ref_v47]

end Cert.RefSide

end
-- ==== Proof.RefCross.lean ====
/-
  The group means and the cross-group weights of the reference, read at explicit coordinates.
  The mean of group g of batch b is the mean over its 32 channels of the channel means over the 4096 positions: the sum
  of the group's entries times 2⁻¹⁷.  The weight of a group is the logistic function of the affine image of the clamped
  affine images of the 16 group means of its batch element.
-/
import proofs.«161621_j77464030150917_2_alg».proof.Proof.Gen.ReferenceIdeal.Read
import proofs.«161621_j77464030150917_2_alg».proof.Proof.Spec
import proofs.«161621_j77464030150917_2_alg».proof.Proof.SpecLaws
import Idealize.ShloMosaic.Lib.IdealHost
import proofs.«161621_j77464030150917_2_alg».proof.Proof.RefPass2

noncomputable section

open scoped BigOperators

namespace Cert.RefSide

open Cert.ReferenceIdeal Cert.ReferenceIdeal.Gen Cert.ReferenceIdeal.Read Idealize.ShloMosaic Idealize.ShloMosaic.ValueIdx

open Cert.Spec

section Means

variable (x0 : (⟨S16x512x64x64, .f32⟩ : BufTy).Contents (Elt Ideal)) (x1 : (⟨S8x32, .f32⟩ : BufTy).Contents (Elt Ideal))
  (x2 : (⟨S8, .f32⟩ : BufTy).Contents (Elt Ideal)) (x3 : (⟨S32x8, .f32⟩ : BufTy).Contents (Elt Ideal))
  (x4 : (⟨S32, .f32⟩ : BufTy).Contents (Elt Ideal))

theorem m_idx53 (b g : Fin 16) (k : Fin 32) : idx_main_v53 (ix2 b g) k = ix3 b g k := by
  funext a; match a with | ⟨0, _⟩ => rfl | ⟨1, _⟩ => rfl | ⟨2, _⟩ => rfl

/-- The channel mean: the channel sum of the second pass's result, divided by 4096.0. -/
theorem m_chanMean (b g : Fin 16) (c : Fin 32) :
    val_main_v52 (F := Ideal) x0 x1 x2 x3 x4 (ix3 b g c)
      = Ideal.div (0 + chanSum (Cert.Spec.x3 x0 x1 x2 x3 x4) b g c) (Ideal.ofBits .f32 0x45800000#32) := by
  rw [val_main_v52_apply, val_main_v51_apply, val_main_cst_8_apply]
  unfold val_main_v50
  rw [hostSum2, val_main_cst_7_apply, sum_rowcol (Cert.Spec.x3 x0 x1 x2 x3 x4) _ (ref_x3 x0 x1 x2 x3 x4)]
  simp only [Ideal.hostDivf_def, Ideal.ofBits_def, Ideal.ofBits_zero_f32]

/-- The group mean of the reference is the specification's. -/
theorem ref_glob (b g : Fin 16) :
    val_main_v55 (F := Ideal) x0 x1 x2 x3 x4 (ix2 b g) = Cert.Spec.glob x0 x1 x2 x3 x4 (ix3 b g 0) := by
  rw [val_main_v55_apply, val_main_v54_apply, val_main_cst_10_apply, val_main_v53_apply, val_main_cst_9_apply]
  simp only [m_idx53, m_chanMean, Ideal.hostDivf_def, Ideal.ofBits_def, Ideal.ofBits_zero_f32]
  refine (mean_mean _).trans ?_
  rfl

end Means

section Weights

variable (x0 : (⟨S16x512x64x64, .f32⟩ : BufTy).Contents (Elt Ideal)) (x1 : (⟨S8x32, .f32⟩ : BufTy).Contents (Elt Ideal))
  (x2 : (⟨S8, .f32⟩ : BufTy).Contents (Elt Ideal)) (x3 : (⟨S32x8, .f32⟩ : BufTy).Contents (Elt Ideal))
  (x4 : (⟨S32, .f32⟩ : BufTy).Contents (Elt Ideal))
  (x5 : (⟨S8x16, .f32⟩ : BufTy).Contents (Elt Ideal)) (x6 : (⟨S8, .f32⟩ : BufTy).Contents (Elt Ideal))
  (x7 : (⟨S16x8, .f32⟩ : BufTy).Contents (Elt Ideal)) (x8 : (⟨S16, .f32⟩ : BufTy).Contents (Elt Ideal))

theorem w_lidx57 (b : Fin 16) (q : Fin 8) (k : Fin 16) : lidx_main_v57 (ix2 b q) k = ix2 b k := by
  funext a; match a with | ⟨0, _⟩ => rfl | ⟨1, _⟩ => rfl
theorem w_ridx57 (b : Fin 16) (q : Fin 8) (k : Fin 16) : idx_main_v56 (ridx_main_v57 (ix2 b q) k) = ix2 q k := by
  funext a; match a with | ⟨0, _⟩ => rfl | ⟨1, _⟩ => rfl
theorem w_bidx59 (b : Fin 16) (q : Fin 8) : idx_main_v58 (idx_main_v59 (ix2 b q)) = ix1 q := by
  funext a; match a with | ⟨0, _⟩ => rfl
theorem w_lidx63 (b g : Fin 16) (k : Fin 8) : lidx_main_v63 (ix2 b g) k = ix2 b k := by
  funext a; match a with | ⟨0, _⟩ => rfl | ⟨1, _⟩ => rfl
theorem w_ridx63 (b g : Fin 16) (k : Fin 8) : idx_main_v62 (ridx_main_v63 (ix2 b g) k) = ix2 g k := by
  funext a; match a with | ⟨0, _⟩ => rfl | ⟨1, _⟩ => rfl
theorem w_bidx65 (b g : Fin 16) : idx_main_v64 (idx_main_v65 (ix2 b g)) = ix1 g := by
  funext a; match a with | ⟨0, _⟩ => rfl

/-- The hidden unit q of batch element b: the clamped affine image of its 16 group means. -/
theorem w_hidden (b : Fin 16) (q : Fin 8) :
    val_main_v61 (F := Ideal) x0 x1 x2 x3 x4 x5 x6 (ix2 b q)
      = max ((∑ g' : Fin 16, Cert.Spec.glob x0 x1 x2 x3 x4 (ix3 b g' 0) * x5 (ix2 q g')) + x6 (ix1 q)) 0 := by
  rw [val_main_v61_apply, val_main_v60_apply, val_main_v57_apply, val_main_v59_apply, val_main_v58_apply,
    val_main_call2_v0_apply, val_main_call2_cst_apply]
  simp only [val_main_v56_apply, w_lidx57, w_ridx57, w_bidx59, ref_glob, Ideal.maximumf_def, Ideal.addf_def, Ideal.ofBits_def,
    Ideal.ofBits_zero_f32]

/-- The weight's argument: the affine image of the 8 hidden units. -/
theorem w_logit (b g : Fin 16) :
    val_main_v66 (F := Ideal) x0 x1 x2 x3 x4 x5 x6 x7 x8 (ix2 b g)
      = (∑ q : Fin 8, max ((∑ g' : Fin 16, Cert.Spec.glob x0 x1 x2 x3 x4 (ix3 b g' 0) * x5 (ix2 q g')) + x6 (ix1 q)) 0
            * x7 (ix2 g q)) + x8 (ix1 g) := by
  rw [val_main_v66_apply, val_main_v63_apply, val_main_v65_apply, val_main_v64_apply]
  simp only [val_main_v62_apply, w_lidx63, w_ridx63, w_bidx65, w_hidden, Ideal.addf_def]

/-- The cross-group weight of the reference is the specification's. -/
theorem ref_omega (b g : Fin 16) :
    val_main_v72 (F := Ideal) x0 x1 x2 x3 x4 x5 x6 x7 x8 (ix2 b g)
      = Cert.Spec.omega x0 x1 x2 x3 x4 x5 x6 x7 x8 (ix3 b g 0) := by
  rw [val_main_v72_apply, val_main_v71_apply, val_main_cst_12_apply, val_main_v70_apply, val_main_v69_apply,
    val_main_cst_11_apply, val_main_v68_apply, val_main_v67_apply, w_logit]
  simp only [Ideal.hostDivf_def, Ideal.addf_def, Ideal.hostUnary_exp_def, Ideal.hostNegf_def, Ideal.negf_def, Ideal.ofBits_def]
  rw [logistic_host]
  rfl

end Weights

end Cert.RefSide

end
-- ==== Proof.Ref.lean ====
/-
  The reference's result.  Its last three operations scale every entry of group g of batch b by that group's weight,
  exchange the group and channel axes and merge them: the entry (b, n, h, w) of the result, n = 16·c₁ + g₁, is the
  entry (b, g₁, c₁, h, w) of the second pass's result times the weight of (b, g₁).  With the stages read in the other
  modules this is the specification's function, index by index.
-/
import proofs.«161621_j77464030150917_2_alg».proof.Proof.Gen.ReferenceIdeal.Read
import proofs.«161621_j77464030150917_2_alg».proof.Proof.Spec
import proofs.«161621_j77464030150917_2_alg».proof.Proof.SpecLaws
import Idealize.ShloMosaic.Lib.IdealHost
import proofs.«161621_j77464030150917_2_alg».proof.Proof.RefCross

noncomputable section

open scoped BigOperators

namespace Cert.RefSide

open Cert.ReferenceIdeal Cert.ReferenceIdeal.Gen Cert.ReferenceIdeal.Read Idealize.ShloMosaic Idealize.ShloMosaic.ValueIdx

open Cert.Spec

variable (x0 : (⟨S16x512x64x64, .f32⟩ : BufTy).Contents (Elt Ideal)) (x1 : (⟨S8x32, .f32⟩ : BufTy).Contents (Elt Ideal))
  (x2 : (⟨S8, .f32⟩ : BufTy).Contents (Elt Ideal)) (x3 : (⟨S32x8, .f32⟩ : BufTy).Contents (Elt Ideal))
  (x4 : (⟨S32, .f32⟩ : BufTy).Contents (Elt Ideal))
  (x5 : (⟨S8x16, .f32⟩ : BufTy).Contents (Elt Ideal)) (x6 : (⟨S8, .f32⟩ : BufTy).Contents (Elt Ideal))
  (x7 : (⟨S16x8, .f32⟩ : BufTy).Contents (Elt Ideal)) (x8 : (⟨S16, .f32⟩ : BufTy).Contents (Elt Ideal))

theorem o_idx (b g : Fin 16) (c : Fin 32) (h w : Fin 64) : idx_main_v73 (idx_main_v74 (ix5 b g c h w)) = ix2 b g := by
  funext a; match a with | ⟨0, _⟩ => rfl | ⟨1, _⟩ => rfl

/-- The reference's result at (b, n, h, w). -/
theorem ref_out (b : Fin 16) (n : Fin 512) (h w : Fin 64) :
    val_main_v77 (F := Ideal) x0 x1 x2 x3 x4 x5 x6 x7 x8 (ix4 b n h w)
      = Cert.Spec.out x0 x1 x2 x3 x4 x5 x6 x7 x8 (ix4 b n h w) := by
  rw [val_main_v77_apply, idx77_eq, toT, val_main_v76_apply, idx76_eq, toX, val_main_v75_apply, val_main_v74_apply,
    val_main_v73_apply, o_idx, ref_omega, ref_x3]
  rfl

/-- The reference computes the specification's function. -/
theorem ref_eq :
    Cert.ReferenceIdeal.Read.val_main_v77 (F := Ideal) x0 x1 x2 x3 x4 x5 x6 x7 x8
      = Cert.Spec.out x0 x1 x2 x3 x4 x5 x6 x7 x8 := by
  funext i
  rw [eq_ix4 i]
  exact ref_out x0 x1 x2 x3 x4 x5 x6 x7 x8 (i 0) (i 1) (i 2) (i 3)

end Cert.RefSide

end
-- ==== Proof.GateTrip.lean ====
/-
  What one trip of the gating body's loop over the 16 groups writes, and what the whole body's run leaves.

  Trip k loads the slab of group k of the input block (the rectangle of extents [1, 1, 32, 4096] at offsets
  (0, k, 0, 0)), and stores two things: into the first output, at the same rectangle, the gated slab computed from
  that load; into the second output, at the one-element rectangle at (0, k, 0), the slab's scaled total.  The body's
  run leaves in each output the pieces of the 16 trips, last trip first.
-/
import proofs.«161621_j77464030150917_2_alg».proof.Proof.Gen.KernelIdeal.Frame

set_option maxRecDepth 65536

noncomputable section

namespace Cert.GateBody

open Idealize.ShloMosaic Cert.KernelIdeal Cert.KernelIdeal.Gen

variable {F : FTy → Type} [FloatOps F]

/-- The slab of group k as trip k loads it from contents X of the input's buffer. -/
abbrev slab0 (arg1 : Memref sig .tc .vmem S1x16x32x4096 .f32) (X : BufTy.Contents (Elt F) arg1.view.ty)
    (k : Fin k0_t1_loop.trips) : Vec F S1x1x32x4096 .f32 :=
  View.readAt (Elt F) arg1.view (Rect.unit (s := S1x16x32x4096) (k0_off1 k) S1x1x32x4096.size (k0_off1_inb k)).toLoadRect X

/-- Trip k writes ONE piece into the first output: the gated slab at the slab's rectangle. -/
theorem trip0_fst (𝒱 : Variants) (bd : Option 𝒱.V) (c : Dev nD) (i : grid0.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (v0 : Vec F S32x8 .f32) (v2 : Vec F S8 .f32) (v4 : Vec F S32x8 .f32) (v5 : Vec F S32 .f32)
    (X : BufTy.Contents (Elt F) arg1.view.ty) (k : Fin k0_t1_loop.trips) :
    (Gen.tripL_k0_t1 (F := F) 𝒱 c bd i arg1 harg1 arg2 harg2 arg3 harg3 arg4 harg4 arg5 harg5 arg6 harg6 arg7 harg7 v0 v2 v4 v5 X k).1
      = [(⟨Rect.unit (s := S1x16x32x4096) (k0_off1 k) S1x1x32x4096.size (k0_off1_inb k),
            k0_pay2 v0 v2 v4 v5 (slab0 arg1 X k)⟩ : View.Piece (Elt F) S1x16x32x4096 .f32)] := by
  dsimp only [Gen.tripL_k0_t1]
  unfold Gen.trip_k0_t1
  rfl

/-- Trip k writes ONE piece into the second output: the slab's scaled total at (0, k, 0). -/
theorem trip0_snd (𝒱 : Variants) (bd : Option 𝒱.V) (c : Dev nD) (i : grid0.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (v0 : Vec F S32x8 .f32) (v2 : Vec F S8 .f32) (v4 : Vec F S32x8 .f32) (v5 : Vec F S32 .f32)
    (X : BufTy.Contents (Elt F) arg1.view.ty) (k : Fin k0_t1_loop.trips) :
    (Gen.tripL_k0_t1 (F := F) 𝒱 c bd i arg1 harg1 arg2 harg2 arg3 harg3 arg4 harg4 arg5 harg5 arg6 harg6 arg7 harg7 v0 v2 v4 v5 X k).2
      = [(⟨Rect.unit (s := S1x16x1) (k0_off2 k) S1x1x1.size (k0_off2_inb k),
            k0_pay3 v0 v2 v4 v5 (slab0 arg1 X k)⟩ : View.Piece (Elt F) S1x16x1 .f32)] := by
  dsimp only [Gen.tripL_k0_t1]
  unfold Gen.trip_k0_t1
  rfl

/-- The four whole-buffer loads the body makes before the loop, from buffers holding x1 … x4. -/
abbrev ldW0 (arg2 : Memref sig .tc .vmem S32x8 .f32) (harg2 : arg2.IsWhole) (x1 : Vec F S32x8 .f32) : Vec F S32x8 .f32 :=
  View.readAt (Elt F) arg2.view (Rect.unit (s := S32x8) ![0, 0] S32x8.size inb_S32x8_S32x8_0_0).toLoadRect (harg2.unread x1)
abbrev ldB0 (arg3 : Memref sig .tc .vmem S8 .f32) (harg3 : arg3.IsWhole) (x2 : Vec F S8 .f32) : Vec F S8 .f32 :=
  View.readAt (Elt F) arg3.view (Rect.unit (s := S8) ![0] S8.size inb_S8_S8_0).toLoadRect (harg3.unread x2)
abbrev ldC0 (arg5 : Memref sig .tc .vmem S32 .f32) (harg5 : arg5.IsWhole) (x4 : Vec F S32 .f32) : Vec F S32 .f32 :=
  View.readAt (Elt F) arg5.view (Rect.unit (s := S32) ![0] S32.size inb_S32_S32_0).toLoadRect (harg5.unread x4)

/-- The body's run leaves, in the two outputs, the pieces of all the loop's trips. -/
theorem run0_fst (c : Dev nD) (i : grid0.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (x0 : Vec F S1x16x32x4096 .f32) (x1 : Vec F S32x8 .f32) (x2 : Vec F S8 .f32) (x3 : Vec F S32x8 .f32) (x4 : Vec F S32 .f32) :
    (Gen.kernelRun0_A (F := F) c i arg1 harg1 arg2 harg2 arg3 harg3 arg4 harg4 arg5 harg5 arg6 harg6 arg7 harg7 x0 x1 x2 x3 x4).1
      = (Gen.pb_k0_t1 (F := F) Variants.none c none i arg1 harg1 arg2 harg2 arg3 harg3 arg4 harg4 arg5 harg5 arg6 harg6 arg7 harg7
          (ldW0 arg2 harg2 x1) (ldB0 arg3 harg3 x2) (ldW0 arg4 harg4 x3) (ldC0 arg5 harg5 x4) (harg1.unread x0) k0_t1_loop.trips).1 := by
  unfold Gen.kernelRun0_A
  rfl

theorem run0_snd (c : Dev nD) (i : grid0.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (x0 : Vec F S1x16x32x4096 .f32) (x1 : Vec F S32x8 .f32) (x2 : Vec F S8 .f32) (x3 : Vec F S32x8 .f32) (x4 : Vec F S32 .f32) :
    (Gen.kernelRun0_A (F := F) c i arg1 harg1 arg2 harg2 arg3 harg3 arg4 harg4 arg5 harg5 arg6 harg6 arg7 harg7 x0 x1 x2 x3 x4).2.1
      = (Gen.pb_k0_t1 (F := F) Variants.none c none i arg1 harg1 arg2 harg2 arg3 harg3 arg4 harg4 arg5 harg5 arg6 harg6 arg7 harg7
          (ldW0 arg2 harg2 x1) (ldB0 arg3 harg3 x2) (ldW0 arg4 harg4 x3) (ldC0 arg5 harg5 x4) (harg1.unread x0) k0_t1_loop.trips).2 := by
  unfold Gen.kernelRun0_A
  rfl

end Cert.GateBody

end
-- ==== Proof.GateIdx.lean ====
/-
  Layout operations read at an index given by coordinates, for the shapes the gating body uses: a matrix with two
  leading unit axes added or dropped, a vector made a column, a column spread over the columns of a matrix, a vector
  given two leading unit axes; and the index a one-axis reduction inserts, written by coordinates.
-/
import Idealize.ShloMosaic.Lib.ValueIdx
import Idealize.ShloMosaic.Lib.ValueLayout
import Idealize.ShloMosaic.PureOps.Ideal.Laws

namespace Cert.GateBody

open Idealize.ShloMosaic Idealize.ShloMosaic.ValueIdx

variable {α : Type}

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## An index split into coordinates of literal types -/

/-- Every index of a rank-4 shape is `(a, b, c, d)` for coordinates of the literal extents. -/
theorem exists_ix4 {n0 n1 n2 n3 : ℕ} (x : (⟨4, ![n0, n1, n2, n3]⟩ : Shape).Idx) :
    ∃ (a : Fin n0) (b : Fin n1) (c : Fin n2) (d : Fin n3), x = ix4 a b c d :=
  ⟨x 0, x 1, x 2, x 3, eq_ix4 x⟩

/-- Every index of a rank-3 shape is `(a, b, c)` for coordinates of the literal extents. -/
theorem exists_ix3 {n0 n1 n2 : ℕ} (x : (⟨3, ![n0, n1, n2]⟩ : Shape).Idx) :
    ∃ (a : Fin n0) (b : Fin n1) (c : Fin n2), x = ix3 a b c :=
  ⟨x 0, x 1, x 2, eq_ix3 x⟩

/-! ## The index a one-axis reduction inserts -/

/-- Summing a matrix along its columns: the index inserted at row `c` is `(c, s)`. -/
theorem lift_ab_a {a b : ℕ} (h : Shape.Reduces ⟨2, ![a, b]⟩ [1] ⟨1, ![a]⟩) (c : Fin a) (s : Fin b) :
    h.lift (ix1 c) s = ix2 c s :=
  funext fun ax => match ax with | ⟨0, _⟩ => Fin.ext rfl | ⟨1, _⟩ => Fin.ext rfl

/-- Summing a matrix along its rows: the index inserted at column `o` is `(c, o)`. -/
theorem lift_ab_b {a b : ℕ} (h : Shape.Reduces ⟨2, ![a, b]⟩ [0] ⟨1, ![b]⟩) (o : Fin b) (c : Fin a) :
    h.lift (ix1 o) c = ix2 c o :=
  funext fun ax => match ax with | ⟨0, _⟩ => Fin.ext rfl | ⟨1, _⟩ => Fin.ext rfl

end Cert.GateBody
-- ==== Proof.GateLoads.lean ====
/-
  What the gating body's loads read, when the input buffers hold x0 … x4.

  The four loads before the loop read whole buffers through the rectangle at zero offsets: they give x1 … x4 back.
  Trip k loads the rectangle of extents [1, 1, 32, 4096] at offsets (0, k, 0, 0) of the buffer holding x0: its entry
  (0, 0, c, s) is x0[0, k, c, s].  The same rectangle places a slab index (u, v, c, s) at (0, k, c, s) of the block,
  and the one-element rectangle at (0, k, 0) places its only index at (0, k, 0).
-/
import proofs.«161621_j77464030150917_2_alg».proof.Proof.GateTrip
import proofs.«161621_j77464030150917_2_alg».proof.Proof.GateIdx
import Idealize.ShloMosaic.Lib.Pipeline.Value

set_option maxRecDepth 65536

noncomputable section

namespace Cert.GateBody

open Idealize.ShloMosaic Idealize.ShloMosaic.ValueIdx Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- A whole-buffer load of a [32, 8] buffer holding x reads x. -/
theorem ldW0_eq (arg2 : Memref sig .tc .vmem S32x8 .f32) (harg2 : arg2.IsWhole) (x : Vec F S32x8 .f32) :
    ldW0 arg2 harg2 x = x := by
  simp only [View.readAt_eq_ld, harg2.read_unread, View.ld_unit_zero (S := S32x8) hz2]

/-- A whole-buffer load of an [8] buffer holding x reads x. -/
theorem ldB0_eq (arg3 : Memref sig .tc .vmem S8 .f32) (harg3 : arg3.IsWhole) (x : Vec F S8 .f32) :
    ldB0 arg3 harg3 x = x := by
  simp only [View.readAt_eq_ld, harg3.read_unread, View.ld_unit_zero (S := S8) hz1]

/-- A whole-buffer load of a [32] buffer holding x reads x. -/
theorem ldC0_eq (arg5 : Memref sig .tc .vmem S32 .f32) (harg5 : arg5.IsWhole) (x : Vec F S32 .f32) :
    ldC0 arg5 harg5 x = x := by
  simp only [View.readAt_eq_ld, harg5.read_unread, View.ld_unit_zero (S := S32) hz1]

/-- The loop makes at most 16 trips. -/
theorem trip0_lt (k : Fin k0_t1_loop.trips) : k.val < 16 := Nat.lt_of_lt_of_le k.isLt Gen.k0_t1_abs.2.1

/-- The group a trip works on, as a coordinate of the block. -/
abbrev grp0 (k : Fin k0_t1_loop.trips) : Fin 16 := ⟨k.val, trip0_lt k⟩

/-- Trip k's slab, loaded from a buffer holding x0: entry (0, 0, c, s) is x0[0, k, c, s]. -/
theorem slab0_apply (arg1 : Memref sig .tc .vmem S1x16x32x4096 .f32) (harg1 : arg1.IsWhole) (x0 : Vec F S1x16x32x4096 .f32)
    (k : Fin k0_t1_loop.trips) (c : Fin 32) (s : Fin 4096) :
    slab0 arg1 (harg1.unread x0) k (ix4 (0 : Fin 1) (0 : Fin 1) c s) = x0 (ix4 (0 : Fin 1) (grp0 k) c s) := by
  unfold slab0
  rw [View.readAt_eq_ld, harg1.read_unread]
  refine congrArg x0 (funext fun a => Fin.ext ?_)
  show (k0_off1 k) a + 1 * ((ix4 (0 : Fin 1) (0 : Fin 1) c s : S1x1x32x4096.Idx) a).val
    = ((ix4 (0 : Fin 1) (grp0 k) c s : S1x16x32x4096.Idx) a).val
  rw [Gen.k0_off1_eq k]
  match a with
  | ⟨0, _⟩ => rfl
  | ⟨1, _⟩ => show k.val + 1 * 0 = k.val; omega
  | ⟨2, _⟩ => show 0 + 1 * c.val = c.val; omega
  | ⟨3, _⟩ => show 0 + 1 * s.val = s.val; omega

/-- The slab's rectangle places the slab index (u, v, c, s) at (0, k, c, s) of the block. -/
theorem emb0_fst (k : Fin k0_t1_loop.trips) (u v : Fin 1) (c : Fin 32) (s : Fin 4096) :
    (Rect.unit (s := S1x16x32x4096) (k0_off1 k) S1x1x32x4096.size (k0_off1_inb k)).emb (ix4 u v c s)
      = ix4 (0 : Fin 1) (grp0 k) c s := by
  refine funext fun a => Fin.ext ?_
  show (k0_off1 k) a + 1 * ((ix4 u v c s : S1x1x32x4096.Idx) a).val
    = ((ix4 (0 : Fin 1) (grp0 k) c s : S1x16x32x4096.Idx) a).val
  rw [Gen.k0_off1_eq k]
  have hu : u.val = 0 := by omega
  have hv : v.val = 0 := by omega
  match a with
  | ⟨0, _⟩ => show 0 + 1 * u.val = 0; omega
  | ⟨1, _⟩ => show k.val + 1 * v.val = k.val; omega
  | ⟨2, _⟩ => show 0 + 1 * c.val = c.val; omega
  | ⟨3, _⟩ => show 0 + 1 * s.val = s.val; omega

/-- The one-element rectangle of trip k places its index at (0, k, 0) of the second output's block. -/
theorem emb0_snd (k : Fin k0_t1_loop.trips) (u v w : Fin 1) :
    (Rect.unit (s := S1x16x1) (k0_off2 k) S1x1x1.size (k0_off2_inb k)).emb (ix3 u v w)
      = ix3 (0 : Fin 1) (grp0 k) (0 : Fin 1) := by
  refine funext fun a => Fin.ext ?_
  show (k0_off2 k) a + 1 * ((ix3 u v w : S1x1x1.Idx) a).val
    = ((ix3 (0 : Fin 1) (grp0 k) (0 : Fin 1) : S1x16x1.Idx) a).val
  rw [Gen.k0_off2_eq k]
  have hu : u.val = 0 := by omega
  have hv : v.val = 0 := by omega
  have hw : w.val = 0 := by omega
  match a with
  | ⟨0, _⟩ => show 0 + 1 * u.val = 0; omega
  | ⟨1, _⟩ => show k.val + 1 * v.val = k.val; omega
  | ⟨2, _⟩ => show 0 + 1 * w.val = 0; omega

end Cert.GateBody

end
-- ==== Proof.GatePay.lean ====
/-
  The arithmetic of one trip of the gating body, read at an index over the extended reals.

  From a slab v9 : [1, 1, 32, 4096] (one group of 32 channels by 4096 positions) and the parameters v0 : [32, 8]
  (the first weights, transposed), v2 : [8], v4 : [32, 8], v5 : [32], the trip computes
    σ[c']   = Σ_s v9[0, 0, c', s]                                          (channel sums)
    h[o]    = max( Σ_c' (σ[c'] · 2⁻¹²) · v0[c', o] + v2[o], 0 )              (hidden layer)
    gate[c] = logistic( Σ_o h[o] · v4[c, o] + v5[c] )
  and stores v9[0, 0, c, s] · gate[c] (the gated slab) and (Σ_c Σ_s v9[0, 0, c, s] · gate[c]) · 2⁻¹⁷ (its scaled
  total).  Every reduction starts from the zero word, which adds nothing; 2⁻¹² and 2⁻¹⁷ stay the f32 words.
-/
import proofs.«161621_j77464030150917_2_alg».proof.Proof.Gen.KernelIdeal.Skeleton
import proofs.«161621_j77464030150917_2_alg».proof.Proof.BodySpec
import proofs.«161621_j77464030150917_2_alg».proof.Proof.GateIdx

set_option maxRecDepth 65536

noncomputable section

namespace Cert.GateBody

open Idealize.ShloMosaic Idealize.ShloMosaic.ValueIdx Cert.KernelIdeal Cert.KernelIdeal.Gen
open scoped BigOperators

/-- An `<add>` reduction of a matrix along its columns, from the zero word, at row `c`: the sum of the row. -/
theorem reduce_cols_apply {a b : ℕ} (src : FVec Ideal ⟨2, ![a, b]⟩ .f32) (hr : Shape.Reduces ⟨2, ![a, b]⟩ [1] ⟨1, ![a]⟩)
    (hφ : FTy.f32 = FTy.f32 ∨ FTy.f32 = FTy.bf16) (hacc : (0x00000000#32 : BitVec 32) = 0x00000000#32) (c : Fin a) :
    multiReduction .add [1] ⟨1, ![a]⟩ src 0x00000000#32 hr hφ hacc (ix1 c) = ∑ s : Fin b, src (ix2 c s) := by
  refine (Ideal.multiReduction_add_single src 0x00000000#32 hr hφ hacc (ix1 c)).trans ?_
  refine Finset.sum_congr rfl ?_
  intro (s : Fin b) _
  exact congrArg src (lift_ab_a hr c s)

/-- An `<add>` reduction of a matrix along its rows, from the zero word, at column `o`: the sum of the column. -/
theorem reduce_rows_apply {a b : ℕ} (src : FVec Ideal ⟨2, ![a, b]⟩ .f32) (hr : Shape.Reduces ⟨2, ![a, b]⟩ [0] ⟨1, ![b]⟩)
    (hφ : FTy.f32 = FTy.f32 ∨ FTy.f32 = FTy.bf16) (hacc : (0x00000000#32 : BitVec 32) = 0x00000000#32) (o : Fin b) :
    multiReduction .add [0] ⟨1, ![b]⟩ src 0x00000000#32 hr hφ hacc (ix1 o) = ∑ c : Fin a, src (ix2 c o) := by
  refine (Ideal.multiReduction_add_single src 0x00000000#32 hr hφ hacc (ix1 o)).trans ?_
  refine Finset.sum_congr rfl ?_
  intro (c : Fin a) _
  exact congrArg src (lift_ab_b hr o c)

/-! ## The payloads at an index -/

/-- The gate of channel c computed from the slab v9 and the parameters, as the specification writes it. -/
abbrev slabGate (v0 : Vec Ideal S32x8 .f32) (v2 : Vec Ideal S8 .f32) (v4 : Vec Ideal S32x8 .f32) (v5 : Vec Ideal S32 .f32)
    (v9 : Vec Ideal S1x1x32x4096 .f32) (c : Fin 32) : EReal :=
  Spec.gate (fun o c' => v0 (ix2 c' o)) (fun o => v2 (ix1 o)) (fun c' o => v4 (ix2 c' o)) (fun c' => v5 (ix1 c'))
    (fun c' => ∑ s' : Fin 4096, v9 (ix4 (0 : Fin 1) (0 : Fin 1) c' s')) c

/-- The gated slab as a matrix: entry (c, s) is the slab's entry times the gate of channel c. -/
theorem pay1_apply (v0 : Vec Ideal S32x8 .f32) (v2 : Vec Ideal S8 .f32) (v4 : Vec Ideal S32x8 .f32) (v5 : Vec Ideal S32 .f32)
    (v9 : Vec Ideal S1x1x32x4096 .f32) (c : Fin 32) (s : Fin 4096) :
    Gen.k0_pay1 (F := Ideal) v0 v2 v4 v5 v9 (ix2 c s)
      = v9 (ix4 (0 : Fin 1) (0 : Fin 1) c s) * slabGate v0 v2 v4 v5 v9 c := by
  unfold Gen.k0_pay1
  dsimp only
  rw [mulf_apply, shapeCast_11ab_ab_apply, broadcastTo_a1_ab_apply]
  have hslab : ∀ (src : FVec Ideal S32x4096 .f32) (hr : S32x4096.Reduces [1] S32) (hφ : FTy.f32 = FTy.f32 ∨ FTy.f32 = FTy.bf16) (hacc : (0x00000000#32 : BitVec 32) = 0x00000000#32) (c' : Fin 32),
      multiReduction .add [1] S32 src 0x00000000#32 hr hφ hacc (ix1 c') = ∑ s' : Fin 4096, src (ix2 c' s') :=
    fun src hr hφ hacc c' => reduce_cols_apply src hr hφ hacc c'
  have hhidden : ∀ (src : FVec Ideal S32x8 .f32) (hr : S32x8.Reduces [0] S8) (hφ : FTy.f32 = FTy.f32 ∨ FTy.f32 = FTy.bf16) (hacc : (0x00000000#32 : BitVec 32) = 0x00000000#32) (o : Fin 8),
      multiReduction .add [0] S8 src 0x00000000#32 hr hφ hacc (ix1 o) = ∑ c' : Fin 32, src (ix2 c' o) :=
    fun src hr hφ hacc o => reduce_rows_apply src hr hφ hacc o
  have hout : ∀ (src : FVec Ideal S32x8 .f32) (hr : S32x8.Reduces [1] S32) (hφ : FTy.f32 = FTy.f32 ∨ FTy.f32 = FTy.bf16) (hacc : (0x00000000#32 : BitVec 32) = 0x00000000#32) (c' : Fin 32),
      multiReduction .add [1] S32 src 0x00000000#32 hr hφ hacc (ix1 c') = ∑ o : Fin 8, src (ix2 c' o) :=
    fun src hr hφ hacc c' => reduce_cols_apply src hr hφ hacc c'
  simp only [logistic, hout, hhidden, hslab, addf_apply, mulf_apply, maximumf_apply, broadcast_apply, shapeCast_a_a1_apply,
    shapeCast_a_1a_apply, broadcastTo_1b_ab_apply, broadcastTo_a1_ab_apply, shapeCast_self, shapeCast_11ab_ab_apply,
    Ideal.logistic_def, Ideal.ofBits_def, Ideal.ofBits_zero_f32]
  rfl

/-- What the trip stores into the first output, with the two unit axes in front. -/
theorem pay2_apply (v0 : Vec Ideal S32x8 .f32) (v2 : Vec Ideal S8 .f32) (v4 : Vec Ideal S32x8 .f32) (v5 : Vec Ideal S32 .f32)
    (v9 : Vec Ideal S1x1x32x4096 .f32) (u v : Fin 1) (c : Fin 32) (s : Fin 4096) :
    Gen.k0_pay2 (F := Ideal) v0 v2 v4 v5 v9 (ix4 u v c s)
      = v9 (ix4 (0 : Fin 1) (0 : Fin 1) c s) * slabGate v0 v2 v4 v5 v9 c := by
  unfold Gen.k0_pay2
  rw [shapeCast_ab_11ab_apply]
  exact pay1_apply v0 v2 v4 v5 v9 c s

/-- What the trip stores into the second output: the gated slab's total times 2⁻¹⁷. -/
theorem pay3_apply (v0 : Vec Ideal S32x8 .f32) (v2 : Vec Ideal S8 .f32) (v4 : Vec Ideal S32x8 .f32) (v5 : Vec Ideal S32 .f32)
    (v9 : Vec Ideal S1x1x32x4096 .f32) (u v w : Fin 1) :
    Gen.k0_pay3 (F := Ideal) v0 v2 v4 v5 v9 (ix3 u v w)
      = (∑ c : Fin 32, ∑ s : Fin 4096, v9 (ix4 (0 : Fin 1) (0 : Fin 1) c s) * slabGate v0 v2 v4 v5 v9 c) * Spec.k17 := by
  unfold Gen.k0_pay3
  dsimp only
  have hslab : ∀ (src : FVec Ideal S32x4096 .f32) (hr : S32x4096.Reduces [1] S32) (hφ : FTy.f32 = FTy.f32 ∨ FTy.f32 = FTy.bf16) (hacc : (0x00000000#32 : BitVec 32) = 0x00000000#32) (c' : Fin 32),
      multiReduction .add [1] S32 src 0x00000000#32 hr hφ hacc (ix1 c') = ∑ s' : Fin 4096, src (ix2 c' s') :=
    fun src hr hφ hacc c' => reduce_cols_apply src hr hφ hacc c'
  have htotal : ∀ (src : FVec Ideal S32x1 .f32) (hr : S32x1.Reduces [0] S1) (hφ : FTy.f32 = FTy.f32 ∨ FTy.f32 = FTy.bf16) (hacc : (0x00000000#32 : BitVec 32) = 0x00000000#32) (w' : Fin 1),
      multiReduction .add [0] S1 src 0x00000000#32 hr hφ hacc (ix1 w') = ∑ c' : Fin 32, src (ix2 c' w') :=
    fun src hr hφ hacc w' => reduce_rows_apply src hr hφ hacc w'
  rw [shapeCast_a_11a_apply, shapeCast_1a_a_apply, mulf_apply, shapeCast_a_1a_apply, broadcast_apply, htotal]
  simp only [shapeCast_a_a1_apply, hslab, pay1_apply, Ideal.ofBits_def]
  rfl

end Cert.GateBody

end
-- ==== Proof.GateOut5.lean ====
/-
  The first output block of one grid point of the gating kernel.

  Every trip of the body's loop stores ONE piece into the first output: the gated slab of group k at the slab's
  rectangle.  Each such piece is the block of one function of the output block's index — the specification's gated
  block, entry (0, g, c, s) = x0[0, g, c, s] times the gate of channel c of group g —, so the 16 pieces, which cover
  the block, read back as that function.
-/
import proofs.«161621_j77464030150917_2_alg».proof.Proof.GateLoads
import proofs.«161621_j77464030150917_2_alg».proof.Proof.GatePay
import Idealize.ShloMosaic.Lib.Pipeline.Value

set_option maxRecDepth 65536

noncomputable section

namespace Cert.GateBody

open Idealize.ShloMosaic Idealize.ShloMosaic.ValueIdx Cert.KernelIdeal Cert.KernelIdeal.Gen
open scoped BigOperators

/-- The gated slab of trip k is the block of the specification's gated block at the slab's rectangle. -/
theorem gate_piece (arg1 : Memref sig .tc .vmem S1x16x32x4096 .f32) (harg1 : arg1.IsWhole) (x0 : Vec Ideal S1x16x32x4096 .f32) (x1 : Vec Ideal S32x8 .f32) (x2 : Vec Ideal S8 .f32) (x3 : Vec Ideal S32x8 .f32) (x4 : Vec Ideal S32 .f32)
    (k : Fin k0_t1_loop.trips) (x : S1x1x32x4096.Idx) :
    Gen.k0_pay2 (F := Ideal) x1 x2 x3 x4 (slab0 arg1 (harg1.unread x0) k) x
      = Spec.blkGate x0 x1 x2 x3 x4
          ((Rect.unit (s := S1x16x32x4096) (k0_off1 k) S1x1x32x4096.size (k0_off1_inb k)).emb x) := by
  obtain ⟨u, v, c, s, rfl⟩ := exists_ix4 x
  rw [pay2_apply, emb0_fst]
  unfold slabGate Spec.blkGate
  simp only [slab0_apply]

/-- All the pieces of the trips before n are blocks of the gated block. -/
theorem gate_pieces_spec (c : Dev nD) (i : grid0.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (x0 : Vec Ideal S1x16x32x4096 .f32) (x1 : Vec Ideal S32x8 .f32) (x2 : Vec Ideal S8 .f32) (x3 : Vec Ideal S32x8 .f32) (x4 : Vec Ideal S32 .f32) :
    ∀ n : ℕ, n ≤ k0_t1_loop.trips →
      ∀ p ∈ (Gen.pb_k0_t1 (F := Ideal) Variants.none c none i arg1 harg1 arg2 harg2 arg3 harg3 arg4 harg4 arg5 harg5 arg6 harg6 arg7 harg7 x1 x2 x3 x4 (harg1.unread x0) n).1,
        ∀ x : p.1.shape.Idx, p.2 x = Spec.blkGate x0 x1 x2 x3 x4 (p.1.emb x)
  | 0, _ => by
    intro p hp
    rw [Gen.pb_k0_t1.eq_1] at hp
    exact absurd hp List.not_mem_nil
  | n + 1, hn => by
    intro p hp
    rw [Gen.pb_k0_t1_succ (F := Ideal) Variants.none c none i arg1 harg1 arg2 harg2 arg3 harg3 arg4 harg4 arg5 harg5 arg6 harg6 arg7 harg7 x1 x2 x3 x4 (harg1.unread x0) ⟨n, hn⟩] at hp
    rcases List.mem_append.mp hp with h | h
    · rw [trip0_fst] at h
      obtain rfl := List.mem_singleton.mp h
      exact fun x => gate_piece arg1 harg1 x0 x1 x2 x3 x4 ⟨n, hn⟩ x
    · exact gate_pieces_spec c i arg1 harg1 arg2 harg2 arg3 harg3 arg4 harg4 arg5 harg5 arg6 harg6 arg7 harg7 x0 x1 x2 x3 x4 n (Nat.le_of_succ_le hn) p h

/-- What one grid point leaves in the first output's block: the gated block. -/
theorem out0_5_eq (c : Dev nD) (i : grid0.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (x0 : Vec Ideal S1x16x32x4096 .f32) (x1 : Vec Ideal S32x8 .f32) (x2 : Vec Ideal S8 .f32) (x3 : Vec Ideal S32x8 .f32) (x4 : Vec Ideal S32 .f32) :
    Gen.out0_A_5 (F := Ideal) c i arg1 harg1 arg2 harg2 arg3 harg3 arg4 harg4 arg5 harg5 arg6 harg6 arg7 harg7 x0 x1 x2 x3 x4 = Spec.blkGate x0 x1 x2 x3 x4 := by
  unfold Gen.out0_A_5
  rw [View.read_writes_eq_canon _ _ _ (Gen.cover0_A_5 c i arg1 harg1 arg2 harg2 arg3 harg3 arg4 harg4 arg5 harg5 arg6 harg6 arg7 harg7 x0 x1 x2 x3 x4)]
  funext y
  refine View.canon_apply_of_pieces (Val := Elt Ideal) (S := S1x16x32x4096) (e := .f32) (Spec.blkGate x0 x1 x2 x3 x4) _ ?_ y
    (Gen.cover0_A_5 c i arg1 harg1 arg2 harg2 arg3 harg3 arg4 harg4 arg5 harg5 arg6 harg6 arg7 harg7 x0 x1 x2 x3 x4 y)
  rw [run0_fst, ldW0_eq, ldB0_eq, ldW0_eq, ldC0_eq]
  exact gate_pieces_spec c i arg1 harg1 arg2 harg2 arg3 harg3 arg4 harg4 arg5 harg5 arg6 harg6 arg7 harg7 x0 x1 x2 x3 x4 k0_t1_loop.trips (Nat.le_refl _)

end Cert.GateBody

end
-- ==== Proof.GateTrip1.lean ====
/-
  What one trip of the gating body's loop over the 16 groups writes, and what the whole body's run leaves.

  Trip k loads the slab of group k of the input block (the rectangle of extents [1, 1, 32, 4096] at offsets
  (0, k, 0, 0)), and stores two things: into the first output, at the same rectangle, the gated slab computed from
  that load; into the second output, at the one-element rectangle at (0, k, 0), the slab's scaled total.  The body's
  run leaves in each output the pieces of the 16 trips, last trip first.
-/
import proofs.«161621_j77464030150917_2_alg».proof.Proof.Gen.KernelIdeal.Frame

set_option maxRecDepth 65536

noncomputable section

namespace Cert.GateBody

open Idealize.ShloMosaic Cert.KernelIdeal Cert.KernelIdeal.Gen

variable {F : FTy → Type} [FloatOps F]

/-- The slab of group k as trip k loads it from contents X of the input's buffer. -/
abbrev slab1 (arg1 : Memref sig .tc .vmem S1x16x32x4096 .f32) (X : BufTy.Contents (Elt F) arg1.view.ty)
    (k : Fin k1_t1_loop.trips) : Vec F S1x1x32x4096 .f32 :=
  View.readAt (Elt F) arg1.view (Rect.unit (s := S1x16x32x4096) (k1_off1 k) S1x1x32x4096.size (k1_off1_inb k)).toLoadRect X

/-- Trip k writes ONE piece into the first output: the gated slab at the slab's rectangle. -/
theorem trip1_fst (𝒱 : Variants) (bd : Option 𝒱.V) (c : Dev nD) (i : grid1.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (v0 : Vec F S32x8 .f32) (v2 : Vec F S8 .f32) (v4 : Vec F S32x8 .f32) (v5 : Vec F S32 .f32)
    (X : BufTy.Contents (Elt F) arg1.view.ty) (k : Fin k1_t1_loop.trips) :
    (Gen.tripL_k1_t1 (F := F) 𝒱 c bd i arg1 harg1 arg2 harg2 arg3 harg3 arg4 harg4 arg5 harg5 arg6 harg6 arg7 harg7 v0 v2 v4 v5 X k).1
      = [(⟨Rect.unit (s := S1x16x32x4096) (k1_off1 k) S1x1x32x4096.size (k1_off1_inb k),
            k1_pay2 v0 v2 v4 v5 (slab1 arg1 X k)⟩ : View.Piece (Elt F) S1x16x32x4096 .f32)] := by
  dsimp only [Gen.tripL_k1_t1]
  unfold Gen.trip_k1_t1
  rfl

/-- Trip k writes ONE piece into the second output: the slab's scaled total at (0, k, 0). -/
theorem trip1_snd (𝒱 : Variants) (bd : Option 𝒱.V) (c : Dev nD) (i : grid1.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (v0 : Vec F S32x8 .f32) (v2 : Vec F S8 .f32) (v4 : Vec F S32x8 .f32) (v5 : Vec F S32 .f32)
    (X : BufTy.Contents (Elt F) arg1.view.ty) (k : Fin k1_t1_loop.trips) :
    (Gen.tripL_k1_t1 (F := F) 𝒱 c bd i arg1 harg1 arg2 harg2 arg3 harg3 arg4 harg4 arg5 harg5 arg6 harg6 arg7 harg7 v0 v2 v4 v5 X k).2
      = [(⟨Rect.unit (s := S1x16x1) (k1_off2 k) S1x1x1.size (k1_off2_inb k),
            k1_pay3 v0 v2 v4 v5 (slab1 arg1 X k)⟩ : View.Piece (Elt F) S1x16x1 .f32)] := by
  dsimp only [Gen.tripL_k1_t1]
  unfold Gen.trip_k1_t1
  rfl

/-- The four whole-buffer loads the body makes before the loop, from buffers holding x1 … x4. -/
abbrev ldW1 (arg2 : Memref sig .tc .vmem S32x8 .f32) (harg2 : arg2.IsWhole) (x1 : Vec F S32x8 .f32) : Vec F S32x8 .f32 :=
  View.readAt (Elt F) arg2.view (Rect.unit (s := S32x8) ![0, 0] S32x8.size inb_S32x8_S32x8_0_0).toLoadRect (harg2.unread x1)
abbrev ldB1 (arg3 : Memref sig .tc .vmem S8 .f32) (harg3 : arg3.IsWhole) (x2 : Vec F S8 .f32) : Vec F S8 .f32 :=
  View.readAt (Elt F) arg3.view (Rect.unit (s := S8) ![0] S8.size inb_S8_S8_0).toLoadRect (harg3.unread x2)
abbrev ldC1 (arg5 : Memref sig .tc .vmem S32 .f32) (harg5 : arg5.IsWhole) (x4 : Vec F S32 .f32) : Vec F S32 .f32 :=
  View.readAt (Elt F) arg5.view (Rect.unit (s := S32) ![0] S32.size inb_S32_S32_0).toLoadRect (harg5.unread x4)

/-- The body's run leaves, in the two outputs, the pieces of all the loop's trips. -/
theorem run1_fst (c : Dev nD) (i : grid1.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (x0 : Vec F S1x16x32x4096 .f32) (x1 : Vec F S32x8 .f32) (x2 : Vec F S8 .f32) (x3 : Vec F S32x8 .f32) (x4 : Vec F S32 .f32) :
    (Gen.kernelRun1_A (F := F) c i arg1 harg1 arg2 harg2 arg3 harg3 arg4 harg4 arg5 harg5 arg6 harg6 arg7 harg7 x0 x1 x2 x3 x4).1
      = (Gen.pb_k1_t1 (F := F) Variants.none c none i arg1 harg1 arg2 harg2 arg3 harg3 arg4 harg4 arg5 harg5 arg6 harg6 arg7 harg7
          (ldW1 arg2 harg2 x1) (ldB1 arg3 harg3 x2) (ldW1 arg4 harg4 x3) (ldC1 arg5 harg5 x4) (harg1.unread x0) k1_t1_loop.trips).1 := by
  unfold Gen.kernelRun1_A
  rfl

theorem run1_snd (c : Dev nD) (i : grid1.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (x0 : Vec F S1x16x32x4096 .f32) (x1 : Vec F S32x8 .f32) (x2 : Vec F S8 .f32) (x3 : Vec F S32x8 .f32) (x4 : Vec F S32 .f32) :
    (Gen.kernelRun1_A (F := F) c i arg1 harg1 arg2 harg2 arg3 harg3 arg4 harg4 arg5 harg5 arg6 harg6 arg7 harg7 x0 x1 x2 x3 x4).2.1
      = (Gen.pb_k1_t1 (F := F) Variants.none c none i arg1 harg1 arg2 harg2 arg3 harg3 arg4 harg4 arg5 harg5 arg6 harg6 arg7 harg7
          (ldW1 arg2 harg2 x1) (ldB1 arg3 harg3 x2) (ldW1 arg4 harg4 x3) (ldC1 arg5 harg5 x4) (harg1.unread x0) k1_t1_loop.trips).2 := by
  unfold Gen.kernelRun1_A
  rfl

end Cert.GateBody

end
-- ==== Proof.GateLoads1.lean ====
/-
  What the gating body's loads read, when the input buffers hold x0 … x4.

  The four loads before the loop read whole buffers through the rectangle at zero offsets: they give x1 … x4 back.
  Trip k loads the rectangle of extents [1, 1, 32, 4096] at offsets (0, k, 0, 0) of the buffer holding x0: its entry
  (0, 0, c, s) is x0[0, k, c, s].  The same rectangle places a slab index (u, v, c, s) at (0, k, c, s) of the block,
  and the one-element rectangle at (0, k, 0) places its only index at (0, k, 0).
-/
import proofs.«161621_j77464030150917_2_alg».proof.Proof.GateTrip1
import proofs.«161621_j77464030150917_2_alg».proof.Proof.GateIdx
import proofs.«161621_j77464030150917_2_alg».proof.Proof.GateLoads
import Idealize.ShloMosaic.Lib.Pipeline.Value

set_option maxRecDepth 65536

noncomputable section

namespace Cert.GateBody

open Idealize.ShloMosaic Idealize.ShloMosaic.ValueIdx Cert.KernelIdeal Cert.KernelIdeal.Gen

variable {F : FTy → Type} [FloatOps F]

/-- A whole-buffer load of a [32, 8] buffer holding x reads x. -/
theorem ldW1_eq (arg2 : Memref sig .tc .vmem S32x8 .f32) (harg2 : arg2.IsWhole) (x : Vec F S32x8 .f32) :
    ldW1 arg2 harg2 x = x := by
  simp only [View.readAt_eq_ld, harg2.read_unread, View.ld_unit_zero (S := S32x8) hz2]

/-- A whole-buffer load of an [8] buffer holding x reads x. -/
theorem ldB1_eq (arg3 : Memref sig .tc .vmem S8 .f32) (harg3 : arg3.IsWhole) (x : Vec F S8 .f32) :
    ldB1 arg3 harg3 x = x := by
  simp only [View.readAt_eq_ld, harg3.read_unread, View.ld_unit_zero (S := S8) hz1]

/-- A whole-buffer load of a [32] buffer holding x reads x. -/
theorem ldC1_eq (arg5 : Memref sig .tc .vmem S32 .f32) (harg5 : arg5.IsWhole) (x : Vec F S32 .f32) :
    ldC1 arg5 harg5 x = x := by
  simp only [View.readAt_eq_ld, harg5.read_unread, View.ld_unit_zero (S := S32) hz1]

/-- The loop makes at most 16 trips. -/
theorem trip1_lt (k : Fin k1_t1_loop.trips) : k.val < 16 := Nat.lt_of_lt_of_le k.isLt Gen.k1_t1_abs.2.1

/-- The group a trip works on, as a coordinate of the block. -/
abbrev grp1 (k : Fin k1_t1_loop.trips) : Fin 16 := ⟨k.val, trip1_lt k⟩

/-- Trip k's slab, loaded from a buffer holding x0: entry (0, 0, c, s) is x0[0, k, c, s]. -/
theorem slab1_apply (arg1 : Memref sig .tc .vmem S1x16x32x4096 .f32) (harg1 : arg1.IsWhole) (x0 : Vec F S1x16x32x4096 .f32)
    (k : Fin k1_t1_loop.trips) (c : Fin 32) (s : Fin 4096) :
    slab1 arg1 (harg1.unread x0) k (ix4 (0 : Fin 1) (0 : Fin 1) c s) = x0 (ix4 (0 : Fin 1) (grp1 k) c s) := by
  unfold slab1
  rw [View.readAt_eq_ld, harg1.read_unread]
  refine congrArg x0 (funext fun a => Fin.ext ?_)
  show (k1_off1 k) a + 1 * ((ix4 (0 : Fin 1) (0 : Fin 1) c s : S1x1x32x4096.Idx) a).val
    = ((ix4 (0 : Fin 1) (grp1 k) c s : S1x16x32x4096.Idx) a).val
  rw [Gen.k1_off1_eq k]
  match a with
  | ⟨0, _⟩ => rfl
  | ⟨1, _⟩ => show k.val + 1 * 0 = k.val; omega
  | ⟨2, _⟩ => show 0 + 1 * c.val = c.val; omega
  | ⟨3, _⟩ => show 0 + 1 * s.val = s.val; omega

/-- The slab's rectangle places the slab index (u, v, c, s) at (0, k, c, s) of the block. -/
theorem emb1_fst (k : Fin k1_t1_loop.trips) (u v : Fin 1) (c : Fin 32) (s : Fin 4096) :
    (Rect.unit (s := S1x16x32x4096) (k1_off1 k) S1x1x32x4096.size (k1_off1_inb k)).emb (ix4 u v c s)
      = ix4 (0 : Fin 1) (grp1 k) c s := by
  refine funext fun a => Fin.ext ?_
  show (k1_off1 k) a + 1 * ((ix4 u v c s : S1x1x32x4096.Idx) a).val
    = ((ix4 (0 : Fin 1) (grp1 k) c s : S1x16x32x4096.Idx) a).val
  rw [Gen.k1_off1_eq k]
  have hu : u.val = 0 := by omega
  have hv : v.val = 0 := by omega
  match a with
  | ⟨0, _⟩ => show 0 + 1 * u.val = 0; omega
  | ⟨1, _⟩ => show k.val + 1 * v.val = k.val; omega
  | ⟨2, _⟩ => show 0 + 1 * c.val = c.val; omega
  | ⟨3, _⟩ => show 0 + 1 * s.val = s.val; omega

/-- The one-element rectangle of trip k places its index at (0, k, 0) of the second output's block. -/
theorem emb1_snd (k : Fin k1_t1_loop.trips) (u v w : Fin 1) :
    (Rect.unit (s := S1x16x1) (k1_off2 k) S1x1x1.size (k1_off2_inb k)).emb (ix3 u v w)
      = ix3 (0 : Fin 1) (grp1 k) (0 : Fin 1) := by
  refine funext fun a => Fin.ext ?_
  show (k1_off2 k) a + 1 * ((ix3 u v w : S1x1x1.Idx) a).val
    = ((ix3 (0 : Fin 1) (grp1 k) (0 : Fin 1) : S1x16x1.Idx) a).val
  rw [Gen.k1_off2_eq k]
  have hu : u.val = 0 := by omega
  have hv : v.val = 0 := by omega
  have hw : w.val = 0 := by omega
  match a with
  | ⟨0, _⟩ => show 0 + 1 * u.val = 0; omega
  | ⟨1, _⟩ => show k.val + 1 * v.val = k.val; omega
  | ⟨2, _⟩ => show 0 + 1 * w.val = 0; omega

end Cert.GateBody

end
-- ==== Proof.GatePay1.lean ====
/-
  The arithmetic of one trip of the gating body, read at an index over the extended reals.

  From a slab v9 : [1, 1, 32, 4096] (one group of 32 channels by 4096 positions) and the parameters v0 : [32, 8]
  (the first weights, transposed), v2 : [8], v4 : [32, 8], v5 : [32], the trip computes
    σ[c']   = Σ_s v9[0, 0, c', s]                                          (channel sums)
    h[o]    = max( Σ_c' (σ[c'] · 2⁻¹²) · v0[c', o] + v2[o], 0 )              (hidden layer)
    gate[c] = logistic( Σ_o h[o] · v4[c, o] + v5[c] )
  and stores v9[0, 0, c, s] · gate[c] (the gated slab) and (Σ_c Σ_s v9[0, 0, c, s] · gate[c]) · 2⁻¹⁷ (its scaled
  total).  Every reduction starts from the zero word, which adds nothing; 2⁻¹² and 2⁻¹⁷ stay the f32 words.
-/
import proofs.«161621_j77464030150917_2_alg».proof.Proof.Gen.KernelIdeal.Skeleton
import proofs.«161621_j77464030150917_2_alg».proof.Proof.BodySpec
import proofs.«161621_j77464030150917_2_alg».proof.Proof.GateIdx
import proofs.«161621_j77464030150917_2_alg».proof.Proof.GatePay

set_option maxRecDepth 65536

noncomputable section

namespace Cert.GateBody

open Idealize.ShloMosaic Idealize.ShloMosaic.ValueIdx Cert.KernelIdeal Cert.KernelIdeal.Gen
open scoped BigOperators

/-! ## The payloads at an index -/

/-- The gated slab as a matrix: entry (c, s) is the slab's entry times the gate of channel c. -/
theorem pay1_apply_r1 (v0 : Vec Ideal S32x8 .f32) (v2 : Vec Ideal S8 .f32) (v4 : Vec Ideal S32x8 .f32) (v5 : Vec Ideal S32 .f32)
    (v9 : Vec Ideal S1x1x32x4096 .f32) (c : Fin 32) (s : Fin 4096) :
    Gen.k1_pay1 (F := Ideal) v0 v2 v4 v5 v9 (ix2 c s)
      = v9 (ix4 (0 : Fin 1) (0 : Fin 1) c s) * slabGate v0 v2 v4 v5 v9 c := by
  unfold Gen.k1_pay1
  dsimp only
  rw [mulf_apply, shapeCast_11ab_ab_apply, broadcastTo_a1_ab_apply]
  have hslab : ∀ (src : FVec Ideal S32x4096 .f32) (hr : S32x4096.Reduces [1] S32) (hφ : FTy.f32 = FTy.f32 ∨ FTy.f32 = FTy.bf16) (hacc : (0x00000000#32 : BitVec 32) = 0x00000000#32) (c' : Fin 32),
      multiReduction .add [1] S32 src 0x00000000#32 hr hφ hacc (ix1 c') = ∑ s' : Fin 4096, src (ix2 c' s') :=
    fun src hr hφ hacc c' => reduce_cols_apply src hr hφ hacc c'
  have hhidden : ∀ (src : FVec Ideal S32x8 .f32) (hr : S32x8.Reduces [0] S8) (hφ : FTy.f32 = FTy.f32 ∨ FTy.f32 = FTy.bf16) (hacc : (0x00000000#32 : BitVec 32) = 0x00000000#32) (o : Fin 8),
      multiReduction .add [0] S8 src 0x00000000#32 hr hφ hacc (ix1 o) = ∑ c' : Fin 32, src (ix2 c' o) :=
    fun src hr hφ hacc o => reduce_rows_apply src hr hφ hacc o
  have hout : ∀ (src : FVec Ideal S32x8 .f32) (hr : S32x8.Reduces [1] S32) (hφ : FTy.f32 = FTy.f32 ∨ FTy.f32 = FTy.bf16) (hacc : (0x00000000#32 : BitVec 32) = 0x00000000#32) (c' : Fin 32),
      multiReduction .add [1] S32 src 0x00000000#32 hr hφ hacc (ix1 c') = ∑ o : Fin 8, src (ix2 c' o) :=
    fun src hr hφ hacc c' => reduce_cols_apply src hr hφ hacc c'
  simp only [logistic, hout, hhidden, hslab, addf_apply, mulf_apply, maximumf_apply, broadcast_apply, shapeCast_a_a1_apply,
    shapeCast_a_1a_apply, broadcastTo_1b_ab_apply, broadcastTo_a1_ab_apply, shapeCast_self, shapeCast_11ab_ab_apply,
    Ideal.logistic_def, Ideal.ofBits_def, Ideal.ofBits_zero_f32]
  rfl

/-- What the trip stores into the first output, with the two unit axes in front. -/
theorem pay2_apply_r1 (v0 : Vec Ideal S32x8 .f32) (v2 : Vec Ideal S8 .f32) (v4 : Vec Ideal S32x8 .f32) (v5 : Vec Ideal S32 .f32)
    (v9 : Vec Ideal S1x1x32x4096 .f32) (u v : Fin 1) (c : Fin 32) (s : Fin 4096) :
    Gen.k1_pay2 (F := Ideal) v0 v2 v4 v5 v9 (ix4 u v c s)
      = v9 (ix4 (0 : Fin 1) (0 : Fin 1) c s) * slabGate v0 v2 v4 v5 v9 c := by
  unfold Gen.k1_pay2
  rw [shapeCast_ab_11ab_apply]
  exact pay1_apply_r1 v0 v2 v4 v5 v9 c s

/-- What the trip stores into the second output: the gated slab's total times 2⁻¹⁷. -/
theorem pay3_apply_r1 (v0 : Vec Ideal S32x8 .f32) (v2 : Vec Ideal S8 .f32) (v4 : Vec Ideal S32x8 .f32) (v5 : Vec Ideal S32 .f32)
    (v9 : Vec Ideal S1x1x32x4096 .f32) (u v w : Fin 1) :
    Gen.k1_pay3 (F := Ideal) v0 v2 v4 v5 v9 (ix3 u v w)
      = (∑ c : Fin 32, ∑ s : Fin 4096, v9 (ix4 (0 : Fin 1) (0 : Fin 1) c s) * slabGate v0 v2 v4 v5 v9 c) * Spec.k17 := by
  unfold Gen.k1_pay3
  dsimp only
  have hslab : ∀ (src : FVec Ideal S32x4096 .f32) (hr : S32x4096.Reduces [1] S32) (hφ : FTy.f32 = FTy.f32 ∨ FTy.f32 = FTy.bf16) (hacc : (0x00000000#32 : BitVec 32) = 0x00000000#32) (c' : Fin 32),
      multiReduction .add [1] S32 src 0x00000000#32 hr hφ hacc (ix1 c') = ∑ s' : Fin 4096, src (ix2 c' s') :=
    fun src hr hφ hacc c' => reduce_cols_apply src hr hφ hacc c'
  have htotal : ∀ (src : FVec Ideal S32x1 .f32) (hr : S32x1.Reduces [0] S1) (hφ : FTy.f32 = FTy.f32 ∨ FTy.f32 = FTy.bf16) (hacc : (0x00000000#32 : BitVec 32) = 0x00000000#32) (w' : Fin 1),
      multiReduction .add [0] S1 src 0x00000000#32 hr hφ hacc (ix1 w') = ∑ c' : Fin 32, src (ix2 c' w') :=
    fun src hr hφ hacc w' => reduce_rows_apply src hr hφ hacc w'
  rw [shapeCast_a_11a_apply, shapeCast_1a_a_apply, mulf_apply, shapeCast_a_1a_apply, broadcast_apply, htotal]
  simp only [shapeCast_a_a1_apply, hslab, pay1_apply_r1, Ideal.ofBits_def]
  rfl

end Cert.GateBody

end
-- ==== Proof.GateOut5R1.lean ====
/-
  The first output block of one grid point of the gating kernel.

  Every trip of the body's loop stores ONE piece into the first output: the gated slab of group k at the slab's
  rectangle.  Each such piece is the block of one function of the output block's index — the specification's gated
  block, entry (0, g, c, s) = x0[0, g, c, s] times the gate of channel c of group g —, so the 16 pieces, which cover
  the block, read back as that function.
-/
import proofs.«161621_j77464030150917_2_alg».proof.Proof.GateLoads1
import proofs.«161621_j77464030150917_2_alg».proof.Proof.GatePay1
import Idealize.ShloMosaic.Lib.Pipeline.Value

set_option maxRecDepth 65536

noncomputable section

namespace Cert.GateBody

open Idealize.ShloMosaic Idealize.ShloMosaic.ValueIdx Cert.KernelIdeal Cert.KernelIdeal.Gen
open scoped BigOperators

/-- The gated slab of trip k is the block of the specification's gated block at the slab's rectangle. -/
theorem gate_piece1 (arg1 : Memref sig .tc .vmem S1x16x32x4096 .f32) (harg1 : arg1.IsWhole) (x0 : Vec Ideal S1x16x32x4096 .f32) (x1 : Vec Ideal S32x8 .f32) (x2 : Vec Ideal S8 .f32) (x3 : Vec Ideal S32x8 .f32) (x4 : Vec Ideal S32 .f32)
    (k : Fin k1_t1_loop.trips) (x : S1x1x32x4096.Idx) :
    Gen.k1_pay2 (F := Ideal) x1 x2 x3 x4 (slab1 arg1 (harg1.unread x0) k) x
      = Spec.blkGate x0 x1 x2 x3 x4
          ((Rect.unit (s := S1x16x32x4096) (k1_off1 k) S1x1x32x4096.size (k1_off1_inb k)).emb x) := by
  obtain ⟨u, v, c, s, rfl⟩ := exists_ix4 x
  rw [pay2_apply_r1, emb1_fst]
  unfold slabGate Spec.blkGate
  simp only [slab1_apply]

/-- All the pieces of the trips before n are blocks of the gated block. -/
theorem gate_pieces_spec1 (c : Dev nD) (i : grid1.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (x0 : Vec Ideal S1x16x32x4096 .f32) (x1 : Vec Ideal S32x8 .f32) (x2 : Vec Ideal S8 .f32) (x3 : Vec Ideal S32x8 .f32) (x4 : Vec Ideal S32 .f32) :
    ∀ n : ℕ, n ≤ k1_t1_loop.trips →
      ∀ p ∈ (Gen.pb_k1_t1 (F := Ideal) Variants.none c none i arg1 harg1 arg2 harg2 arg3 harg3 arg4 harg4 arg5 harg5 arg6 harg6 arg7 harg7 x1 x2 x3 x4 (harg1.unread x0) n).1,
        ∀ x : p.1.shape.Idx, p.2 x = Spec.blkGate x0 x1 x2 x3 x4 (p.1.emb x)
  | 0, _ => by
    intro p hp
    rw [Gen.pb_k1_t1.eq_1] at hp
    exact absurd hp List.not_mem_nil
  | n + 1, hn => by
    intro p hp
    rw [Gen.pb_k1_t1_succ (F := Ideal) Variants.none c none i arg1 harg1 arg2 harg2 arg3 harg3 arg4 harg4 arg5 harg5 arg6 harg6 arg7 harg7 x1 x2 x3 x4 (harg1.unread x0) ⟨n, hn⟩] at hp
    rcases List.mem_append.mp hp with h | h
    · rw [trip1_fst] at h
      obtain rfl := List.mem_singleton.mp h
      exact fun x => gate_piece1 arg1 harg1 x0 x1 x2 x3 x4 ⟨n, hn⟩ x
    · exact gate_pieces_spec1 c i arg1 harg1 arg2 harg2 arg3 harg3 arg4 harg4 arg5 harg5 arg6 harg6 arg7 harg7 x0 x1 x2 x3 x4 n (Nat.le_of_succ_le hn) p h

/-- What one grid point leaves in the first output's block: the gated block. -/
theorem out1_5_eq (c : Dev nD) (i : grid1.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (x0 : Vec Ideal S1x16x32x4096 .f32) (x1 : Vec Ideal S32x8 .f32) (x2 : Vec Ideal S8 .f32) (x3 : Vec Ideal S32x8 .f32) (x4 : Vec Ideal S32 .f32) :
    Gen.out1_A_5 (F := Ideal) c i arg1 harg1 arg2 harg2 arg3 harg3 arg4 harg4 arg5 harg5 arg6 harg6 arg7 harg7 x0 x1 x2 x3 x4 = Spec.blkGate x0 x1 x2 x3 x4 := by
  unfold Gen.out1_A_5
  rw [View.read_writes_eq_canon _ _ _ (Gen.cover1_A_5 c i arg1 harg1 arg2 harg2 arg3 harg3 arg4 harg4 arg5 harg5 arg6 harg6 arg7 harg7 x0 x1 x2 x3 x4)]
  funext y
  refine View.canon_apply_of_pieces (Val := Elt Ideal) (S := S1x16x32x4096) (e := .f32) (Spec.blkGate x0 x1 x2 x3 x4) _ ?_ y
    (Gen.cover1_A_5 c i arg1 harg1 arg2 harg2 arg3 harg3 arg4 harg4 arg5 harg5 arg6 harg6 arg7 harg7 x0 x1 x2 x3 x4 y)
  rw [run1_fst, ldW1_eq, ldB1_eq, ldW1_eq, ldC1_eq]
  exact gate_pieces_spec1 c i arg1 harg1 arg2 harg2 arg3 harg3 arg4 harg4 arg5 harg5 arg6 harg6 arg7 harg7 x0 x1 x2 x3 x4 k1_t1_loop.trips (Nat.le_refl _)

end Cert.GateBody

end
-- ==== Proof.GateOut6R1.lean ====
/-
  The gating kernel at one grid point: what its sixteen one-element stores leave in the second output block.

  Trip k of the body's loop stores, at (0, k, 0) of the block of per-group numbers, the total of the gated slab of
  group k times 2⁻¹⁷.  The slab is group k of the input block x0, and the gate is computed from the slab's own channel
  sums and the parameters x1 … x4 as the buffers hold them, so the stored number is
    blkMean x0 x1 x2 x3 x4 (0, k, 0) = (Σ_c Σ_s x0 (0, k, c, s) · gate(k, c)) · 2⁻¹⁷.
  The sixteen one-element rectangles tile the block, so the block read back is blkMean.
-/
import proofs.«161621_j77464030150917_2_alg».proof.Proof.GateLoads1
import proofs.«161621_j77464030150917_2_alg».proof.Proof.GatePay1
import Idealize.ShloMosaic.Lib.Pipeline.Value

set_option maxRecDepth 65536

noncomputable section

namespace Cert.GateBody

open Idealize.ShloMosaic Idealize.ShloMosaic.TcCoe Idealize.ShloMosaic.ValueIdx Cert.KernelIdeal Cert.KernelIdeal.Gen
open scoped BigOperators

section Pieces

variable (𝒱 : Variants) (c : Dev nD) (bd : Option 𝒱.V) (i : grid1.Coords)
  (arg1 : Memref sig .tc .vmem S1x16x32x4096 .f32) (harg1 : arg1.IsWhole) (arg2 : Memref sig .tc .vmem S32x8 .f32) (harg2 : arg2.IsWhole)
  (arg3 : Memref sig .tc .vmem S8 .f32) (harg3 : arg3.IsWhole) (arg4 : Memref sig .tc .vmem S32x8 .f32) (harg4 : arg4.IsWhole)
  (arg5 : Memref sig .tc .vmem S32 .f32) (harg5 : arg5.IsWhole) (arg6 : Memref sig .tc .vmem S1x16x32x4096 .f32) (harg6 : arg6.IsWhole)
  (arg7 : Memref sig .tc .vmem S1x16x1 .f32) (harg7 : arg7.IsWhole)
  (x0 : Vec Ideal S1x16x32x4096 .f32) (x1 : Vec Ideal S32x8 .f32) (x2 : Vec Ideal S8 .f32) (x3 : Vec Ideal S32x8 .f32) (x4 : Vec Ideal S32 .f32)

/-- Trip k's number, at the one index of its rectangle, is the per-group mean of the block at (0, k, 0). -/
theorem mean_piece1 (k : Fin k1_t1_loop.trips)
    (x : (Rect.unit (s := S1x16x1) (k1_off2 k) S1x1x1.size (k1_off2_inb k)).shape.Idx) :
    Gen.k1_pay3 (F := Ideal) (ldW1 arg2 harg2 x1) (ldB1 arg3 harg3 x2) (ldW1 arg4 harg4 x3) (ldC1 arg5 harg5 x4)
        (slab1 arg1 (harg1.unread x0) k) x
      = Cert.Spec.blkMean x0 x1 x2 x3 x4 ((Rect.unit (s := S1x16x1) (k1_off2 k) S1x1x1.size (k1_off2_inb k)).emb x) := by
  obtain ⟨u, v, w, rfl⟩ := exists_ix3 (n0 := 1) (n1 := 1) (n2 := 1) x
  rw [pay3_apply_r1, emb1_snd, ldW1_eq, ldB1_eq, ldW1_eq, ldC1_eq]
  unfold slabGate Cert.Spec.blkMean Cert.Spec.blkGate
  refine congrArg (· * Spec.k17) ?_
  simp only [slab1_apply]

/-- So every piece the trips before n wrote into the second output holds blkMean read through its rectangle. -/
theorem mean_pieces_spec1 : ∀ (n : ℕ),
    ∀ p ∈ (Gen.pb_k1_t1 (F := Ideal) 𝒱 c bd i arg1 harg1 arg2 harg2 arg3 harg3 arg4 harg4 arg5 harg5 arg6 harg6 arg7 harg7
        (ldW1 arg2 harg2 x1) (ldB1 arg3 harg3 x2) (ldW1 arg4 harg4 x3) (ldC1 arg5 harg5 x4) (harg1.unread x0) n).2,
      ∀ y : p.1.shape.Idx, p.2 y = Cert.Spec.blkMean x0 x1 x2 x3 x4 (p.1.emb y)
  | 0 => fun p hp => by rw [Gen.pb_k1_t1.eq_1] at hp; exact absurd hp List.not_mem_nil
  | n + 1 => fun p hp => by
    by_cases h : n < k1_t1_loop.trips
    · rw [show Gen.pb_k1_t1 (F := Ideal) 𝒱 c bd i arg1 harg1 arg2 harg2 arg3 harg3 arg4 harg4 arg5 harg5 arg6 harg6 arg7 harg7
          (ldW1 arg2 harg2 x1) (ldB1 arg3 harg3 x2) (ldW1 arg4 harg4 x3) (ldC1 arg5 harg5 x4) (harg1.unread x0) (n + 1) = _ from
        Gen.pb_k1_t1_succ (F := Ideal) 𝒱 c bd i arg1 harg1 arg2 harg2 arg3 harg3 arg4 harg4 arg5 harg5 arg6 harg6 arg7 harg7
          (ldW1 arg2 harg2 x1) (ldB1 arg3 harg3 x2) (ldW1 arg4 harg4 x3) (ldC1 arg5 harg5 x4) (harg1.unread x0) ⟨n, h⟩] at hp
      rw [trip1_snd] at hp
      rcases List.mem_append.mp hp with h1 | hp'
      · obtain rfl := List.mem_singleton.mp h1
        exact fun y => mean_piece1 arg1 harg1 arg2 harg2 arg3 harg3 arg4 harg4 arg5 harg5 x0 x1 x2 x3 x4 ⟨n, h⟩ y
      · exact mean_pieces_spec1 n p hp'
    · rw [Gen.pb_k1_t1.eq_2] at hp
      unfold Gen.pb_k1_t1Step at hp
      rw [dif_neg h] at hp
      exact mean_pieces_spec1 n p hp

end Pieces

/-- What one grid point of the gating kernel leaves in its second output block: per group, the sum of the gated group
    times 2⁻¹⁷. -/
theorem out1_6_eq (c : Dev nD) (i : grid1.Coords)
    (arg1 : Memref sig .tc .vmem S1x16x32x4096 .f32) (harg1 : arg1.IsWhole) (arg2 : Memref sig .tc .vmem S32x8 .f32) (harg2 : arg2.IsWhole)
    (arg3 : Memref sig .tc .vmem S8 .f32) (harg3 : arg3.IsWhole) (arg4 : Memref sig .tc .vmem S32x8 .f32) (harg4 : arg4.IsWhole)
    (arg5 : Memref sig .tc .vmem S32 .f32) (harg5 : arg5.IsWhole) (arg6 : Memref sig .tc .vmem S1x16x32x4096 .f32) (harg6 : arg6.IsWhole)
    (arg7 : Memref sig .tc .vmem S1x16x1 .f32) (harg7 : arg7.IsWhole)
    (x0 : Vec Ideal S1x16x32x4096 .f32) (x1 : Vec Ideal S32x8 .f32) (x2 : Vec Ideal S8 .f32) (x3 : Vec Ideal S32x8 .f32) (x4 : Vec Ideal S32 .f32) :
    Gen.out1_A_6 (F := Ideal) c i arg1 harg1 arg2 harg2 arg3 harg3 arg4 harg4 arg5 harg5 arg6 harg6 arg7 harg7 x0 x1 x2 x3 x4
      = Cert.Spec.blkMean x0 x1 x2 x3 x4 := by
  have hcov := Gen.cover1_A_6 (F := Ideal) c i arg1 harg1 arg2 harg2 arg3 harg3 arg4 harg4 arg5 harg5 arg6 harg6 arg7 harg7 x0 x1 x2 x3 x4
  unfold Gen.out1_A_6
  rw [View.read_writes_eq_canon _ _ _ hcov]
  funext y
  have hy := hcov y
  rw [run1_snd] at hy ⊢
  exact View.canon_apply_of_pieces (Cert.Spec.blkMean x0 x1 x2 x3 x4) _
    (mean_pieces_spec1 Variants.none c none i arg1 harg1 arg2 harg2 arg3 harg3 arg4 harg4 arg5 harg5 arg6 harg6 arg7 harg7 x0 x1 x2 x3 x4 _) y hy

end Cert.GateBody

end
-- ==== Proof.FlushLaws.lean ====
/-
  One batch element's block against the whole grouped array.

  When a block x0 : [1, 16, 32, 4096] holds batch row b of an array A : [16, 16, 32, 4096], that is
  x0[0, g, c, s] = A[b, g, c, s], and the parameter blocks hold the gate's parameters, the gated block is batch row b
  of the gated array (`blkGate_eq_passF`) and the block of group means is batch row b of the array of group means
  (`blkMean_eq_globF`): the channel sums of a group are sums over the same entries, term by term.
-/
import proofs.«161621_j77464030150917_2_alg».proof.Proof.BodySpec

noncomputable section

open scoped BigOperators

namespace Cert.GateFlush

open Idealize.ShloMosaic Idealize.ShloMosaic.ValueIdx Cert.Spec

section Laws

variable (w1 : Fin 8 → Fin 32 → EReal) (b1 : Fin 8 → EReal) (w2 : Fin 32 → Fin 8 → EReal) (b2 : Fin 32 → EReal)
  (A : SG.Idx → EReal) (b : Fin 16)
  (x0 : SB.Idx → EReal) (x1 : (⟨2, ![32, 8]⟩ : Shape).Idx → EReal) (x2 : (⟨1, ![8]⟩ : Shape).Idx → EReal)
  (x3 : (⟨2, ![32, 8]⟩ : Shape).Idx → EReal) (x4 : (⟨1, ![32]⟩ : Shape).Idx → EReal)

/-- The gated block is batch row `b` of the gated array. -/
theorem blkGate_eq_passF (h0 : ∀ y : SB.Idx, x0 y = A (ix4 b (y 1) (y 2) (y 3)))
    (h1 : ∀ c' o, x1 (ix2 c' o) = w1 o c') (h2 : ∀ o, x2 (ix1 o) = b1 o)
    (h3 : ∀ c' o, x3 (ix2 c' o) = w2 c' o) (h4 : ∀ c', x4 (ix1 c') = b2 c') (y : SB.Idx) :
    blkGate x0 x1 x2 x3 x4 y = passF w1 b1 w2 b2 A (ix4 b (y 1) (y 2) (y 3)) := by
  have e1 : (fun o c' => x1 (ix2 c' o)) = w1 := funext fun o => funext fun c' => h1 c' o
  have e2 : (fun o => x2 (ix1 o)) = b1 := funext h2
  have e3 : (fun c' o => x3 (ix2 c' o)) = w2 := funext fun c' => funext fun o => h3 c' o
  have e4 : (fun c' => x4 (ix1 c')) = b2 := funext h4
  have e0 : (fun c' => ∑ s : Fin 4096, x0 (ix4 (y 0) (y 1) c' s)) = chanSum A b (y 1) :=
    funext fun c' => Finset.sum_congr rfl fun s _ => h0 _
  unfold blkGate passF
  rw [e1, e2, e3, e4, e0, h0 y]

/-- The block of group means is batch row `b` of the array of group means. -/
theorem blkMean_eq_globF (h0 : ∀ y : SB.Idx, x0 y = A (ix4 b (y 1) (y 2) (y 3)))
    (h1 : ∀ c' o, x1 (ix2 c' o) = w1 o c') (h2 : ∀ o, x2 (ix1 o) = b1 o)
    (h3 : ∀ c' o, x3 (ix2 c' o) = w2 c' o) (h4 : ∀ c', x4 (ix1 c') = b2 c') (y : SB1.Idx) :
    blkMean x0 x1 x2 x3 x4 y = globF w1 b1 w2 b2 A (ix3 b (y 1) (y 2)) := by
  unfold blkMean globF
  congr 1
  exact Finset.sum_congr rfl fun c' _ => Finset.sum_congr rfl fun s _ =>
    blkGate_eq_passF w1 b1 w2 b2 A b x0 x1 x2 x3 x4 h0 h1 h2 h3 h4 _

end Laws

end Cert.GateFlush

end
-- ==== Proof.Flush0.lean ====
/-
  The gating kernel's first launch, from blocks to arrays.

  Each of the 16 grid points holds one batch element: point t reads batch row t of the grouped activation
  [16, 16, 32, 4096] and the whole parameter arrays, and writes batch row t of the two outputs.  Given what one point
  leaves in its two output blocks as functions of its input blocks (the hypotheses `h5`, `h6`), the first output
  array ends as the gated array `passF` of the activation (`arr0_5`) and the second as its group means `globF`
  (`arr0_6`): every block is the matching batch row of the one whole-array function, and the 16 rows tile the array.
-/
import proofs.«161621_j77464030150917_2_alg».proof.Proof.Gen.KernelIdeal.Frame
import proofs.«161621_j77464030150917_2_alg».proof.Proof.BodySpec
import proofs.«161621_j77464030150917_2_alg».proof.Proof.FlushLaws
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.GateFlush

open Cert.KernelIdeal Cert.KernelIdeal.Gen Cert.Spec Idealize.ShloMosaic.ValueIdx

variable (V : (c : Dev nD) → (b : Ref sig .tc) → Buf (Elt Ideal) ((c : Thread nD τ).loc b))

/-- The gate's parameters as the region finds them: the first weights are stored transposed. -/
abbrev pW1 (c : Dev nD) : Fin 8 → Fin 32 → EReal := fun o c' => V c main_v0 (ix2 c' o)
abbrev pB1 (c : Dev nD) : Fin 8 → EReal := fun o => V c main_arg2 (ix1 o)
abbrev pW2 (c : Dev nD) : Fin 32 → Fin 8 → EReal := fun c' o => V c main_arg3 (ix2 c' o)
abbrev pB2 (c : Dev nD) : Fin 32 → EReal := fun c' => V c main_arg4 (ix1 c')

/-- The batch row a grid point works on: the point's own number. -/
abbrev rowOf0 (t : Fin cfg0.N) : Fin 16 := Fin.cast N_0 t

/-- The block indices over the grid: the activation's and the two outputs' blocks move along the batch axis with
    the point, the parameters' blocks stay at the origin. -/
theorem index0 : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 4) = t.val ∧ win0_5.index t (1 : Fin 4) = 0 ∧ win0_5.index t (2 : Fin 4) = 0 ∧ win0_5.index t (3 : Fin 4) = 0)
    ∧ (win0_6.index t (0 : Fin 3) = t.val ∧ win0_6.index t (1 : Fin 3) = 0 ∧ win0_6.index t (2 : Fin 3) = 0) :=
  (by decide +kernel : ∀ t : Fin grid0.N, _)

/-- The activation's block at point `t` is batch row `t` of the array. -/
theorem iblk0_0_apply (c : Dev nD) (t : Fin cfg0.N) (y : SB.Idx) :
    (Gen.iblk0 (F := Ideal) V c 0 t : SB.Idx → EReal) y = (V c main_v1 : SG.Idx → EReal) (ix4 (rowOf0 t) (y 1) (y 2) (y 3)) := by
  obtain ⟨⟨e0, e1, e2, e3⟩, -⟩ := index0 t
  unfold Gen.iblk0
  rw [View.read_apply]
  show V c main_v1 (((cfg0.win 0).blk t).view.emb y) = V c main_v1 _
  congr 1
  funext a
  apply Fin.ext
  match a with
  | ⟨0, _⟩ => show win0_0.index t (0 : Fin 4) * 1 + 1 * (y 0).val = t.val; have : (y 0).val < 1 := (y 0).isLt; omega
  | ⟨1, _⟩ => show win0_0.index t (1 : Fin 4) * 16 + 1 * (y 1).val = (y 1).val; omega
  | ⟨2, _⟩ => show win0_0.index t (2 : Fin 4) * 32 + 1 * (y 2).val = (y 2).val; omega
  | ⟨3, _⟩ => show win0_0.index t (3 : Fin 4) * 4096 + 1 * (y 3).val = (y 3).val; omega

/-- Each parameter's block is its whole array. -/
theorem iblk0_1_apply (c : Dev nD) (t : Fin cfg0.N) (j : (⟨2, ![32, 8]⟩ : Shape).Idx) :
    (Gen.iblk0 (F := Ideal) V c 1 t : (⟨2, ![32, 8]⟩ : Shape).Idx → EReal) j = V c main_v0 j := by
  obtain ⟨-, ⟨e0, e1⟩, -⟩ := index0 t
  unfold Gen.iblk0
  rw [View.read_apply]
  show V c main_v0 (((cfg0.win 1).blk t).view.emb j) = V c main_v0 _
  congr 1
  funext a
  apply Fin.ext
  match a with
  | ⟨0, _⟩ => show win0_1.index t (0 : Fin 2) * 32 + 1 * (j 0).val = (j 0).val; omega
  | ⟨1, _⟩ => show win0_1.index t (1 : Fin 2) * 8 + 1 * (j 1).val = (j 1).val; omega

theorem iblk0_2_apply (c : Dev nD) (t : Fin cfg0.N) (j : (⟨1, ![8]⟩ : Shape).Idx) :
    (Gen.iblk0 (F := Ideal) V c 2 t : (⟨1, ![8]⟩ : Shape).Idx → EReal) j = V c main_arg2 j := by
  obtain ⟨-, -, e0, -⟩ := index0 t
  unfold Gen.iblk0
  rw [View.read_apply]
  show V c main_arg2 (((cfg0.win 2).blk t).view.emb j) = V c main_arg2 _
  congr 1
  funext a
  apply Fin.ext
  match a with
  | ⟨0, _⟩ => show win0_2.index t (0 : Fin 1) * 8 + 1 * (j 0).val = (j 0).val; omega

theorem iblk0_3_apply (c : Dev nD) (t : Fin cfg0.N) (j : (⟨2, ![32, 8]⟩ : Shape).Idx) :
    (Gen.iblk0 (F := Ideal) V c 3 t : (⟨2, ![32, 8]⟩ : Shape).Idx → EReal) j = V c main_arg3 j := by
  obtain ⟨-, -, -, ⟨e0, e1⟩, -⟩ := index0 t
  unfold Gen.iblk0
  rw [View.read_apply]
  show V c main_arg3 (((cfg0.win 3).blk t).view.emb j) = V c main_arg3 _
  congr 1
  funext a
  apply Fin.ext
  match a with
  | ⟨0, _⟩ => show win0_3.index t (0 : Fin 2) * 32 + 1 * (j 0).val = (j 0).val; omega
  | ⟨1, _⟩ => show win0_3.index t (1 : Fin 2) * 8 + 1 * (j 1).val = (j 1).val; omega

theorem iblk0_4_apply (c : Dev nD) (t : Fin cfg0.N) (j : (⟨1, ![32]⟩ : Shape).Idx) :
    (Gen.iblk0 (F := Ideal) V c 4 t : (⟨1, ![32]⟩ : Shape).Idx → EReal) j = V c main_arg4 j := by
  obtain ⟨-, -, -, -, e0, -⟩ := index0 t
  unfold Gen.iblk0
  rw [View.read_apply]
  show V c main_arg4 (((cfg0.win 4).blk t).view.emb j) = V c main_arg4 _
  congr 1
  funext a
  apply Fin.ext
  match a with
  | ⟨0, _⟩ => show win0_4.index t (0 : Fin 1) * 32 + 1 * (j 0).val = (j 0).val; omega

/-- An index of the array is in point `t`'s block iff each coordinate is in the block's range on its axis. -/
theorem mem_blk0_5 (t : Fin cfg0.N) (i : SG.Idx) :
    i ∈ ((cfg0.win 5).blk t).view.set ↔ ∀ a : Fin 4, win0_5.index t a * S1x16x32x4096.size a ≤ (i a).val ∧ (i a).val < win0_5.index t a * S1x16x32x4096.size a + S1x16x32x4096.size a := by
  show i ∈ ((View.whole main_v2_0).slice (win0_5.rect t)).set ↔ _
  rw [View.set_slice_whole, Rect.mem_set_unit]
  exact Iff.rfl

/-- Every index of the first output is in the block of the point numbered by its batch coordinate. -/
theorem cover0_5 (i : SG.Idx) : ∃ t : Fin cfg0.N, (cfg0.win 5).flush t = true ∧ i ∈ ((cfg0.win 5).blk t).view.set := by
  refine ⟨Fin.cast N_0.symm (i 0), flush0_5 _, ?_⟩
  rw [mem_blk0_5]
  obtain ⟨-, -, -, -, -, ⟨e0, e1, e2, e3⟩, -⟩ := index0 (Fin.cast N_0.symm (i 0))
  have q0 : (Fin.cast N_0.symm (i 0)).val = (i 0).val := rfl
  intro a
  match a with
  | ⟨0, _⟩ => show win0_5.index _ (0 : Fin 4) * 1 ≤ (i 0).val ∧ (i 0).val < win0_5.index _ (0 : Fin 4) * 1 + 1; omega
  | ⟨1, _⟩ => show win0_5.index _ (1 : Fin 4) * 16 ≤ (i 1).val ∧ (i 1).val < win0_5.index _ (1 : Fin 4) * 16 + 16; have : (i 1).val < 16 := (i 1).isLt; omega
  | ⟨2, _⟩ => show win0_5.index _ (2 : Fin 4) * 32 ≤ (i 2).val ∧ (i 2).val < win0_5.index _ (2 : Fin 4) * 32 + 32; have : (i 2).val < 32 := (i 2).isLt; omega
  | ⟨3, _⟩ => show win0_5.index _ (3 : Fin 4) * 4096 ≤ (i 3).val ∧ (i 3).val < win0_5.index _ (3 : Fin 4) * 4096 + 4096; have : (i 3).val < 4096 := (i 3).isLt; omega

/-- An index of the second output is in point `t`'s block iff each coordinate is in the block's range on its axis. -/
theorem mem_blk0_6 (t : Fin cfg0.N) (i : SG1.Idx) :
    i ∈ ((cfg0.win 6).blk t).view.set ↔ ∀ a : Fin 3, win0_6.index t a * S1x16x1.size a ≤ (i a).val ∧ (i a).val < win0_6.index t a * S1x16x1.size a + S1x16x1.size a := by
  show i ∈ ((View.whole main_v2_1).slice (win0_6.rect t)).set ↔ _
  rw [View.set_slice_whole, Rect.mem_set_unit]
  exact Iff.rfl

/-- Every index of the second output is in the block of the point numbered by its batch coordinate. -/
theorem cover0_6 (i : SG1.Idx) : ∃ t : Fin cfg0.N, (cfg0.win 6).flush t = true ∧ i ∈ ((cfg0.win 6).blk t).view.set := by
  refine ⟨Fin.cast N_0.symm (i 0), flush0_6 _, ?_⟩
  rw [mem_blk0_6]
  obtain ⟨-, -, -, -, -, -, ⟨e0, e1, e2⟩⟩ := index0 (Fin.cast N_0.symm (i 0))
  have q0 : (Fin.cast N_0.symm (i 0)).val = (i 0).val := rfl
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 16 ≤ (i 1).val ∧ (i 1).val < win0_6.index _ (1 : Fin 3) * 16 + 16; have : (i 1).val < 16 := (i 1).isLt; omega
  | ⟨2, _⟩ => show win0_6.index _ (2 : Fin 3) * 1 ≤ (i 2).val ∧ (i 2).val < win0_6.index _ (2 : Fin 3) * 1 + 1; have : (i 2).val < 1 := (i 2).isLt; omega

section Out5

variable (h5 : ∀ (c : Dev nD) (i : grid0.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (x0 : Vec Ideal S1x16x32x4096 .f32) (x1 : Vec Ideal S32x8 .f32) (x2 : Vec Ideal S8 .f32) (x3 : Vec Ideal S32x8 .f32) (x4 : Vec Ideal S32 .f32),
    Gen.out0_A_5 (F := Ideal) c i arg1 harg1 arg2 harg2 arg3 harg3 arg4 harg4 arg5 harg5 arg6 harg6 arg7 harg7 x0 x1 x2 x3 x4 = Cert.Spec.blkGate x0 x1 x2 x3 x4)

include h5

/-- What point `t` writes back into the first output is batch row `t` of the gated array. -/
theorem flushed0_5 (c : Dev nD) (t : Fin cfg0.N) :
    (Gen.dat0 (F := Ideal) V c).flushed 5 t = ((cfg0.win 5).blk t).view.read (Elt Ideal) (passF (pW1 V c) (pB1 V c) (pW2 V c) (pB2 V c) (V c main_v1)) := by
  show (cfg0.win 5).cut (grid0.coords t) ((Gen.dat0 (F := Ideal) V c).after 5 t) = _
  rw [Gen.after0_5]
  unfold Gen.outsAt0
  dsimp only
  rw [h5]
  obtain ⟨-, -, -, -, -, ⟨e0, e1, e2, e3⟩, -⟩ := index0 t
  funext y
  rw [View.read_apply]
  show blkGate (Gen.iblk0 (F := Ideal) V c 0 t) (Gen.iblk0 (F := Ideal) V c 1 t) (Gen.iblk0 (F := Ideal) V c 2 t) (Gen.iblk0 (F := Ideal) V c 3 t) (Gen.iblk0 (F := Ideal) V c 4 t) y
    = passF (pW1 V c) (pB1 V c) (pW2 V c) (pB2 V c) (V c main_v1) (((cfg0.win 5).blk t).view.emb y)
  refine (blkGate_eq_passF (pW1 V c) (pB1 V c) (pW2 V c) (pB2 V c) (V c main_v1) (rowOf0 t) _ _ _ _ _
    (iblk0_0_apply V c t) (fun c' o => iblk0_1_apply V c t _) (fun o => iblk0_2_apply V c t _)
    (fun c' o => iblk0_3_apply V c t _) (fun c' => iblk0_4_apply V c t _) y).trans ?_
  congr 1
  funext a
  apply Fin.ext
  match a with
  | ⟨0, _⟩ => show t.val = win0_5.index t (0 : Fin 4) * 1 + 1 * (y 0).val; have : (y 0).val < 1 := (y 0).isLt; omega
  | ⟨1, _⟩ => show (y 1).val = win0_5.index t (1 : Fin 4) * 16 + 1 * (y 1).val; omega
  | ⟨2, _⟩ => show (y 2).val = win0_5.index t (2 : Fin 4) * 32 + 1 * (y 2).val; omega
  | ⟨3, _⟩ => show (y 3).val = win0_5.index t (3 : Fin 4) * 4096 + 1 * (y 3).val; omega

/-- The first output array after the region: the gated array. -/
theorem arr0_5 (c : Dev nD) : (Gen.dat0 (F := Ideal) V c).arrAt 5 cfg0.N
    = passF (fun o c' => V c main_v0 (ix2 c' o)) (fun o => V c main_arg2 (ix1 o)) (fun c' o => V c main_arg3 (ix2 c' o)) (fun c' => V c main_arg4 (ix1 c')) (V c main_v1) :=
  (Gen.dat0 (F := Ideal) V c).arrAt_eq_of_cover 5 _ (fun t _ => flushed0_5 V h5 c t) cover0_5

end Out5

section Out6

variable (h6 : ∀ (c : Dev nD) (i : grid0.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (x0 : Vec Ideal S1x16x32x4096 .f32) (x1 : Vec Ideal S32x8 .f32) (x2 : Vec Ideal S8 .f32) (x3 : Vec Ideal S32x8 .f32) (x4 : Vec Ideal S32 .f32),
    Gen.out0_A_6 (F := Ideal) c i arg1 harg1 arg2 harg2 arg3 harg3 arg4 harg4 arg5 harg5 arg6 harg6 arg7 harg7 x0 x1 x2 x3 x4 = Cert.Spec.blkMean x0 x1 x2 x3 x4)

include h6

/-- What point `t` writes back into the second output is batch row `t` of the array of group means. -/
theorem flushed0_6 (c : Dev nD) (t : Fin cfg0.N) :
    (Gen.dat0 (F := Ideal) V c).flushed 6 t = ((cfg0.win 6).blk t).view.read (Elt Ideal) (globF (pW1 V c) (pB1 V c) (pW2 V c) (pB2 V c) (V c main_v1)) := by
  show (cfg0.win 6).cut (grid0.coords t) ((Gen.dat0 (F := Ideal) V c).after 6 t) = _
  rw [Gen.after0_6]
  unfold Gen.outsAt0
  dsimp only
  rw [h6]
  obtain ⟨-, -, -, -, -, -, ⟨e0, e1, e2⟩⟩ := index0 t
  funext y
  rw [View.read_apply]
  show blkMean (Gen.iblk0 (F := Ideal) V c 0 t) (Gen.iblk0 (F := Ideal) V c 1 t) (Gen.iblk0 (F := Ideal) V c 2 t) (Gen.iblk0 (F := Ideal) V c 3 t) (Gen.iblk0 (F := Ideal) V c 4 t) y
    = globF (pW1 V c) (pB1 V c) (pW2 V c) (pB2 V c) (V c main_v1) (((cfg0.win 6).blk t).view.emb y)
  refine (blkMean_eq_globF (pW1 V c) (pB1 V c) (pW2 V c) (pB2 V c) (V c main_v1) (rowOf0 t) _ _ _ _ _
    (iblk0_0_apply V c t) (fun c' o => iblk0_1_apply V c t _) (fun o => iblk0_2_apply V c t _)
    (fun c' o => iblk0_3_apply V c t _) (fun c' => iblk0_4_apply V c t _) y).trans ?_
  congr 1
  funext a
  apply Fin.ext
  match a with
  | ⟨0, _⟩ => show t.val = win0_6.index t (0 : Fin 3) * 1 + 1 * (y 0).val; have : (y 0).val < 1 := (y 0).isLt; omega
  | ⟨1, _⟩ => show (y 1).val = win0_6.index t (1 : Fin 3) * 16 + 1 * (y 1).val; omega
  | ⟨2, _⟩ => show (y 2).val = win0_6.index t (2 : Fin 3) * 1 + 1 * (y 2).val; omega

/-- The second output array after the region: the group means of the gated array. -/
theorem arr0_6 (c : Dev nD) : (Gen.dat0 (F := Ideal) V c).arrAt 6 cfg0.N
    = globF (fun o c' => V c main_v0 (ix2 c' o)) (fun o => V c main_arg2 (ix1 o)) (fun c' o => V c main_arg3 (ix2 c' o)) (fun c' => V c main_arg4 (ix1 c')) (V c main_v1) :=
  (Gen.dat0 (F := Ideal) V c).arrAt_eq_of_cover 6 _ (fun t _ => flushed0_6 V h6 c t) cover0_6

end Out6

end Cert.GateFlush

end
-- ==== Proof.Flush1.lean ====
/-
  The gating kernel's second launch, from blocks to arrays.

  Each of the 16 grid points holds one batch element: point t reads batch row t of the shuffled activation
  [16, 16, 32, 4096] and the whole parameter arrays, and writes batch row t of the two outputs.  Given what one point
  leaves in its two output blocks as functions of its input blocks (the hypotheses `h5`, `h6`), the first output
  array ends as the gated array `passF` of the activation (`arr1_5`) and the second as its group means `globF`
  (`arr1_6`): every block is the matching batch row of the one whole-array function, and the 16 rows tile the array.
-/
import proofs.«161621_j77464030150917_2_alg».proof.Proof.Gen.KernelIdeal.Frame
import proofs.«161621_j77464030150917_2_alg».proof.Proof.BodySpec
import proofs.«161621_j77464030150917_2_alg».proof.Proof.Flush0
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.GateFlush

open Cert.KernelIdeal Cert.KernelIdeal.Gen Cert.Spec Idealize.ShloMosaic.ValueIdx

variable (V : (c : Dev nD) → (b : Ref sig .tc) → Buf (Elt Ideal) ((c : Thread nD τ).loc b))

/-- The batch row a grid point works on: the point's own number. -/
abbrev rowOf1 (t : Fin cfg1.N) : Fin 16 := Fin.cast N_1 t

/-- The block indices over the grid: the activation's and the two outputs' blocks move along the batch axis with
    the point, the parameters' blocks stay at the origin. -/
theorem index1 : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 2) = 0 ∧ win1_1.index t (1 : Fin 2) = 0)
    ∧ win1_2.index t (0 : Fin 1) = 0
    ∧ (win1_3.index t (0 : Fin 2) = 0 ∧ win1_3.index t (1 : Fin 2) = 0)
    ∧ win1_4.index t (0 : Fin 1) = 0
    ∧ (win1_5.index t (0 : Fin 4) = t.val ∧ win1_5.index t (1 : Fin 4) = 0 ∧ win1_5.index t (2 : Fin 4) = 0 ∧ win1_5.index t (3 : Fin 4) = 0)
    ∧ (win1_6.index t (0 : Fin 3) = t.val ∧ win1_6.index t (1 : Fin 3) = 0 ∧ win1_6.index t (2 : Fin 3) = 0) :=
  (by decide +kernel : ∀ t : Fin grid1.N, _)

/-- The activation's block at point `t` is batch row `t` of the array. -/
theorem iblk1_0_apply (c : Dev nD) (t : Fin cfg1.N) (y : SB.Idx) :
    (Gen.iblk1 (F := Ideal) V c 0 t : SB.Idx → EReal) y = (V c main_v6 : SG.Idx → EReal) (ix4 (rowOf1 t) (y 1) (y 2) (y 3)) := by
  obtain ⟨⟨e0, e1, e2, e3⟩, -⟩ := index1 t
  unfold Gen.iblk1
  rw [View.read_apply]
  show V c main_v6 (((cfg1.win 0).blk t).view.emb y) = V c main_v6 _
  congr 1
  funext a
  apply Fin.ext
  match a with
  | ⟨0, _⟩ => show win1_0.index t (0 : Fin 4) * 1 + 1 * (y 0).val = t.val; have : (y 0).val < 1 := (y 0).isLt; omega
  | ⟨1, _⟩ => show win1_0.index t (1 : Fin 4) * 16 + 1 * (y 1).val = (y 1).val; omega
  | ⟨2, _⟩ => show win1_0.index t (2 : Fin 4) * 32 + 1 * (y 2).val = (y 2).val; omega
  | ⟨3, _⟩ => show win1_0.index t (3 : Fin 4) * 4096 + 1 * (y 3).val = (y 3).val; omega

/-- Each parameter's block is its whole array. -/
theorem iblk1_1_apply (c : Dev nD) (t : Fin cfg1.N) (j : (⟨2, ![32, 8]⟩ : Shape).Idx) :
    (Gen.iblk1 (F := Ideal) V c 1 t : (⟨2, ![32, 8]⟩ : Shape).Idx → EReal) j = V c main_v0 j := by
  obtain ⟨-, ⟨e0, e1⟩, -⟩ := index1 t
  unfold Gen.iblk1
  rw [View.read_apply]
  show V c main_v0 (((cfg1.win 1).blk t).view.emb j) = V c main_v0 _
  congr 1
  funext a
  apply Fin.ext
  match a with
  | ⟨0, _⟩ => show win1_1.index t (0 : Fin 2) * 32 + 1 * (j 0).val = (j 0).val; omega
  | ⟨1, _⟩ => show win1_1.index t (1 : Fin 2) * 8 + 1 * (j 1).val = (j 1).val; omega

theorem iblk1_2_apply (c : Dev nD) (t : Fin cfg1.N) (j : (⟨1, ![8]⟩ : Shape).Idx) :
    (Gen.iblk1 (F := Ideal) V c 2 t : (⟨1, ![8]⟩ : Shape).Idx → EReal) j = V c main_arg2 j := by
  obtain ⟨-, -, e0, -⟩ := index1 t
  unfold Gen.iblk1
  rw [View.read_apply]
  show V c main_arg2 (((cfg1.win 2).blk t).view.emb j) = V c main_arg2 _
  congr 1
  funext a
  apply Fin.ext
  match a with
  | ⟨0, _⟩ => show win1_2.index t (0 : Fin 1) * 8 + 1 * (j 0).val = (j 0).val; omega

theorem iblk1_3_apply (c : Dev nD) (t : Fin cfg1.N) (j : (⟨2, ![32, 8]⟩ : Shape).Idx) :
    (Gen.iblk1 (F := Ideal) V c 3 t : (⟨2, ![32, 8]⟩ : Shape).Idx → EReal) j = V c main_arg3 j := by
  obtain ⟨-, -, -, ⟨e0, e1⟩, -⟩ := index1 t
  unfold Gen.iblk1
  rw [View.read_apply]
  show V c main_arg3 (((cfg1.win 3).blk t).view.emb j) = V c main_arg3 _
  congr 1
  funext a
  apply Fin.ext
  match a with
  | ⟨0, _⟩ => show win1_3.index t (0 : Fin 2) * 32 + 1 * (j 0).val = (j 0).val; omega
  | ⟨1, _⟩ => show win1_3.index t (1 : Fin 2) * 8 + 1 * (j 1).val = (j 1).val; omega

theorem iblk1_4_apply (c : Dev nD) (t : Fin cfg1.N) (j : (⟨1, ![32]⟩ : Shape).Idx) :
    (Gen.iblk1 (F := Ideal) V c 4 t : (⟨1, ![32]⟩ : Shape).Idx → EReal) j = V c main_arg4 j := by
  obtain ⟨-, -, -, -, e0, -⟩ := index1 t
  unfold Gen.iblk1
  rw [View.read_apply]
  show V c main_arg4 (((cfg1.win 4).blk t).view.emb j) = V c main_arg4 _
  congr 1
  funext a
  apply Fin.ext
  match a with
  | ⟨0, _⟩ => show win1_4.index t (0 : Fin 1) * 32 + 1 * (j 0).val = (j 0).val; omega

/-- An index of the array is in point `t`'s block iff each coordinate is in the block's range on its axis. -/
theorem mem_blk1_5 (t : Fin cfg1.N) (i : SG.Idx) :
    i ∈ ((cfg1.win 5).blk t).view.set ↔ ∀ a : Fin 4, win1_5.index t a * S1x16x32x4096.size a ≤ (i a).val ∧ (i a).val < win1_5.index t a * S1x16x32x4096.size a + S1x16x32x4096.size a := by
  show i ∈ ((View.whole main_v7_0).slice (win1_5.rect t)).set ↔ _
  rw [View.set_slice_whole, Rect.mem_set_unit]
  exact Iff.rfl

/-- Every index of the first output is in the block of the point numbered by its batch coordinate. -/
theorem cover1_5 (i : SG.Idx) : ∃ t : Fin cfg1.N, (cfg1.win 5).flush t = true ∧ i ∈ ((cfg1.win 5).blk t).view.set := by
  refine ⟨Fin.cast N_1.symm (i 0), flush1_5 _, ?_⟩
  rw [mem_blk1_5]
  obtain ⟨-, -, -, -, -, ⟨e0, e1, e2, e3⟩, -⟩ := index1 (Fin.cast N_1.symm (i 0))
  have q0 : (Fin.cast N_1.symm (i 0)).val = (i 0).val := rfl
  intro a
  match a with
  | ⟨0, _⟩ => show win1_5.index _ (0 : Fin 4) * 1 ≤ (i 0).val ∧ (i 0).val < win1_5.index _ (0 : Fin 4) * 1 + 1; omega
  | ⟨1, _⟩ => show win1_5.index _ (1 : Fin 4) * 16 ≤ (i 1).val ∧ (i 1).val < win1_5.index _ (1 : Fin 4) * 16 + 16; have : (i 1).val < 16 := (i 1).isLt; omega
  | ⟨2, _⟩ => show win1_5.index _ (2 : Fin 4) * 32 ≤ (i 2).val ∧ (i 2).val < win1_5.index _ (2 : Fin 4) * 32 + 32; have : (i 2).val < 32 := (i 2).isLt; omega
  | ⟨3, _⟩ => show win1_5.index _ (3 : Fin 4) * 4096 ≤ (i 3).val ∧ (i 3).val < win1_5.index _ (3 : Fin 4) * 4096 + 4096; have : (i 3).val < 4096 := (i 3).isLt; omega

/-- An index of the second output is in point `t`'s block iff each coordinate is in the block's range on its axis. -/
theorem mem_blk1_6 (t : Fin cfg1.N) (i : SG1.Idx) :
    i ∈ ((cfg1.win 6).blk t).view.set ↔ ∀ a : Fin 3, win1_6.index t a * S1x16x1.size a ≤ (i a).val ∧ (i a).val < win1_6.index t a * S1x16x1.size a + S1x16x1.size a := by
  show i ∈ ((View.whole main_v7_1).slice (win1_6.rect t)).set ↔ _
  rw [View.set_slice_whole, Rect.mem_set_unit]
  exact Iff.rfl

/-- Every index of the second output is in the block of the point numbered by its batch coordinate. -/
theorem cover1_6 (i : SG1.Idx) : ∃ t : Fin cfg1.N, (cfg1.win 6).flush t = true ∧ i ∈ ((cfg1.win 6).blk t).view.set := by
  refine ⟨Fin.cast N_1.symm (i 0), flush1_6 _, ?_⟩
  rw [mem_blk1_6]
  obtain ⟨-, -, -, -, -, -, ⟨e0, e1, e2⟩⟩ := index1 (Fin.cast N_1.symm (i 0))
  have q0 : (Fin.cast N_1.symm (i 0)).val = (i 0).val := rfl
  intro a
  match a with
  | ⟨0, _⟩ => show win1_6.index _ (0 : Fin 3) * 1 ≤ (i 0).val ∧ (i 0).val < win1_6.index _ (0 : Fin 3) * 1 + 1; omega
  | ⟨1, _⟩ => show win1_6.index _ (1 : Fin 3) * 16 ≤ (i 1).val ∧ (i 1).val < win1_6.index _ (1 : Fin 3) * 16 + 16; have : (i 1).val < 16 := (i 1).isLt; omega
  | ⟨2, _⟩ => show win1_6.index _ (2 : Fin 3) * 1 ≤ (i 2).val ∧ (i 2).val < win1_6.index _ (2 : Fin 3) * 1 + 1; have : (i 2).val < 1 := (i 2).isLt; omega

section Out5

variable (h5 : ∀ (c : Dev nD) (i : grid1.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (x0 : Vec Ideal S1x16x32x4096 .f32) (x1 : Vec Ideal S32x8 .f32) (x2 : Vec Ideal S8 .f32) (x3 : Vec Ideal S32x8 .f32) (x4 : Vec Ideal S32 .f32),
    Gen.out1_A_5 (F := Ideal) c i arg1 harg1 arg2 harg2 arg3 harg3 arg4 harg4 arg5 harg5 arg6 harg6 arg7 harg7 x0 x1 x2 x3 x4 = Cert.Spec.blkGate x0 x1 x2 x3 x4)

include h5

/-- What point `t` writes back into the first output is batch row `t` of the gated array. -/
theorem flushed1_5 (c : Dev nD) (t : Fin cfg1.N) :
    (Gen.dat1 (F := Ideal) V c).flushed 5 t = ((cfg1.win 5).blk t).view.read (Elt Ideal) (passF (pW1 V c) (pB1 V c) (pW2 V c) (pB2 V c) (V c main_v6)) := by
  show (cfg1.win 5).cut (grid1.coords t) ((Gen.dat1 (F := Ideal) V c).after 5 t) = _
  rw [Gen.after1_5]
  unfold Gen.outsAt1
  dsimp only
  rw [h5]
  obtain ⟨-, -, -, -, -, ⟨e0, e1, e2, e3⟩, -⟩ := index1 t
  funext y
  rw [View.read_apply]
  show blkGate (Gen.iblk1 (F := Ideal) V c 0 t) (Gen.iblk1 (F := Ideal) V c 1 t) (Gen.iblk1 (F := Ideal) V c 2 t) (Gen.iblk1 (F := Ideal) V c 3 t) (Gen.iblk1 (F := Ideal) V c 4 t) y
    = passF (pW1 V c) (pB1 V c) (pW2 V c) (pB2 V c) (V c main_v6) (((cfg1.win 5).blk t).view.emb y)
  refine (blkGate_eq_passF (pW1 V c) (pB1 V c) (pW2 V c) (pB2 V c) (V c main_v6) (rowOf1 t) _ _ _ _ _
    (iblk1_0_apply V c t) (fun c' o => iblk1_1_apply V c t _) (fun o => iblk1_2_apply V c t _)
    (fun c' o => iblk1_3_apply V c t _) (fun c' => iblk1_4_apply V c t _) y).trans ?_
  congr 1
  funext a
  apply Fin.ext
  match a with
  | ⟨0, _⟩ => show t.val = win1_5.index t (0 : Fin 4) * 1 + 1 * (y 0).val; have : (y 0).val < 1 := (y 0).isLt; omega
  | ⟨1, _⟩ => show (y 1).val = win1_5.index t (1 : Fin 4) * 16 + 1 * (y 1).val; omega
  | ⟨2, _⟩ => show (y 2).val = win1_5.index t (2 : Fin 4) * 32 + 1 * (y 2).val; omega
  | ⟨3, _⟩ => show (y 3).val = win1_5.index t (3 : Fin 4) * 4096 + 1 * (y 3).val; omega

/-- The first output array after the region: the gated array. -/
theorem arr1_5 (c : Dev nD) : (Gen.dat1 (F := Ideal) V c).arrAt 5 cfg1.N
    = passF (fun o c' => V c main_v0 (ix2 c' o)) (fun o => V c main_arg2 (ix1 o)) (fun c' o => V c main_arg3 (ix2 c' o)) (fun c' => V c main_arg4 (ix1 c')) (V c main_v6) :=
  (Gen.dat1 (F := Ideal) V c).arrAt_eq_of_cover 5 _ (fun t _ => flushed1_5 V h5 c t) cover1_5

end Out5

section Out6

variable (h6 : ∀ (c : Dev nD) (i : grid1.Coords) (arg1 : Memref sig .tc .vmem S1x16x32x4096 .f32) (harg1 : arg1.IsWhole) (arg2 : Memref sig .tc .vmem S32x8 .f32) (harg2 : arg2.IsWhole) (arg3 : Memref sig .tc .vmem S8 .f32) (harg3 : arg3.IsWhole) (arg4 : Memref sig .tc .vmem S32x8 .f32) (harg4 : arg4.IsWhole) (arg5 : Memref sig .tc .vmem S32 .f32) (harg5 : arg5.IsWhole) (arg6 : Memref sig .tc .vmem S1x16x32x4096 .f32) (harg6 : arg6.IsWhole) (arg7 : Memref sig .tc .vmem S1x16x1 .f32) (harg7 : arg7.IsWhole)
    (x0 : Vec Ideal S1x16x32x4096 .f32) (x1 : Vec Ideal S32x8 .f32) (x2 : Vec Ideal S8 .f32) (x3 : Vec Ideal S32x8 .f32) (x4 : Vec Ideal S32 .f32),
    Gen.out1_A_6 (F := Ideal) c i arg1 harg1 arg2 harg2 arg3 harg3 arg4 harg4 arg5 harg5 arg6 harg6 arg7 harg7 x0 x1 x2 x3 x4 = Cert.Spec.blkMean x0 x1 x2 x3 x4)

include h6

/-- What point `t` writes back into the second output is batch row `t` of the array of group means. -/
theorem flushed1_6 (c : Dev nD) (t : Fin cfg1.N) :
    (Gen.dat1 (F := Ideal) V c).flushed 6 t = ((cfg1.win 6).blk t).view.read (Elt Ideal) (globF (pW1 V c) (pB1 V c) (pW2 V c) (pB2 V c) (V c main_v6)) := by
  show (cfg1.win 6).cut (grid1.coords t) ((Gen.dat1 (F := Ideal) V c).after 6 t) = _
  rw [Gen.after1_6]
  unfold Gen.outsAt1
  dsimp only
  rw [h6]
  obtain ⟨-, -, -, -, -, -, ⟨e0, e1, e2⟩⟩ := index1 t
  funext y
  rw [View.read_apply]
  show blkMean (Gen.iblk1 (F := Ideal) V c 0 t) (Gen.iblk1 (F := Ideal) V c 1 t) (Gen.iblk1 (F := Ideal) V c 2 t) (Gen.iblk1 (F := Ideal) V c 3 t) (Gen.iblk1 (F := Ideal) V c 4 t) y
    = globF (pW1 V c) (pB1 V c) (pW2 V c) (pB2 V c) (V c main_v6) (((cfg1.win 6).blk t).view.emb y)
  refine (blkMean_eq_globF (pW1 V c) (pB1 V c) (pW2 V c) (pB2 V c) (V c main_v6) (rowOf1 t) _ _ _ _ _
    (iblk1_0_apply V c t) (fun c' o => iblk1_1_apply V c t _) (fun o => iblk1_2_apply V c t _)
    (fun c' o => iblk1_3_apply V c t _) (fun c' => iblk1_4_apply V c t _) y).trans ?_
  congr 1
  funext a
  apply Fin.ext
  match a with
  | ⟨0, _⟩ => show t.val = win1_6.index t (0 : Fin 3) * 1 + 1 * (y 0).val; have : (y 0).val < 1 := (y 0).isLt; omega
  | ⟨1, _⟩ => show (y 1).val = win1_6.index t (1 : Fin 3) * 16 + 1 * (y 1).val; omega
  | ⟨2, _⟩ => show (y 2).val = win1_6.index t (2 : Fin 3) * 1 + 1 * (y 2).val; omega

/-- The second output array after the region: the group means of the gated array. -/
theorem arr1_6 (c : Dev nD) : (Gen.dat1 (F := Ideal) V c).arrAt 6 cfg1.N
    = globF (fun o c' => V c main_v0 (ix2 c' o)) (fun o => V c main_arg2 (ix1 o)) (fun c' o => V c main_arg3 (ix2 c' o)) (fun c' => V c main_arg4 (ix1 c')) (V c main_v6) :=
  (Gen.dat1 (F := Ideal) V c).arrAt_eq_of_cover 6 _ (fun t _ => flushed1_6 V h6 c t) cover1_6

end Out6

end Cert.GateFlush

end
-- ==== Proof.ScaleBody.lean ====
/-
  The scaling kernel at one grid point: what its sixteen slab stores leave in the output block.

  Trip k of the body's loop loads slab k of the activation block x0 : [1, 16, 32, 4096] and the k-th of the sixteen
  weights x1 : [1, 16, 1], multiplies every entry of the slab by that weight and stores the product as slab k of the
  output block.  Each store's payload, read at a local index of its rectangle, is therefore the ONE function
    blkScale x0 x1 (0, g, c, s) = x0 (0, g, c, s) · x1 (0, g, 0)
  read at the rectangle's embedded index; the sixteen rectangles tile the block, so the block read back is that function.
-/
import proofs.«161621_j77464030150917_2_alg».proof.Proof.Gen.KernelIdeal.Frame
import proofs.«161621_j77464030150917_2_alg».proof.Proof.BodySpec
import Idealize.ShloMosaic.Lib.Pipeline.Value
import Idealize.ShloMosaic.Lib.ValueIdx

set_option maxRecDepth 16384

noncomputable section

namespace Cert.ScaleBody

open Idealize.ShloMosaic Idealize.ShloMosaic.TcCoe Idealize.ShloMosaic.ValueIdx
open Cert.KernelIdeal Cert.KernelIdeal.Gen

/-! ## One trip's store -/

section Trip

variable {F : FTy → Type} [FloatOps F]

/-- Trip k writes ONE piece: the slab rectangle at the trip's offset, holding the product of the two loads made at the
    trip's offsets. -/
theorem tripL_eq (𝒱 : Variants) (c : Dev nD) (bd : Option 𝒱.V) (i : grid2.Coords)
    (arg1 : Memref sig .tc .vmem S1x16x32x4096 .f32) (harg1 : arg1.IsWhole)
    (arg2 : Memref sig .tc .vmem S1x16x1 .f32) (harg2 : arg2.IsWhole)
    (arg3 : Memref sig .tc .vmem S1x16x32x4096 .f32) (harg3 : arg3.IsWhole)
    (X1 : BufTy.Contents (Elt F) arg1.view.ty) (X2 : BufTy.Contents (Elt F) arg2.view.ty) (k : Fin k2_t1_loop.trips) :
    Gen.tripL_k2_t1 (F := F) 𝒱 c bd i arg1 harg1 arg2 harg2 arg3 harg3 X1 X2 k
      = [(⟨Rect.unit (s := S1x16x32x4096) (k2_off1 k) S1x1x32x4096.size (k2_off1_inb k),
          Gen.k2_pay1 (F := F)
            (View.readAt (Elt F) arg1.view (Rect.unit (s := S1x16x32x4096) (k2_off1 k) S1x1x32x4096.size (k2_off1_inb k)).toLoadRect X1)
            (View.readAt (Elt F) arg2.view (Rect.unit (s := S1x16x1) (k2_off2 k) S1x1x1.size (k2_off2_inb k)).toLoadRect X2)⟩ :
          View.Piece (Elt F) S1x16x32x4096 .f32)] := by
  unfold Gen.tripL_k2_t1 Gen.trip_k2_t1
  rfl

end Trip

/-! ## The payload at an index -/

/-- All indices of the one-entry weight vector are the same index. -/
theorem idx111_eq (j j' : S1x1x1.Idx) : j = j' :=
  funext fun a => Fin.ext (by
    have hs : S1x1x1.size a = 1 := by fin_cases a <;> rfl
    have h : ∀ q : S1x1x1.Idx, (q a).val = 0 := fun q => by
      have hq := (q a).isLt
      omega
    rw [h j, h j'])

/-- The stored slab at a local index: the loaded slab's entry there times the one loaded weight. -/
theorem pay_apply (v2 : FVec Ideal S1x1x32x4096 .f32) (v5 : FVec Ideal S1x1x1 .f32) (x : S1x1x32x4096.Idx) :
    Gen.k2_pay1 (F := Ideal) v2 v5 x = v2 x * v5 (ix3 (0 : Fin 1) (0 : Fin 1) (0 : Fin 1)) := by
  unfold Gen.k2_pay1
  unfold shapeCast broadcastTo
  refine (mulf_apply _ _ _).trans ?_
  refine congrArg₂ (· * ·) (congrArg v2 ?_) (congrArg v5 (idx111_eq _ _))
  rw [Shape.reshapeEquiv_reshapeEquiv, Shape.reshapeEquiv_self]

/-! ## Every store's payload is the scaled block read through the store's rectangle -/

section Pieces

variable (𝒱 : Variants) (c : Dev nD) (bd : Option 𝒱.V) (i : grid2.Coords)
  (arg1 : Memref sig .tc .vmem S1x16x32x4096 .f32) (harg1 : arg1.IsWhole)
  (arg2 : Memref sig .tc .vmem S1x16x1 .f32) (harg2 : arg2.IsWhole)
  (arg3 : Memref sig .tc .vmem S1x16x32x4096 .f32) (harg3 : arg3.IsWhole)
  (x0 : FVec Ideal S1x16x32x4096 .f32) (x1 : FVec Ideal S1x16x1 .f32)

/-- Trip k's slab at a local index (0, 0, c, s) is x0 (0, k, c, s) · x1 (0, k, 0): the scaled block at the slab's
    embedded index. -/
theorem trip_piece (k : Fin k2_t1_loop.trips)
    (x : (Rect.unit (s := S1x16x32x4096) (k2_off1 k) S1x1x32x4096.size (k2_off1_inb k)).shape.Idx) :
    Gen.k2_pay1 (F := Ideal)
        (View.readAt (Elt Ideal) arg1.view (Rect.unit (s := S1x16x32x4096) (k2_off1 k) S1x1x32x4096.size (k2_off1_inb k)).toLoadRect (harg1.unread x0))
        (View.readAt (Elt Ideal) arg2.view (Rect.unit (s := S1x16x1) (k2_off2 k) S1x1x1.size (k2_off2_inb k)).toLoadRect (harg2.unread x1)) x
      = Cert.Spec.blkScale x0 x1 ((Rect.unit (s := S1x16x32x4096) (k2_off1 k) S1x1x32x4096.size (k2_off1_inb k)).emb x) := by
  rw [View.readAt_eq_ld, View.readAt_eq_ld, harg1.read_unread, harg2.read_unread]
  refine (pay_apply _ _ x).trans ?_
  unfold Cert.Spec.blkScale
  refine congrArg (fun z => x0 _ * x1 z) (funext fun a => Fin.ext ?_)
  have h0 : (x 0).val = 0 := by have : (x 0).val < 1 := (x 0).isLt; omega
  have h1 : (x 1).val = 0 := by have : (x 1).val < 1 := (x 1).isLt; omega
  match a with
  | ⟨0, _⟩ => show (k2_off2 k) 0 + 1 * 0 = (k2_off1 k) 0 + 1 * (x 0).val; rw [h0]; rfl
  | ⟨1, _⟩ => show (k2_off2 k) 1 + 1 * 0 = (k2_off1 k) 1 + 1 * (x 1).val; rw [h1]; rfl
  | ⟨2, _⟩ => show (k2_off2 k) 2 + 1 * 0 = 0; rfl

/-- So every piece the trips before n wrote holds the scaled block read through its rectangle. -/
theorem pieces_spec : ∀ (n : ℕ),
    ∀ p ∈ Gen.pb_k2_t1 (F := Ideal) 𝒱 c bd i arg1 harg1 arg2 harg2 arg3 harg3 (harg1.unread x0) (harg2.unread x1) n,
      ∀ y : p.1.shape.Idx, p.2 y = Cert.Spec.blkScale x0 x1 (p.1.emb y)
  | 0 => fun p hp => by rw [Gen.pb_k2_t1.eq_1] at hp; exact absurd hp List.not_mem_nil
  | n + 1 => fun p hp => by
    by_cases h : n < k2_t1_loop.trips
    · rw [show Gen.pb_k2_t1 (F := Ideal) 𝒱 c bd i arg1 harg1 arg2 harg2 arg3 harg3 (harg1.unread x0) (harg2.unread x1) (n + 1) = _ from
        Gen.pb_k2_t1_succ (F := Ideal) 𝒱 c bd i arg1 harg1 arg2 harg2 arg3 harg3 (harg1.unread x0) (harg2.unread x1) ⟨n, h⟩,
        tripL_eq, List.singleton_append] at hp
      rcases List.mem_cons.mp hp with rfl | hp'
      · exact fun y => trip_piece arg1 harg1 arg2 harg2 x0 x1 ⟨n, h⟩ y
      · exact pieces_spec n p hp'
    · rw [Gen.pb_k2_t1.eq_2] at hp
      unfold Gen.pb_k2_t1Step at hp
      rw [dif_neg h] at hp
      exact pieces_spec n p hp

end Pieces

/-! ## The block read back -/

/-- What one grid point of the scaling kernel leaves in its output block: every entry of group g times the g-th weight. -/
theorem out2_2_eq (c : Dev nD) (i : grid2.Coords)
    (arg1 : Memref sig .tc .vmem S1x16x32x4096 .f32) (harg1 : arg1.IsWhole)
    (arg2 : Memref sig .tc .vmem S1x16x1 .f32) (harg2 : arg2.IsWhole)
    (arg3 : Memref sig .tc .vmem S1x16x32x4096 .f32) (harg3 : arg3.IsWhole)
    (x0 : Vec Ideal S1x16x32x4096 .f32) (x1 : Vec Ideal S1x16x1 .f32) :
    Gen.out2_A_2 (F := Ideal) c i arg1 harg1 arg2 harg2 arg3 harg3 x0 x1 = Cert.Spec.blkScale x0 x1 := by
  have hcov := Gen.cover2_A_2 (F := Ideal) c i arg1 harg1 arg2 harg2 arg3 harg3 x0 x1
  unfold Gen.out2_A_2
  rw [View.read_writes_eq_canon _ _ _ hcov]
  funext y
  have hy := hcov y
  revert hy
  unfold Gen.kernelRun2_A
  dsimp only
  intro hy
  exact View.canon_apply_of_pieces (Cert.Spec.blkScale x0 x1) _
    (pieces_spec Variants.none c none i arg1 harg1 arg2 harg2 arg3 harg3 x0 x1 _) y hy

end Cert.ScaleBody

end
-- ==== Proof.ScaleArr.lean ====
/-
  The scaling kernel over its grid: the result array holds every entry of the activation array times its group's weight.

  Grid point t of the sixteen holds batch element t: its blocks are row t of the activation array A : [16, 16, 32, 4096],
  row t of the weights ω : [16, 16, 1] and row t of the result.  A block's element (0, g, c, s) sits in its array at
  (t, g, c, s) — block index times block size plus the coordinate inside the block —, so what point t writes back,
    blkScale (block t of A) (block t of ω) (0, g, c, s) = A (t, g, c, s) · ω (t, g, 0),
  is block t of scaleF A ω, and the sixteen blocks cover the result array.
-/
import proofs.«161621_j77464030150917_2_alg».proof.Proof.ScaleBody
import Idealize.ShloMosaic.Lib.Pipeline.Value

set_option maxRecDepth 16384

noncomputable section

namespace Cert.ScaleBody

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## Where the blocks sit -/

/-- Point t's block index, window by window: (t, 0, 0, 0), (t, 0, 0), (t, 0, 0, 0). -/
theorem index2_0 : ∀ t : Fin grid2.N, win2_0.index t 0 = t.val ∧ win2_0.index t 1 = 0 ∧ win2_0.index t 2 = 0 ∧ win2_0.index t 3 = 0 := by
  decide +kernel
theorem index2_1 : ∀ t : Fin grid2.N, win2_1.index t 0 = t.val ∧ win2_1.index t 1 = 0 ∧ win2_1.index t 2 = 0 := by
  decide +kernel
theorem index2_2 : ∀ t : Fin grid2.N, win2_2.index t 0 = t.val ∧ win2_2.index t 1 = 0 ∧ win2_2.index t 2 = 0 ∧ win2_2.index t 3 = 0 := by
  decide +kernel

/-- The activation block at point t, entry (0, g, c, s), is the array's entry (t, g, c, s). -/
theorem iblk0_apply (c : Dev nD) (t : Fin cfg2.N) (x : S1x16x32x4096.Idx) (k : S16x16x32x4096.Idx)
    (hk0 : (k 0).val = t.val) (hk1 : (k 1).val = (x 1).val) (hk2 : (k 2).val = (x 2).val) (hk3 : (k 3).val = (x 3).val) :
    (Gen.iblk2 (F := Ideal) V c 0 t : Vec Ideal S1x16x32x4096 .f32) x
      = (V c main_v7_0 : S16x16x32x4096.Idx → Elt Ideal .f32) k := by
  obtain ⟨i0, i1, i2, i3⟩ := index2_0 t
  have hx0 : (x 0).val = 0 := by have : (x 0).val < 1 := (x 0).isLt; omega
  unfold Gen.iblk2
  rw [View.read_apply]
  show V c main_v7_0 _ = V c main_v7_0 _
  congr 1
  funext a
  apply Fin.ext
  match a with
  | ⟨0, _⟩ => show win2_0.index t 0 * 1 + 1 * (x 0).val = (k 0).val; rw [i0, hk0, hx0]; omega
  | ⟨1, _⟩ => show win2_0.index t 1 * 16 + 1 * (x 1).val = (k 1).val; rw [i1, hk1]; omega
  | ⟨2, _⟩ => show win2_0.index t 2 * 32 + 1 * (x 2).val = (k 2).val; rw [i2, hk2]; omega
  | ⟨3, _⟩ => show win2_0.index t 3 * 4096 + 1 * (x 3).val = (k 3).val; rw [i3, hk3]; omega

/-- The weight block at point t, entry (0, g, 0), is the weight array's entry (t, g, 0). -/
theorem iblk1_apply (c : Dev nD) (t : Fin cfg2.N) (x : S1x16x1.Idx) (k : S16x16x1.Idx)
    (hk0 : (k 0).val = t.val) (hk1 : (k 1).val = (x 1).val) :
    (Gen.iblk2 (F := Ideal) V c 1 t : Vec Ideal S1x16x1 .f32) x
      = (V c main_v26 : S16x16x1.Idx → Elt Ideal .f32) k := by
  obtain ⟨i0, i1, i2⟩ := index2_1 t
  have hx0 : (x 0).val = 0 := by have : (x 0).val < 1 := (x 0).isLt; omega
  have hx2 : (x 2).val = 0 := by have : (x 2).val < 1 := (x 2).isLt; omega
  have hk2 : (k 2).val = 0 := by have : (k 2).val < 1 := (k 2).isLt; omega
  unfold Gen.iblk2
  rw [View.read_apply]
  show V c main_v26 _ = V c main_v26 _
  congr 1
  funext a
  apply Fin.ext
  match a with
  | ⟨0, _⟩ => show win2_1.index t 0 * 1 + 1 * (x 0).val = (k 0).val; rw [i0, hk0, hx0]; omega
  | ⟨1, _⟩ => show win2_1.index t 1 * 16 + 1 * (x 1).val = (k 1).val; rw [i1, hk1]; omega
  | ⟨2, _⟩ => show win2_1.index t 2 * 1 + 1 * (x 2).val = (k 2).val; rw [i2, hk2, hx2]

/-! ## What a point writes back -/

/-- The result array the region leaves: every entry of the activation array times its group's weight. -/
abbrev target (c : Dev nD) : Buf (Elt Ideal) ((c : Thread nD τ).loc main_v27) :=
  Cert.Spec.scaleF (V c main_v7_0) (V c main_v26)

/-- Point t writes back block t of the target. -/
theorem flushed_eq (c : Dev nD) (t : Fin cfg2.N) :
    (Gen.dat2 (F := Ideal) V c).flushed 2 t = ((cfg2.win 2).blk t).view.read (Elt Ideal) (target V c) := by
  obtain ⟨i0, i1, i2, i3⟩ := index2_2 t
  show (cfg2.win 2).cut (grid2.coords t) ((Gen.dat2 (F := Ideal) V c).after 2 t) = _
  rw [Gen.after2_2]
  unfold Gen.outsAt2
  rw [out2_2_eq]
  funext y
  rw [View.read_apply]
  have e0 : ((win2_2.rect t).emb y 0 : Nat) = t.val := by
    have hy : (y 0).val < 1 := (y 0).isLt
    rw [win2_2.rect_emb_val t y 0, i0]; show t.val * 1 + (y 0).val = t.val; omega
  have e1 : ((win2_2.rect t).emb y 1 : Nat) = (y 1).val := win2_2.rect_emb_val_of_index_zero t 1 i1 y
  have e2 : ((win2_2.rect t).emb y 2 : Nat) = (y 2).val := win2_2.rect_emb_val_of_index_zero t 2 i2 y
  have e3 : ((win2_2.rect t).emb y 3 : Nat) = (y 3).val := win2_2.rect_emb_val_of_index_zero t 3 i3 y
  show Cert.Spec.blkScale (Gen.iblk2 (F := Ideal) V c 0 t) (Gen.iblk2 (F := Ideal) V c 1 t) (win2_2.xinj (grid2.coords t) y)
    = Cert.Spec.scaleF (V c main_v7_0) (V c main_v26) ((win2_2.rect t).emb y)
  unfold Cert.Spec.blkScale Cert.Spec.scaleF
  refine congrArg₂ (· * ·) ?_ ?_
  · exact iblk0_apply V c t _ _ e0 e1 e2 e3
  · exact iblk1_apply V c t _ _ e0 e1

/-! ## The whole array -/

/-- The result array after the region: scaleF of the activation array and the weights as the region found them. -/
theorem arr2_2 (c : Dev nD) :
    (Gen.dat2 (F := Ideal) V c).arrAt 2 cfg2.N = Cert.Spec.scaleF (V c main_v7_0) (V c main_v26) :=
  (Gen.dat2 (F := Ideal) V c).arrAt_eq_of_cover 2 (target V c) (fun t _ => flushed_eq V c t) fun i => by
    have hN : grid2.N = 16 := Gen.N_2
    have hi0 : (i 0 : Nat) < 16 := (i 0).isLt
    have hi1 : (i 1 : Nat) < 16 := (i 1).isLt
    have hi2 : (i 2 : Nat) < 32 := (i 2).isLt
    have hi3 : (i 3 : Nat) < 4096 := (i 3).isLt
    have hlt : (i 0 : Nat) < grid2.N := by rw [hN]; exact hi0
    refine ⟨⟨(i 0 : Nat), hlt⟩, Gen.flush2_2 _, ?_⟩
    obtain ⟨j0', j1, j2, j3⟩ := index2_2 ⟨(i 0 : Nat), hlt⟩
    have j0 : win2_2.index ⟨(i 0 : Nat), hlt⟩ 0 = (i 0 : Nat) := j0'
    show i ∈ ((View.whole main_v27).slice (win2_2.rect ⟨(i 0 : Nat), hlt⟩)).set
    rw [View.set_slice_whole, Rect.mem_set_unit]
    intro a
    match a with
    | ⟨0, _⟩ => show win2_2.index ⟨(i 0 : Nat), hlt⟩ 0 * 1 ≤ (i 0 : Nat) ∧ (i 0 : Nat) < win2_2.index ⟨(i 0 : Nat), hlt⟩ 0 * 1 + 1
                rw [j0]; omega
    | ⟨1, _⟩ => show win2_2.index ⟨(i 0 : Nat), hlt⟩ 1 * 16 ≤ (i 1 : Nat) ∧ (i 1 : Nat) < win2_2.index ⟨(i 0 : Nat), hlt⟩ 1 * 16 + 16
                rw [j1]; omega
    | ⟨2, _⟩ => show win2_2.index ⟨(i 0 : Nat), hlt⟩ 2 * 32 ≤ (i 2 : Nat) ∧ (i 2 : Nat) < win2_2.index ⟨(i 0 : Nat), hlt⟩ 2 * 32 + 32
                rw [j2]; omega
    | ⟨3, _⟩ => show win2_2.index ⟨(i 0 : Nat), hlt⟩ 3 * 4096 ≤ (i 3 : Nat) ∧ (i 3 : Nat) < win2_2.index ⟨(i 0 : Nat), hlt⟩ 3 * 4096 + 4096
                rw [j3]; omega

end Cert.ScaleBody

end
-- ==== Proof.lean ====
/-
  Gated channel-group attention: a three-launch kernel program against its plain reference, equal as extended reals.

  The activation x[b, ch, h, w] (16 × 512 × 64 × 64) is 16 groups of 32 channels.  A gating pass multiplies every channel
  by logistic(W₂ · relu(W₁ · mean + b₁) + b₂) of its own group's 32 spatial means; the program makes two passes with a
  channel shuffle between them, then scales each group by a cross-group weight computed from the group means of the
  second pass, and lays the channels out with the channel inside the group as the major axis.

  The kernel program does each pass in one launch whose grid point handles one batch element, sixteen groups in a
  counted loop: spatial sum times 2⁻¹², the two small products as broadcast-multiply-and-sum, the logistic function,
  and the group mean as one sum times 2⁻¹⁷; a third launch scales the groups; host reshapes and transposes do the
  shuffle and the final layout.  The reference divides the spatial sum by 4096, uses dot products, writes the logistic
  function as 1 / (1 + e^(-v)) and takes the group mean as a mean over channels of means over positions.

  Both are the one function `Cert.Spec.out` of the nine argument arrays (Proof/Spec.lean):
    * the reference by reading its run one operation at a time (Proof/Ref.lean), with the three scalar laws of
      Proof/SpecLaws.lean — x / 4096 = x · 2⁻¹², a mean of means is one mean (a nonnegative real factor moves out of a
      sum of extended reals, so no finiteness is needed), and 1 / (1 + e^(-v)) = logistic v;
    * the kernel program by following its memory through its segments (Proof/Glue.lean) from what each launch leaves
      in its output arrays: one grid point's blocks (Proof/GateOut5.lean, GateOut5R1.lean, GateOut6R1.lean,
      ScaleBody.lean), the blocks tiling the arrays (Proof/Flush0.lean, Flush1.lean, ScaleArr.lean), the host chains
      read at an index (Proof/Layout.lean, CrossHost.lean), and the run with the result buffer named
      (Proof/KernelRun.lean).
  The precondition (finite inputs) is not used: every law above holds on all extended reals.
  The three frames are the programs' runs with the result dropped; no operation was rewritten by the idealization, so
  there is nothing to preserve.
-/
import proofs.«161621_j77464030150917_2_alg».proof.Defs
import proofs.«161621_j77464030150917_2_alg».proof.Proof.Gen.Kernel
import proofs.«161621_j77464030150917_2_alg».proof.Proof.Gen.Kernel.Skeleton
import proofs.«161621_j77464030150917_2_alg».proof.Proof.Gen.Kernel.Loops
import proofs.«161621_j77464030150917_2_alg».proof.Proof.Gen.Kernel.Launch
import proofs.«161621_j77464030150917_2_alg».proof.Proof.Gen.Kernel.Points
import proofs.«161621_j77464030150917_2_alg».proof.Proof.Gen.Kernel.Frame
import proofs.«161621_j77464030150917_2_alg».proof.Proof.Gen.KernelIdeal
import proofs.«161621_j77464030150917_2_alg».proof.Proof.Gen.KernelIdeal.Skeleton
import proofs.«161621_j77464030150917_2_alg».proof.Proof.Gen.KernelIdeal.Loops
import proofs.«161621_j77464030150917_2_alg».proof.Proof.Gen.KernelIdeal.Launch
import proofs.«161621_j77464030150917_2_alg».proof.Proof.Gen.KernelIdeal.Points
import proofs.«161621_j77464030150917_2_alg».proof.Proof.Gen.KernelIdeal.Frame
import proofs.«161621_j77464030150917_2_alg».proof.Proof.Gen.ReferenceIdeal
import proofs.«161621_j77464030150917_2_alg».proof.Proof.Gen.Pre_finite_inputs
import proofs.«161621_j77464030150917_2_alg».proof.Proof.Gen.ReferenceIdeal.Run
import proofs.«161621_j77464030150917_2_alg».proof.Proof.Gen.ReferenceIdeal.Read
import proofs.«161621_j77464030150917_2_alg».proof.Proof.KernelRun
import proofs.«161621_j77464030150917_2_alg».proof.Proof.Glue
import proofs.«161621_j77464030150917_2_alg».proof.Proof.Ref
import proofs.«161621_j77464030150917_2_alg».proof.Proof.GateOut5
import proofs.«161621_j77464030150917_2_alg».proof.Proof.GateOut5R1
import proofs.«161621_j77464030150917_2_alg».proof.Proof.GateOut6R1
import proofs.«161621_j77464030150917_2_alg».proof.Proof.Flush0
import proofs.«161621_j77464030150917_2_alg».proof.Proof.Flush1
import proofs.«161621_j77464030150917_2_alg».proof.Proof.ScaleArr
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-! ## What each launch leaves in its output arrays -/

/-- The first launch: the gating pass of its first operand. -/
theorem gate0 : Cert.KernelIdeal.Glue.Gate0Out := fun V c => Cert.GateFlush.arr0_5 V Cert.GateBody.out0_5_eq c
/-- The second launch: the gating pass of its first operand, and that pass's group means. -/
theorem gate1 : Cert.KernelIdeal.Glue.Gate1Out := fun V c => Cert.GateFlush.arr1_5 V Cert.GateBody.out1_5_eq c
theorem gate1m : Cert.KernelIdeal.Glue.Gate1Mean := fun V c => Cert.GateFlush.arr1_6 V Cert.GateBody.out1_6_eq c
/-- The third launch: every group times its weight. -/
theorem scale : Cert.KernelIdeal.Glue.ScaleOut := fun V c => Cert.ScaleBody.arr2_2 V c

/-! ## The two programs compute one function -/

theorem algebraic  : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Glue.kernel_value m ρ c gate0 gate1 gate1m scale), (h c).2⟩)
      (Cert.KernelIdeal.RunValue.run_named (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v77_eq, Cert.RefSide.ref_eq, (hagree c).1, (hagree c).2.1, (hagree c).2.2.1,
      (hagree c).2.2.2.1, (hagree c).2.2.2.2.1, (hagree c).2.2.2.2.2.1, (hagree c).2.2.2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
